-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S1024x100000 : Shape := ⟨2, ![1024, 100000]⟩
abbrev S100000x64 : Shape := ⟨2, ![100000, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S1024x100000 : S_.BroadcastsInDim S1024x100000 (![] : Fin 0 → Fin S1024x100000.rank)
  reducesTo_S1024x100000_S_d0_1 : S1024x100000.ReducesTo [0, 1] S_
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : FVec F S1024x64 .f32) (main_arg1 : FVec F S1024x100000 .f32) (main_arg2 : FVec F S100000x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S1024x100000 .f32 := Host.absf main_arg1
  let main_cst_0 : FVec F S_ .f32 := constant S_ .f32 0x7F800000#32
  let main_v5 : FVec F S1024x100000 .f32 := broadcastInDim S1024x100000 ![] bcast_S_S1024x100000 main_cst_0
  let main_v6 : IVec S1024x100000 1 := cmpf .olt main_v4 main_v5
  let main_c_1 : IVec S_ 1 := constantI S_ 1 1#1
  let main_v7 : IVec S_ 1 := (fun x v => Host.reduce IntOp.andi x v reducesTo_S1024x100000_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  main_v13
-- ==== Kernel.lean ====
abbrev S1024x64 : Shape := ⟨2, ![1024, 64]⟩
abbrev S1024x100000 : Shape := ⟨2, ![1024, 100000]⟩
abbrev S100000x64 : Shape := ⟨2, ![100000, 64]⟩
abbrev S1024x1 : Shape := ⟨2, ![1024, 1]⟩
abbrev S1024x1024 : Shape := ⟨2, ![1024, 1024]⟩
abbrev S1024x672 : Shape := ⟨2, ![1024, 672]⟩
abbrev S672x64 : Shape := ⟨2, ![672, 64]⟩
abbrev S1024 : Shape := ⟨1, ![1024]⟩

abbrev nBuf : Space → Nat
  | .hbm => 4
  | .vmem => 19
  | .smem => 0
  | _ => 0

abbrev bufTy : (tb : Table) → Fin (tcTables nBuf tb) → BufTy
  | .hbm, ⟨0, _⟩ => ⟨S1024x64, .f32⟩
  | .hbm, ⟨1, _⟩ => ⟨S1024x100000, .f32⟩
  | .hbm, ⟨2, _⟩ => ⟨S100000x64, .f32⟩
  | .hbm, ⟨3, _⟩ => ⟨S1024x1, .f32⟩
  | .local _ .vmem, ⟨0, _⟩ => ⟨S1024x64, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S1024x64, .f32⟩
  | .local _ .vmem, ⟨17, _⟩ => ⟨S1024x1, .f32⟩
  | .local _ .vmem, ⟨18, _⟩ => ⟨S1024x64, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![25], ![false]⟩

def k0_cond3 (i : grid0.Coords) : BitVec 1 :=
  let arg0 : BitVec 32 := BitVec.ofNat 32 (i 0).val
  let c24_i32_2 : BitVec 32 := 24#32
  let v6 : BitVec 1 := Scalar.cmpi .eq arg0 c24_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c97_i32 : BitVec 32 := 97#32
  let v2 : BitVec 32 := Scalar.minsi v1 c97_i32
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c97_i32 : BitVec 32 := 97#32
  let v2 : BitVec 32 := Scalar.minsi v1 c97_i32
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c97_i32 : BitVec 32 := 97#32
  let v2 : BitVec 32 := Scalar.minsi v1 c97_i32
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c97_i32 : BitVec 32 := 97#32
  let v2 : BitVec 32 := Scalar.minsi v1 c97_i32
  let c0_i32 : BitVec 32 := 0#32
  let c0_i32_0 : BitVec 32 := 0#32
  ![c0_i32.toNat, v2.toNat]

def cc0_transform_5 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c97_i32 : BitVec 32 := 97#32
  let v2 : BitVec 32 := Scalar.minsi v1 c97_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c97_i32 : BitVec 32 := 97#32
  let v2 : BitVec 32 := Scalar.minsi v1 c97_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c97_i32 : BitVec 32 := 97#32
  let v2 : BitVec 32 := Scalar.minsi v1 c97_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c97_i32 : BitVec 32 := 97#32
  let v2 : BitVec 32 := Scalar.minsi v1 c97_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  inb_S1024x1024_S1024x672_0_0 : ∀ a, (![0, 0] : Fin 2 → Nat) a + S1024x672.size a ≤ S1024x1024.size a
  h_S1024x672 : 0 < S1024x672.numel
  inb_S1024x64_S672x64_0_0 : ∀ a, (![0, 0] : Fin 2 → Nat) a + S672x64.size a ≤ S1024x64.size a
  h_S672x64 : 0 < S672x64.numel
  reduces_S1024x64_S1024 : S1024x64.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  dot_S1024x1024_S1024x64_S1024x64_1_0_0_1_n_n_wf : DotDims.WF S1024x1024 S1024x64 S1024x64 [1] [0] [0] [1] [] []
  dot_S1024x672_S672x64_S1024x64_1_0_0_1_n_n_wf : DotDims.WF S1024x672 S672x64 S1024x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S1024x64.size a
  hwx0_0 : ∀ i : grid0.Coords, EltTy.bits .f32 = 32 ∨ (Rect.block (s := S1024x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x1024.size a < S1024x100000.size a
  hwx0_1 : ∀ i : grid0.Coords, EltTy.bits .f32 = 32 ∨ (Rect.unit (s := S1024x100000) (fun a => cc0_transform_1 i a * S1024x1024.size a) (fun a => (Pipeline.Clip.of (cc0_transform_1 i a) (S1024x1024.size a) (S1024x100000.size a)).extent (S1024x1024.size a)) fun a => Pipeline.Clip.inb (Pipeline.Clip.ok_of (hstart0_1 i a))).WholeWords (EltTy.packing .f32)
  hwxs0_1 : ∀ i : grid0.Coords, EltTy.bits .f32 = 32 ∨ (Rect.unit (s := S1024x1024) (fun _ => 0) (fun a => (Pipeline.Clip.of (cc0_transform_1 i a) (S1024x1024.size a) (S1024x100000.size a)).extent (S1024x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x1024.size a < S1024x100000.size a
  hwx0_2 : ∀ i : grid0.Coords, EltTy.bits .f32 = 32 ∨ (Rect.unit (s := S1024x100000) (fun a => cc0_transform_2 i a * S1024x1024.size a) (fun a => (Pipeline.Clip.of (cc0_transform_2 i a) (S1024x1024.size a) (S1024x100000.size a)).extent (S1024x1024.size a)) fun a => Pipeline.Clip.inb (Pipeline.Clip.ok_of (hstart0_2 i a))).WholeWords (EltTy.packing .f32)
  hwxs0_2 : ∀ i : grid0.Coords, EltTy.bits .f32 = 32 ∨ (Rect.unit (s := S1024x1024) (fun _ => 0) (fun a => (Pipeline.Clip.of (cc0_transform_2 i a) (S1024x1024.size a) (S1024x100000.size a)).extent (S1024x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x1024.size a < S1024x100000.size a
  hwx0_3 : ∀ i : grid0.Coords, EltTy.bits .f32 = 32 ∨ (Rect.unit (s := S1024x100000) (fun a => cc0_transform_3 i a * S1024x1024.size a) (fun a => (Pipeline.Clip.of (cc0_transform_3 i a) (S1024x1024.size a) (S1024x100000.size a)).extent (S1024x1024.size a)) fun a => Pipeline.Clip.inb (Pipeline.Clip.ok_of (hstart0_3 i a))).WholeWords (EltTy.packing .f32)
  hwxs0_3 : ∀ i : grid0.Coords, EltTy.bits .f32 = 32 ∨ (Rect.unit (s := S1024x1024) (fun _ => 0) (fun a => (Pipeline.Clip.of (cc0_transform_3 i a) (S1024x1024.size a) (S1024x100000.size a)).extent (S1024x1024.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1024x1024.size a < S1024x100000.size a
  hwx0_4 : ∀ i : grid0.Coords, EltTy.bits .f32 = 32 ∨ (Rect.unit (s := S1024x100000) (fun a => cc0_transform_4 i a * S1024x1024.size a) (fun a => (Pipeline.Clip.of (cc0_transform_4 i a) (S1024x1024.size a) (S1024x100000.size a)).extent (S1024x1024.size a)) fun a => Pipeline.Clip.inb (Pipeline.Clip.ok_of (hstart0_4 i a))).WholeWords (EltTy.packing .f32)
  hwxs0_4 : ∀ i : grid0.Coords, EltTy.bits .f32 = 32 ∨ (Rect.unit (s := S1024x1024) (fun _ => 0) (fun a => (Pipeline.Clip.of (cc0_transform_4 i a) (S1024x1024.size a) (S1024x100000.size a)).extent (S1024x1024.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1024x64.size a < S100000x64.size a
  hwx0_5 : ∀ i : grid0.Coords, EltTy.bits .f32 = 32 ∨ (Rect.unit (s := S100000x64) (fun a => cc0_transform_5 i a * S1024x64.size a) (fun a => (Pipeline.Clip.of (cc0_transform_5 i a) (S1024x64.size a) (S100000x64.size a)).extent (S1024x64.size a)) fun a => Pipeline.Clip.inb (Pipeline.Clip.ok_of (hstart0_5 i a))).WholeWords (EltTy.packing .f32)
  hwxs0_5 : ∀ i : grid0.Coords, EltTy.bits .f32 = 32 ∨ (Rect.unit (s := S1024x64) (fun _ => 0) (fun a => (Pipeline.Clip.of (cc0_transform_5 i a) (S1024x64.size a) (S100000x64.size a)).extent (S1024x64.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1024x64.size a < S100000x64.size a
  hwx0_6 : ∀ i : grid0.Coords, EltTy.bits .f32 = 32 ∨ (Rect.unit (s := S100000x64) (fun a => cc0_transform_6 i a * S1024x64.size a) (fun a => (Pipeline.Clip.of (cc0_transform_6 i a) (S1024x64.size a) (S100000x64.size a)).extent (S1024x64.size a)) fun a => Pipeline.Clip.inb (Pipeline.Clip.ok_of (hstart0_6 i a))).WholeWords (EltTy.packing .f32)
  hwxs0_6 : ∀ i : grid0.Coords, EltTy.bits .f32 = 32 ∨ (Rect.unit (s := S1024x64) (fun _ => 0) (fun a => (Pipeline.Clip.of (cc0_transform_6 i a) (S1024x64.size a) (S100000x64.size a)).extent (S1024x64.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S1024x64.size a < S100000x64.size a
  hwx0_7 : ∀ i : grid0.Coords, EltTy.bits .f32 = 32 ∨ (Rect.unit (s := S100000x64) (fun a => cc0_transform_7 i a * S1024x64.size a) (fun a => (Pipeline.Clip.of (cc0_transform_7 i a) (S1024x64.size a) (S100000x64.size a)).extent (S1024x64.size a)) fun a => Pipeline.Clip.inb (Pipeline.Clip.ok_of (hstart0_7 i a))).WholeWords (EltTy.packing .f32)
  hwxs0_7 : ∀ i : grid0.Coords, EltTy.bits .f32 = 32 ∨ (Rect.unit (s := S1024x64) (fun _ => 0) (fun a => (Pipeline.Clip.of (cc0_transform_7 i a) (S1024x64.size a) (S100000x64.size a)).extent (S1024x64.size a)) fun a => (Nat.zero_add _).trans_le (Pipeline.Clip.extent_le (Pipeline.Clip.ok_of (hstart0_7 i a)))).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S1024x64.size a < S100000x64.size a
  hwx0_8 : ∀ i : grid0.Coords, EltTy.bits .f32 = 32 ∨ (Rect.unit (s := S100000x64) (fun a => cc0_transform_8 i a * S1024x64.size a) (fun a => (Pipeline.Clip.of (cc0_transform_8 i a) (S1024x64.size a) (S100000x64.size a)).extent (S1024x64.size a)) fun a => Pipeline.Clip.inb (Pipeline.Clip.ok_of (hstart0_8 i a))).WholeWords (EltTy.packing .f32)
  hwxs0_8 : ∀ i : grid0.Coords, EltTy.bits .f32 = 32 ∨ (Rect.unit (s := S1024x64) (fun _ => 0) (fun a => (Pipeline.Clip.of (cc0_transform_8 i a) (S1024x64.size a) (S100000x64.size a)).extent (S1024x64.size a)) fun a => (Nat.zero_add _).trans_le (Pipeline.Clip.extent_le (Pipeline.Clip.ok_of (hstart0_8 i a)))).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S1024x1.size a
  hwx0_9 : ∀ i : grid0.Coords, EltTy.bits .f32 = 32 ∨ (Rect.block (s := S1024x1) S1024x1.size (cc0_transform_9 i) (hinb0_9 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x672_S672x64_S1024x64_1_0_0_1_n_n : DotDims S1024x672 S672x64 S1024x64 where
  lhsContracting := [1]
  rhsContracting := [0]
  lhsNonContracting := [0]
  rhsNonContracting := [1]
  lhsBatch := []
  rhsBatch := []
  wf := dot_S1024x672_S672x64_S1024x64_1_0_0_1_n_n_wf

abbrev win0_0 : Pipeline.Window sig grid0 :=
  Pipeline.Window.ofSpec (Memref.whole main_arg0) S1024x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1024x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg1) S1024x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg1) S1024x1024.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_arg1) S1024x1024.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_arg2) S1024x64.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_arg2) S1024x64.size cc0_transform_6 reads0_6 false false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_arg2) S1024x64.size cc0_transform_7 reads0_7 false false 2 stage0_7 sem0_7
    hrank0 hreads0_7 hstart0_7 nbuf0_7 (Memref.isWhole_whole _) hwx0_7 hwxs0_7 hstage0_7

abbrev win0_8 : Pipeline.Window sig grid0 :=
  Pipeline.Window.ofSpecClip (Memref.whole main_arg2) S1024x64.size cc0_transform_8 reads0_8 false false 2 stage0_8 sem0_8
    hrank0 hreads0_8 hstart0_8 nbuf0_8 (Memref.isWhole_whole _) hwx0_8 hwxs0_8 hstage0_8

abbrev win0_9 : Pipeline.Window sig grid0 :=
  Pipeline.Window.ofSpec (Memref.whole main_v0) S1024x1.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond3 i == 1#1) | ⟨_ + 10, h⟩ => absurd h (Nat.not_lt.2 (Nat.le_add_left _ _))

class Facts : Prop extends Facts₀ where

variable [Facts]
-- ==== ReferenceIdeal.lean ====
abbrev S1024x64 : Shape := ⟨2, ![1024, 64]⟩
abbrev S1024x100000 : Shape := ⟨2, ![1024, 100000]⟩
abbrev S100000x64 : Shape := ⟨2, ![100000, 64]⟩
abbrev S100000x1024 : Shape := ⟨2, ![100000, 1024]⟩
abbrev S_ : Shape := ⟨0, ![]⟩
abbrev S100000 : Shape := ⟨1, ![100000]⟩
abbrev S100000x1 : Shape := ⟨2, ![100000, 1]⟩
abbrev S1024 : Shape := ⟨1, ![1024]⟩
abbrev S1024x1 : Shape := ⟨2, ![1024, 1]⟩

abbrev nBuf : Space → Nat
  | .hbm => 26
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024x100000, .f32⟩
  | .hbm, ⟨2, _⟩ => ⟨S100000x64, .f32⟩
  | .hbm, ⟨3, _⟩ => ⟨S100000x1024, .f32⟩
  | .hbm, ⟨4, _⟩ => ⟨S_, .f32⟩
  | .hbm, ⟨5, _⟩ => ⟨S100000, .f32⟩
  | .hbm, ⟨6, _⟩ => ⟨S100000x1, .f32⟩
  | .hbm, ⟨7, _⟩ => ⟨S_, .f32⟩
  | .hbm, ⟨8, _⟩ => ⟨S100000x1, .f32⟩
  | .hbm, ⟨9, _⟩ => ⟨S100000x1, .f32⟩
  | .hbm, ⟨10, _⟩ => ⟨S100000x1024, .f32⟩
  | .hbm, ⟨11, _⟩ => ⟨S1024x64, .f32⟩
  | .hbm, ⟨12, _⟩ => ⟨S1024x64, .f32⟩
  | .hbm, ⟨13, _⟩ => ⟨S100000x64, .f32⟩
  | .hbm, ⟨14, _⟩ => ⟨S100000x64, .f32⟩
  | .hbm, ⟨15, _⟩ => ⟨S100000x64, .f32⟩
  | .hbm, ⟨16, _⟩ => ⟨S_, .f32⟩
  | .hbm, ⟨17, _⟩ => ⟨S100000x64, .f32⟩
  | .hbm, ⟨18, _⟩ => ⟨S100000x64, .f32⟩
  | .hbm, ⟨19, _⟩ => ⟨S100000x64, .f32⟩
  | .hbm, ⟨20, _⟩ => ⟨S1024x64, .f32⟩
  | .hbm, ⟨21, _⟩ => ⟨S1024x64, .f32⟩
  | .hbm, ⟨22, _⟩ => ⟨S1024x64, .f32⟩
  | .hbm, ⟨23, _⟩ => ⟨S_, .f32⟩
  | .hbm, ⟨24, _⟩ => ⟨S1024, .f32⟩
  | .hbm, ⟨25, _⟩ => ⟨S1024x1, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  transposes_S1024x100000_S100000x1024_1_0 : S1024x100000.Transposes [1, 0] S100000x1024
  reducesTo_S100000x1024_S100000_d1 : S100000x1024.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  reducesTo_S1024x64_S1024_d1 : S1024x64.ReducesTo [1] S1024
  bcast_S1024_S1024x1_0 : S1024.BroadcastsInDim S1024x1 (![0] : Fin 1 → Fin S1024x1.rank)
  dot_S1024x100000_S100000x64_S1024x64_1_0_0_1_n_n_wf : DotDims.WF S1024x100000 S100000x64 S1024x64 [1] [0] [0] [1] [] []
  dot_S100000x1024_S1024x64_S100000x64_1_0_0_1_n_n_wf : DotDims.WF S100000x1024 S1024x64 S100000x64 [1] [0] [0] [1] [] []

variable [Facts₀]

def dot_S1024x100000_S100000x64_S1024x64_1_0_0_1_n_n : DotDims S1024x100000 S100000x64 S1024x64 where
  lhsContracting := [1]
  rhsContracting := [0]
  lhsNonContracting := [0]
  rhsNonContracting := [1]
  lhsBatch := []
  rhsBatch := []
  wf := dot_S1024x100000_S100000x64_S1024x64_1_0_0_1_n_n_wf
def dot_S100000x1024_S1024x64_S100000x64_1_0_0_1_n_n : DotDims S100000x1024 S1024x64 S100000x64 where
  lhsContracting := [1]
  rhsContracting := [0]
  lhsNonContracting := [0]
  rhsNonContracting := [1]
  lhsBatch := []
  rhsBatch := []
  wf := dot_S100000x1024_S1024x64_S100000x64_1_0_0_1_n_n_wf

class Facts : Prop extends Facts₀ where

variable [Facts]
-- ==== Proof.KBBase.lean ====
/-
  What the three runs of the kernel body and the frame share: the arrays as the region finds them, the branch
  conditions of the body decided over the 25 grid points (the first point zeroes the running total, the points
  before the last add four class blocks to it, the last adds the tail and writes the loss), where the loss
  window is idle, and the region invariant with the running total's buffer held as a memref.
-/
import proofs.«138405_g52578989637756_cont_9to1c4b_755_4_alg».proof.Proof.Gen.Kernel.Launch
import proofs.«138405_g52578989637756_cont_9to1c4b_755_4_alg».proof.Proof.Gen.Kernel.Skeleton
import proofs.«138405_g52578989637756_cont_9to1c4b_755_4_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- The region is all of the program: its arrays hold the launch contents when it is entered. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The body's three branch conditions -/

/-- "this is the first grid point". -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-- "this is not the last grid point". -/
abbrev cond1 (i : grid0.Coords) : Prop := (Scalar.cmpi .ne (Scalar.extui (Scalar.cmpi .slt (BitVec.ofNat 32 (i 0).val) 24#32)) 0#32) = 1#1
theorem hcond1 : ∀ t : Fin cfg0.N, cond1 (grid0.coords t) ↔ t.val < 24 :=
  (by decide +kernel : ∀ t : Fin grid0.N, cond1 (grid0.coords t) ↔ t.val < 24)

/-- "this is the last grid point". -/
abbrev cond2 (i : grid0.Coords) : Prop := k0_cond3 i = 1#1
theorem hcond2 : ∀ t : Fin cfg0.N, cond2 (grid0.coords t) ↔ t.val = 24 :=
  (by decide +kernel : ∀ t : Fin grid0.N, cond2 (grid0.coords t) ↔ t.val = 24)

/-! ## Where the windows are idle -/

theorem live_in : ∀ (w : Fin 10), w.val < 9 → ∀ t : Fin cfg0.N, cfg0.idle w (grid0.coords t) = false := by decide +kernel
/-- Before the last point the body stores nothing into the loss window, and its block is not written back. -/
theorem idle_out : ∀ t : Fin cfg0.N, t.val ≠ 24 → cfg0.idle 9 (grid0.coords t) = true := by decide +kernel
theorem noFlush_out : ∀ t : Fin cfg0.N, t.val ≠ 24 → (cfg0.win 9).flush t = false := by decide +kernel
/-- At the last point it stores the loss there. -/
theorem live_out : ∀ t : Fin cfg0.N, t.val = 24 → cfg0.idle 9 (grid0.coords t) = false := by decide +kernel

/-! ## The staging memrefs at a point -/

abbrev ms0 (t : Fin cfg0.N) : Memref sig .tc .vmem S1024x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x1 .f32 := win0_9.stage (cfg0.slots t 9)
abbrev hs9 (t : Fin cfg0.N) : (ms9 t).IsWhole := hstage0_9 ((cfg0.slots t 9).cast nbuf0_9)
/-- The running total's buffer, a whole scoped buffer of the kernel's own. -/
abbrev scM : Memref sig .tc .vmem S1024x64 .f32 := Memref.whole cc0_scratch0
abbrev VS : View sig .tc .vmem S1024x64 .f32 := scM.view
/-- One staging buffer of the loss window, through which its contents are stated. -/
abbrev VO : View sig .tc .vmem S1024x1 .f32 := (Memref.whole cc0_stg9_0 : Memref sig .tc .vmem S1024x1 .f32).view

/-- The region's invariant as the launch hands it over: the running total's buffer at some contents, the
    generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.KBRunB.lean ====
/-
  The kernel body at a grid point that is neither the first nor the last: it loads the four target blocks and the
  four center blocks, multiplies them pairwise, sums the four products from the left, adds the running total and
  stores the new total over the old one.  Nothing else is written.
-/
import proofs.«138405_g52578989637756_cont_9to1c4b_755_4_alg».proof.Proof.KBBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's one store leaves in the running total's buffer at such a point, with the proof that the
    body runs from the windows' buffers at any contents and the running total at `xs` to those buffers unchanged
    and the total's buffer with the pieces written. -/
noncomputable def runB (c : Dev nD) (i : grid0.Coords) (arg1 : Memref sig .tc .vmem S1024x64 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x64 .f32) (harg11 : arg11.IsWhole) (hc0 : ¬cond0 i) (hc1 : cond1 i) (hc2 : ¬cond2 i)
    (x1 x2 x3 x4 : Vec F S1024x1024 .f32) (x5 x6 x7 x8 : Vec F S1024x64 .f32) (xs : Vec F S1024x64 .f32) :
    { LS : List (View.Piece (Elt F) S1024x64 .f32) //
      ∀ (x0 : Vec F S1024x64 .f32) (x9 : Vec F S1024x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f LS)) -∗ K ⟨⟩))
          ⊢ wp frame (wpE (defs₀ (F := F)) Variants.none c none) E (cc0__center_loss_body i arg1 harg1 arg2 harg2 arg3 harg3 arg4 harg4 arg5 harg5 arg6 harg6 arg7 harg7 arg8 harg8 arg9 harg9 arg10 harg10 arg11 harg11) K } := by
  refine ⟨?_, fun x0 x9 E K => ?run⟩
  case run =>
    simp only [cc0__center_loss_body_eq_skeleton]; unfold cc0__center_loss_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4
    obtain rfl := harg6.eq_unread hf5; obtain rfl := harg7.eq_unread hf6; obtain rfl := harg8.eq_unread hf7; obtain rfl := harg9.eq_unread hf8; obtain rfl := harg10.eq_unread hf9
    obtain rfl := harg11.eq_unread hfs
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HS

end Cert.Kernel.Hand

end
-- ==== Proof.KBRunA.lean ====
/-
  The kernel body at the first grid point: it overwrites the running total with zeros, then does what every point
  before the last does — loads the four target blocks and the four center blocks, sums the four products from the
  left, adds the (now zero) running total and stores the result as the new total.
-/
import proofs.«138405_g52578989637756_cont_9to1c4b_755_4_alg».proof.Proof.KBRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's two stores leave in the running total's buffer at the first point (last first), with the
    proof that the body runs from the windows' buffers at any contents and the running total at anything to those
    buffers unchanged and the total's buffer with the pieces written. -/
noncomputable def runA (c : Dev nD) (i : grid0.Coords) (arg1 : Memref sig .tc .vmem S1024x64 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x64 .f32) (harg11 : arg11.IsWhole) (hc0 : cond0 i) (hc1 : cond1 i) (hc2 : ¬cond2 i)
    (x1 x2 x3 x4 : Vec F S1024x1024 .f32) (x5 x6 x7 x8 : Vec F S1024x64 .f32) :
    { LS : List (View.Piece (Elt F) S1024x64 .f32) //
      ∀ (x0 : Vec F S1024x64 .f32) (x9 : Vec F S1024x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f LS)) -∗ K ⟨⟩))
          ⊢ wp frame (wpE (defs₀ (F := F)) Variants.none c none) E (cc0__center_loss_body i arg1 harg1 arg2 harg2 arg3 harg3 arg4 harg4 arg5 harg5 arg6 harg6 arg7 harg7 arg8 harg8 arg9 harg9 arg10 harg10 arg11 harg11) K } := by
  refine ⟨?_, fun x0 x9 E K => ?run⟩
  case run =>
    simp only [cc0__center_loss_body_eq_skeleton]; unfold cc0__center_loss_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4
    obtain rfl := harg6.eq_unread hf5; obtain rfl := harg7.eq_unread hf6; obtain rfl := harg8.eq_unread hf7; obtain rfl := harg9.eq_unread hf8; obtain rfl := harg10.eq_unread hf9
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HS

end Cert.Kernel.Hand

end
-- ==== Proof.KBRunC.lean ====
/-
  The kernel body at the last grid point: it multiplies target block 96 by center block 96 whole, the 672 columns
  of target block 97 that lie inside the array by the 672 rows of center block 97 that do, adds the two products to
  a fresh zero and then to the running total, subtracts the sum from x, squares, sums each row's 64 squares and
  stores the column of sums in the loss window.  The running total's buffer is read, not written.
-/
import proofs.«138405_g52578989637756_cont_9to1c4b_755_4_alg».proof.Proof.KBRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's one store leaves in the loss window's buffer at the last point, with the proof that the
    body runs from the windows' buffers at any contents, the loss window's at anything and the running total at
    `xs` to those buffers unchanged and the loss window's buffer with the pieces written. -/
noncomputable def runC (c : Dev nD) (i : grid0.Coords) (arg1 : Memref sig .tc .vmem S1024x64 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x64 .f32) (harg11 : arg11.IsWhole) (hc0 : ¬cond0 i) (hc1 : ¬cond1 i) (hc2 : cond2 i)
    (x0 : Vec F S1024x64 .f32) (x1 x2 : Vec F S1024x1024 .f32) (x5 x6 : Vec F S1024x64 .f32) (xs : Vec F S1024x64 .f32) :
    { L9 : List (View.Piece (Elt F) S1024x1 .f32) //
      ∀ (x3 x4 : Vec F S1024x1024 .f32) (x7 x8 : Vec F S1024x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xs) -∗ K ⟨⟩))
          ⊢ wp frame (wpE (defs₀ (F := F)) Variants.none c none) E (cc0__center_loss_body i arg1 harg1 arg2 harg2 arg3 harg3 arg4 harg4 arg5 harg5 arg6 harg6 arg7 harg7 arg8 harg8 arg9 harg9 arg10 harg10 arg11 harg11) K } := by
  refine ⟨?_, fun x3 x4 x7 x8 E K => ?run⟩
  case run =>
    simp only [cc0__center_loss_body_eq_skeleton]; unfold cc0__center_loss_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4
    obtain rfl := harg6.eq_unread hf5; obtain rfl := harg7.eq_unread hf6; obtain rfl := harg8.eq_unread hf7; obtain rfl := harg9.eq_unread hf8
    obtain rfl := harg11.eq_unread hfs
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    iexists _; isplitr; · ipureintro; exact harg11.read_unread _
    iexact HS

end Cert.Kernel.Hand

end
-- ==== Proof.KBPieces.lean ====
/-
  What the body's stores leave, read back, is the skeleton's payload of what the body loaded.

  Every store of the kernel body overwrites a whole buffer, so the buffer afterwards holds exactly the stored value:
  at a point before the last the new running total (the sum of the four block products added to the old total; at
  the first point the old total is the zero fill the body has just stored), at the last point the column of row
  sums of squared differences.  The last point loads only the 672 leading columns of the second target block and
  the 672 leading rows of the second center block; the value it stores depends on those alone.
-/
import proofs.«138405_g52578989637756_cont_9to1c4b_755_4_alg».proof.Proof.KBRunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-! ## A point that is neither the first nor the last -/

theorem scoverB (c : Dev nD) (i : grid0.Coords) (arg1 : Memref sig .tc .vmem S1024x64 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x64 .f32) (harg11 : arg11.IsWhole) (hc0 : ¬cond0 i) (hc1 : cond1 i) (hc2 : ¬cond2 i)
    (x1 x2 x3 x4 : Vec F S1024x1024 .f32) (x5 x6 x7 x8 : Vec F S1024x64 .f32) (xs : Vec F S1024x64 .f32) (y : S1024x64.Idx) :
    ∃ pc ∈ (runB c i arg1 harg1 arg2 harg2 arg3 harg3 arg4 harg4 arg5 harg5 arg6 harg6 arg7 harg7 arg8 harg8 arg9 harg9 arg10 harg10 arg11 harg11 hc0 hc1 hc2 x1 x2 x3 x4 x5 x6 x7 x8 xs).1, y ∈ pc.1.set :=
  View.cover_of_tiledL (runB c i arg1 harg1 arg2 harg2 arg3 harg3 arg4 harg4 arg5 harg5 arg6 harg6 arg7 harg7 arg8 harg8 arg9 harg9 arg10 harg10 arg11 harg11 hc0 hc1 hc2 x1 x2 x3 x4 x5 x6 x7 x8 xs).1 S1024x64.size (by sl_kernel_rfl) y

/-- The running total after such a point: the four block products summed from the left, added to the total before. -/
theorem soutB_eq (c : Dev nD) (i : grid0.Coords) (arg1 : Memref sig .tc .vmem S1024x64 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x64 .f32) (harg11 : arg11.IsWhole) (hc0 : ¬cond0 i) (hc1 : cond1 i) (hc2 : ¬cond2 i)
    (x1 x2 x3 x4 : Vec F S1024x1024 .f32) (x5 x6 x7 x8 : Vec F S1024x64 .f32) (xs : Vec F S1024x64 .f32) :
    VS.read (Elt F) (VS.writes (Elt F) VS.junk (runB c i arg1 harg1 arg2 harg2 arg3 harg3 arg4 harg4 arg5 harg5 arg6 harg6 arg7 harg7 arg8 harg8 arg9 harg9 arg10 harg10 arg11 harg11 hc0 hc1 hc2 x1 x2 x3 x4 x5 x6 x7 x8 xs).1)
      = k0_pay2 x1 x5 x2 x6 x3 x7 x4 x8 xs := by
  rw [View.read_writes_eq_canon _ _ _ (scoverB c i arg1 harg1 arg2 harg2 arg3 harg3 arg4 harg4 arg5 harg5 arg6 harg6 arg7 harg7 arg8 harg8 arg9 harg9 arg10 harg10 arg11 harg11 hc0 hc1 hc2 x1 x2 x3 x4 x5 x6 x7 x8 xs)]
  unfold runB; dsimp only
  rw [View.canon_unit_zero hz2]
  simp only [View.readAt_eq_ld, harg2.read_unread, harg3.read_unread, harg4.read_unread, harg5.read_unread, harg6.read_unread,
    harg7.read_unread, harg8.read_unread, harg9.read_unread, harg11.read_unread,
    View.ld_unit_zero (S := S1024x1024) hz2, View.ld_unit_zero (S := S1024x64) hz2]

/-! ## The first point -/

theorem scoverA (c : Dev nD) (i : grid0.Coords) (arg1 : Memref sig .tc .vmem S1024x64 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x64 .f32) (harg11 : arg11.IsWhole) (hc0 : cond0 i) (hc1 : cond1 i) (hc2 : ¬cond2 i)
    (x1 x2 x3 x4 : Vec F S1024x1024 .f32) (x5 x6 x7 x8 : Vec F S1024x64 .f32) (y : S1024x64.Idx) :
    ∃ pc ∈ (runA c i arg1 harg1 arg2 harg2 arg3 harg3 arg4 harg4 arg5 harg5 arg6 harg6 arg7 harg7 arg8 harg8 arg9 harg9 arg10 harg10 arg11 harg11 hc0 hc1 hc2 x1 x2 x3 x4 x5 x6 x7 x8).1, y ∈ pc.1.set :=
  View.cover_of_tiledL (runA c i arg1 harg1 arg2 harg2 arg3 harg3 arg4 harg4 arg5 harg5 arg6 harg6 arg7 harg7 arg8 harg8 arg9 harg9 arg10 harg10 arg11 harg11 hc0 hc1 hc2 x1 x2 x3 x4 x5 x6 x7 x8).1 S1024x64.size (by sl_kernel_rfl) y

/-- The running total after the first point: the four block products summed from the left, added to the zero fill. -/
theorem soutA_eq (c : Dev nD) (i : grid0.Coords) (arg1 : Memref sig .tc .vmem S1024x64 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x64 .f32) (harg11 : arg11.IsWhole) (hc0 : cond0 i) (hc1 : cond1 i) (hc2 : ¬cond2 i)
    (x1 x2 x3 x4 : Vec F S1024x1024 .f32) (x5 x6 x7 x8 : Vec F S1024x64 .f32) :
    VS.read (Elt F) (VS.writes (Elt F) VS.junk (runA c i arg1 harg1 arg2 harg2 arg3 harg3 arg4 harg4 arg5 harg5 arg6 harg6 arg7 harg7 arg8 harg8 arg9 harg9 arg10 harg10 arg11 harg11 hc0 hc1 hc2 x1 x2 x3 x4 x5 x6 x7 x8).1)
      = k0_pay2 x1 x5 x2 x6 x3 x7 x4 x8 (k0_pay1 (F := F)) := by
  rw [View.read_writes_eq_canon _ _ _ (scoverA c i arg1 harg1 arg2 harg2 arg3 harg3 arg4 harg4 arg5 harg5 arg6 harg6 arg7 harg7 arg8 harg8 arg9 harg9 arg10 harg10 arg11 harg11 hc0 hc1 hc2 x1 x2 x3 x4 x5 x6 x7 x8)]
  unfold runA; dsimp only
  sl_unfold_words
  rw [View.canon_cons_unit_zero hz2]
  simp only [View.readAt_eq_ld, harg2.read_unread, harg3.read_unread, harg4.read_unread, harg5.read_unread, harg6.read_unread,
    harg7.read_unread, harg8.read_unread, harg9.read_unread,
    View.ld_unit_zero (S := S1024x1024) hz2, View.ld_unit_zero (S := S1024x64) hz2]
  rw [View.readCov_cons_toLoadRect]

/-! ## The last point -/

/-- The loss window's buffer is covered by the one store of the last point. -/
theorem coverC (c : Dev nD) (i : grid0.Coords) (arg1 : Memref sig .tc .vmem S1024x64 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x64 .f32) (harg11 : arg11.IsWhole) (hc0 : ¬cond0 i) (hc1 : ¬cond1 i) (hc2 : cond2 i)
    (x0 : Vec F S1024x64 .f32) (x1 x2 : Vec F S1024x1024 .f32) (x5 x6 : Vec F S1024x64 .f32) (xs : Vec F S1024x64 .f32) (y : S1024x1.Idx) :
    ∃ pc ∈ (runC c i arg1 harg1 arg2 harg2 arg3 harg3 arg4 harg4 arg5 harg5 arg6 harg6 arg7 harg7 arg8 harg8 arg9 harg9 arg10 harg10 arg11 harg11 hc0 hc1 hc2 x0 x1 x2 x5 x6 xs).1, y ∈ pc.1.set :=
  View.cover_of_tiledL (runC c i arg1 harg1 arg2 harg2 arg3 harg3 arg4 harg4 arg5 harg5 arg6 harg6 arg7 harg7 arg8 harg8 arg9 harg9 arg10 harg10 arg11 harg11 hc0 hc1 hc2 x0 x1 x2 x5 x6 xs).1 S1024x1.size (by sl_kernel_rfl) y

/-- The loss the last point stores: the epilogue's payload of the two whole blocks, the 672 columns and rows of the
    clipped blocks, x and the running total. -/
theorem outC_eq (c : Dev nD) (i : grid0.Coords) (arg1 : Memref sig .tc .vmem S1024x64 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x64 .f32) (harg11 : arg11.IsWhole) (hc0 : ¬cond0 i) (hc1 : ¬cond1 i) (hc2 : cond2 i)
    (x0 : Vec F S1024x64 .f32) (x1 x2 : Vec F S1024x1024 .f32) (x5 x6 : Vec F S1024x64 .f32) (xs : Vec F S1024x64 .f32) :
    VO.read (Elt F) (VO.writes (Elt F) VO.junk (runC c i arg1 harg1 arg2 harg2 arg3 harg3 arg4 harg4 arg5 harg5 arg6 harg6 arg7 harg7 arg8 harg8 arg9 harg9 arg10 harg10 arg11 harg11 hc0 hc1 hc2 x0 x1 x2 x5 x6 xs).1)
      = k0_pay3 x1 x5 (View.ld x2 (Rect.unit (s := S1024x1024) ![0, 0] S1024x672.size inb_S1024x1024_S1024x672_0_0)) (View.ld x6 (Rect.unit (s := S1024x64) ![0, 0] S672x64.size inb_S1024x64_S672x64_0_0)) x0 xs := by
  rw [View.read_writes_eq_canon _ _ _ (coverC c i arg1 harg1 arg2 harg2 arg3 harg3 arg4 harg4 arg5 harg5 arg6 harg6 arg7 harg7 arg8 harg8 arg9 harg9 arg10 harg10 arg11 harg11 hc0 hc1 hc2 x0 x1 x2 x5 x6 xs)]
  unfold runC; dsimp only
  rw [View.canon_unit_zero hz2]
  simp only [View.readAt_eq_ld, harg1.read_unread, harg2.read_unread, harg3.read_unread, harg6.read_unread, harg7.read_unread, harg11.read_unread,
    View.ld_unit_zero (S := S1024x1024) hz2, View.ld_unit_zero (S := S1024x64) hz2]

end Cert.Kernel.Hand

end
-- ==== Proof.KBData.lean ====
/-
  The proof data of the kernel's one pipeline.

  At every grid point the pipeline hands the body its ten windows' staging buffers.  The nine input windows hold
  their blocks of the three argument arrays as the point's fetch (or, for x, the first point's) left them: block 0
  of x; blocks 4k, 4k+1, 4k+2, 4k+3 (capped at 97) of targets along the class axis and of centers along the same
  axis.  Block 97 overhangs the arrays by 352 classes; a buffer holding it is determined only on its leading 672
  columns (rows), which is all the body ever reads of it.  The body keeps its running total in a buffer of its own:
  zero, then one grid step's four block products added at each of the first 24 points, untouched at the last.  The
  loss window is idle before the last point, where the body stores the loss and the pipeline writes it back.
-/
import proofs.«138405_g52578989637756_cont_9to1c4b_755_4_alg».proof.Proof.KBPieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t` read off its array as the region finds it: the part inside the array. -/
def blkOf (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The same filled out to the staging buffer's extent, past the array's end with a value nothing reads. -/
def ibk (c : Dev nD) (w : Fin cfg0.W) (t : Fin cfg0.N) : (cfg0.win w).block.Idx → Elt F (cfg0.win w).elt :=
  (cfg0.win w).fill (cfg0.grid.coords t) (fun _ => Classical.arbitrary _) (blkOf m c w t)

/-! ## The running total and the loss -/

/-- The running total after the body at position `n`: at the first point the step's four block products added to
    the zero fill, at a later point before the last added to the total before, at the last point unchanged. -/
def accAt (c : Dev nD) : (n : ℕ) → n < cfg0.N → Vec F S1024x64 .f32
  | 0, hn => k0_pay2 (ibk m c 1 ⟨0, hn⟩) (ibk m c 5 ⟨0, hn⟩) (ibk m c 2 ⟨0, hn⟩) (ibk m c 6 ⟨0, hn⟩) (ibk m c 3 ⟨0, hn⟩) (ibk m c 7 ⟨0, hn⟩) (ibk m c 4 ⟨0, hn⟩) (ibk m c 8 ⟨0, hn⟩) (k0_pay1 (F := F))
  | n + 1, hn =>
    if n + 1 < 24 then k0_pay2 (ibk m c 1 ⟨n + 1, hn⟩) (ibk m c 5 ⟨n + 1, hn⟩) (ibk m c 2 ⟨n + 1, hn⟩) (ibk m c 6 ⟨n + 1, hn⟩) (ibk m c 3 ⟨n + 1, hn⟩) (ibk m c 7 ⟨n + 1, hn⟩) (ibk m c 4 ⟨n + 1, hn⟩) (ibk m c 8 ⟨n + 1, hn⟩) (accAt c n (Nat.lt_of_succ_lt hn))
    else accAt c n (Nat.lt_of_succ_lt hn)

theorem accAt_first (c : Dev nD) (t : Fin cfg0.N) (h0 : t.val = 0) :
    accAt m c t.val t.isLt = k0_pay2 (ibk m c 1 t) (ibk m c 5 t) (ibk m c 2 t) (ibk m c 6 t) (ibk m c 3 t) (ibk m c 7 t) (ibk m c 4 t) (ibk m c 8 t) (k0_pay1 (F := F)) := by
  obtain ⟨n, hn⟩ := t
  cases n with
  | zero => rfl
  | succ n => exact absurd h0 (Nat.succ_ne_zero n)

theorem accAt_step (c : Dev nD) (t : Fin cfg0.N) (h0 : t.val ≠ 0) (h1 : t.val < 24) :
    accAt m c t.val t.isLt = k0_pay2 (ibk m c 1 t) (ibk m c 5 t) (ibk m c 2 t) (ibk m c 6 t) (ibk m c 3 t) (ibk m c 7 t) (ibk m c 4 t) (ibk m c 8 t) (accAt m c (t.val - 1) (Nat.lt_of_le_of_lt (Nat.sub_le _ _) t.isLt)) := by
  obtain ⟨n, hn⟩ := t
  cases n with
  | zero => exact absurd rfl h0
  | succ n => exact (if_pos h1).trans rfl

theorem accAt_last (c : Dev nD) (t : Fin cfg0.N) (h1 : ¬ t.val < 24) (h0 : t.val ≠ 0) :
    accAt m c t.val t.isLt = accAt m c (t.val - 1) (Nat.lt_of_le_of_lt (Nat.sub_le _ _) t.isLt) := by
  obtain ⟨n, hn⟩ := t
  cases n with
  | zero => exact absurd rfl h0
  | succ n => exact (if_neg h1).trans rfl

/-- What the body stores in the loss window at point `t` (it does so at the last point only): the epilogue of x's
    block, the first stream's two blocks whole, the second stream's two blocks on their leading 672 classes, and
    the running total the point before left. -/
def outAt (c : Dev nD) (t : Fin cfg0.N) : Vec F S1024x1 .f32 :=
  k0_pay3 (ibk m c 1 t) (ibk m c 5 t) (View.ld (ibk m c 2 t) (Rect.unit (s := S1024x1024) ![0, 0] S1024x672.size inb_S1024x1024_S1024x672_0_0)) (View.ld (ibk m c 6 t) (Rect.unit (s := S1024x64) ![0, 0] S672x64.size inb_S1024x64_S672x64_0_0)) (ibk m c 0 t)
    (accAt m c (t.val - 1) (Nat.lt_of_le_of_lt (Nat.sub_le _ _) t.isLt))

/-! ## The region invariant -/

/-- Before the first point the launch's invariant (the running total's buffer at anything); before a later point
    that buffer at the running total the point before left, and the generator register at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The arrays as the region finds them; after the body each input window's buffer at its block, the loss window's
    at the loss; the invariant above; nothing owed.  The four windows on targets hold a quarter of its buffer's
    share each, and so the four on centers. -/
def dats (_ : Fin 1) (c : Dev nD) : Dat τ (Elt F) Unit ℕ (UR sig nD τ) ℕ cfg0 c where
  A w := V m c (Pipeline.arrRef spec0 w)
  after w t := match w with
    | ⟨0, _⟩ => ibk m c 0 t
    | ⟨1, _⟩ => ibk m c 1 t
    | ⟨2, _⟩ => ibk m c 2 t
    | ⟨3, _⟩ => ibk m c 3 t
    | ⟨4, _⟩ => ibk m c 4 t
    | ⟨5, _⟩ => ibk m c 5 t
    | ⟨6, _⟩ => ibk m c 6 t
    | ⟨7, _⟩ => ibk m c 7 t
    | ⟨8, _⟩ => ibk m c 8 t
    | ⟨9, _⟩ => outAt m c t
  Φ t := PhiS m c t.val (Nat.le_of_lt_succ t.isLt)
  q w := match w with
    | ⟨0, _⟩ => fullShare
    | ⟨1, _⟩ => fullShare.left.left
    | ⟨2, _⟩ => fullShare.left.right
    | ⟨3, _⟩ => fullShare.right.left
    | ⟨4, _⟩ => fullShare.right.right
    | ⟨5, _⟩ => fullShare.left.left
    | ⟨6, _⟩ => fullShare.left.right
    | ⟨7, _⟩ => fullShare.right.left
    | ⟨8, _⟩ => fullShare.right.right
    | ⟨9, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = ibk m c 0 t := by dsimp only [dats]
theorem after1 (c : Dev nD) (t : Fin cfg0.N) : (dats m 0 c).after 1 t = ibk m c 1 t := by dsimp only [dats]
theorem after2 (c : Dev nD) (t : Fin cfg0.N) : (dats m 0 c).after 2 t = ibk m c 2 t := by dsimp only [dats]
theorem after3 (c : Dev nD) (t : Fin cfg0.N) : (dats m 0 c).after 3 t = ibk m c 3 t := by dsimp only [dats]
theorem after4 (c : Dev nD) (t : Fin cfg0.N) : (dats m 0 c).after 4 t = ibk m c 4 t := by dsimp only [dats]
theorem after5 (c : Dev nD) (t : Fin cfg0.N) : (dats m 0 c).after 5 t = ibk m c 5 t := by dsimp only [dats]
theorem after6 (c : Dev nD) (t : Fin cfg0.N) : (dats m 0 c).after 6 t = ibk m c 6 t := by dsimp only [dats]
theorem after7 (c : Dev nD) (t : Fin cfg0.N) : (dats m 0 c).after 7 t = ibk m c 7 t := by dsimp only [dats]
theorem after8 (c : Dev nD) (t : Fin cfg0.N) : (dats m 0 c).after 8 t = ibk m c 8 t := by dsimp only [dats]
theorem after9 (c : Dev nD) (t : Fin cfg0.N) : (dats m 0 c).after 9 t = outAt m c t := by dsimp only [dats]

/-! ## What the body finds in the input windows -/

/-- The block an input window's fetch reads is the block read off the region-entry array. -/
theorem blockOf_eq (c : Dev nD) (w : Fin cfg0.W) (t : Fin cfg0.N) : (dats m 0 c).blockOf w t = blkOf m c w t := by
  unfold Dat.blockOf blkOf; rw [A_eq]

/-- x's window is fetched at the first point only, and the body leaves its block in place: at every point its
    buffer holds the block. -/
theorem before0 (c : Dev nD) (t : Fin cfg0.N) (d) : (dats m 0 c).before 0 t d = (cfg0.win 0).fill (cfg0.grid.coords t) d (blkOf m c 0 t) := by
  rw [(dats m 0 c).before_in_eq_fetched 0 rfl (fun _ => rfl) (fun _ _ _ => rfl)
    (fun t => by rw [after0, blockOf_eq]; unfold ibk; exact (cfg0.win 0).cut_fill _ _ _) t d]
  unfold Dat.fetched; rw [blockOf_eq]

/-- Window 1 is fetched at every point: its buffer holds the block on the part inside the array. -/
theorem before1 (c : Dev nD) (t : Fin cfg0.N) (d) : (dats m 0 c).before 1 t d = (cfg0.win 1).fill (cfg0.grid.coords t) d (blkOf m c 1 t) := by
  rw [(dats m 0 c).before_fetched 1 t (fetch0_1 t) d]
  unfold Dat.fetched; rw [blockOf_eq]
/-- Window 2 is fetched at every point: its buffer holds the block on the part inside the array. -/
theorem before2 (c : Dev nD) (t : Fin cfg0.N) (d) : (dats m 0 c).before 2 t d = (cfg0.win 2).fill (cfg0.grid.coords t) d (blkOf m c 2 t) := by
  rw [(dats m 0 c).before_fetched 2 t (fetch0_2 t) d]
  unfold Dat.fetched; rw [blockOf_eq]
/-- Window 3 is fetched at every point: its buffer holds the block on the part inside the array. -/
theorem before3 (c : Dev nD) (t : Fin cfg0.N) (d) : (dats m 0 c).before 3 t d = (cfg0.win 3).fill (cfg0.grid.coords t) d (blkOf m c 3 t) := by
  rw [(dats m 0 c).before_fetched 3 t (fetch0_3 t) d]
  unfold Dat.fetched; rw [blockOf_eq]
/-- Window 4 is fetched at every point: its buffer holds the block on the part inside the array. -/
theorem before4 (c : Dev nD) (t : Fin cfg0.N) (d) : (dats m 0 c).before 4 t d = (cfg0.win 4).fill (cfg0.grid.coords t) d (blkOf m c 4 t) := by
  rw [(dats m 0 c).before_fetched 4 t (fetch0_4 t) d]
  unfold Dat.fetched; rw [blockOf_eq]
/-- Window 5 is fetched at every point: its buffer holds the block on the part inside the array. -/
theorem before5 (c : Dev nD) (t : Fin cfg0.N) (d) : (dats m 0 c).before 5 t d = (cfg0.win 5).fill (cfg0.grid.coords t) d (blkOf m c 5 t) := by
  rw [(dats m 0 c).before_fetched 5 t (fetch0_5 t) d]
  unfold Dat.fetched; rw [blockOf_eq]
/-- Window 6 is fetched at every point: its buffer holds the block on the part inside the array. -/
theorem before6 (c : Dev nD) (t : Fin cfg0.N) (d) : (dats m 0 c).before 6 t d = (cfg0.win 6).fill (cfg0.grid.coords t) d (blkOf m c 6 t) := by
  rw [(dats m 0 c).before_fetched 6 t (fetch0_6 t) d]
  unfold Dat.fetched; rw [blockOf_eq]
/-- Window 7 is fetched at every point: its buffer holds the block on the part inside the array. -/
theorem before7 (c : Dev nD) (t : Fin cfg0.N) (d) : (dats m 0 c).before 7 t d = (cfg0.win 7).fill (cfg0.grid.coords t) d (blkOf m c 7 t) := by
  rw [(dats m 0 c).before_fetched 7 t (fetch0_7 t) d]
  unfold Dat.fetched; rw [blockOf_eq]
/-- Window 8 is fetched at every point: its buffer holds the block on the part inside the array. -/
theorem before8 (c : Dev nD) (t : Fin cfg0.N) (d) : (dats m 0 c).before 8 t d = (cfg0.win 8).fill (cfg0.grid.coords t) d (blkOf m c 8 t) := by
  rw [(dats m 0 c).before_fetched 8 t (fetch0_8 t) d]
  unfold Dat.fetched; rw [blockOf_eq]

/-! ## Where a block lies inside its array the filler does not matter -/

theorem fill_of_unclipped (w : Fin cfg0.W) (t : Fin cfg0.N) (h : (cfg0.win w).clipped (cfg0.grid.coords t) = false)
    {α : Type} (d d' : (cfg0.win w).block.Idx → α) (g : ((cfg0.win w).xblock (cfg0.grid.coords t)).Idx → α) :
    (cfg0.win w).fill (cfg0.grid.coords t) d g = (cfg0.win w).fill (cfg0.grid.coords t) d' g := by
  funext j
  have hm : (cfg0.win w).moved (cfg0.grid.coords t) j = true :=
    ((cfg0.win w).moved_iff _ j).mpr fun a => by
      have := (j a).isLt; unfold Window.xsize; rw [((cfg0.win w).clipped_eq_false_iff _).mp h a]; exact this
  unfold Window.fill; rw [dif_pos hm, dif_pos hm]

/-- x's one block and every block of the first stream (indices up to 96) lie inside their arrays at every point; -/
theorem unclipped_always : ∀ (w : Fin 10), (w.val = 0 ∨ w.val = 1 ∨ w.val = 5) → ∀ t : Fin cfg0.N, (cfg0.win w).clipped (cfg0.grid.coords t) = false := by
  decide +kernel
/-- the other streams' blocks (indices up to 95) before the last point. -/
theorem unclipped_before_last : ∀ (w : Fin 10), w.val < 9 → ∀ t : Fin cfg0.N, t.val < 24 → (cfg0.win w).clipped (cfg0.grid.coords t) = false := by
  decide +kernel

theorem fill_eq_ibk (c : Dev nD) (w : Fin cfg0.W) (t : Fin cfg0.N) (h : (cfg0.win w).clipped (cfg0.grid.coords t) = false) (d) :
    (cfg0.win w).fill (cfg0.grid.coords t) d (blkOf m c w t) = ibk m c w t :=
  fill_of_unclipped w t h _ _ _

end Cert.Kernel.Hand

end
-- ==== Proof.KBBody.lean ====
/-
  The body obligation: at every grid point the kernel body, run on the windows' buffers as the pipeline hands them
  over and on the running total's buffer as the point before left it, hands the input windows back as it found them,
  leaves the running total at the next value (at the last point: the loss window at the loss), and owes nothing.
-/
import proofs.«138405_g52578989637756_cont_9to1c4b_755_4_alg».proof.Proof.KBData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An input window handed back as found is what the loop expects -/

/-- x's block lies inside its array, so its buffer as found is the block. -/
theorem leaves_in0 (c : Dev nD) (t : Fin cfg0.N) (d) :
    owns (c : Thread nD τ) (ms0 t) fullShare ((cfg0.win 0).fill (cfg0.grid.coords t) d (blkOf m c 0 t)) ⊢ (dats m 0 c).leaves 0 t := by
  refine (Entails.of_eq ?_).trans ((dats m 0 c).leaves_intro 0 t)
  rw [show (dats m 0 c).leavesExact 0 t = owns (c : Thread nD τ) (ms0 t) fullShare ((dats m 0 c).after 0 t) from by
    unfold Dat.leavesExact; rw [live_in 0 (by decide) t], after0, fill_eq_ibk m c 0 t (unclipped_always 0 (by decide) t) d]

/-- Window 1's buffer as found agrees with its block on the part inside the array, which is all the loop asks. -/
theorem leaves_in1 (c : Dev nD) (t : Fin cfg0.N) (d) :
    owns (c : Thread nD τ) (ms1 t) fullShare ((cfg0.win 1).fill (cfg0.grid.coords t) d (blkOf m c 1 t)) ⊢ (dats m 0 c).leaves 1 t := by
  unfold Dat.leaves; rw [live_in 1 (by decide) t]
  show _ ⊢ iprop(∃ d', owns (c : Thread nD τ) (ms1 t) fullShare ((cfg0.win 1).fill (cfg0.grid.coords t) d' ((cfg0.win 1).cut (cfg0.grid.coords t) ((dats m 0 c).after 1 t))))
  rw [after1]; unfold ibk; rw [Window.cut_fill]
  iintro H; iexists d; iexact H
/-- Window 2's buffer as found agrees with its block on the part inside the array, which is all the loop asks. -/
theorem leaves_in2 (c : Dev nD) (t : Fin cfg0.N) (d) :
    owns (c : Thread nD τ) (ms2 t) fullShare ((cfg0.win 2).fill (cfg0.grid.coords t) d (blkOf m c 2 t)) ⊢ (dats m 0 c).leaves 2 t := by
  unfold Dat.leaves; rw [live_in 2 (by decide) t]
  show _ ⊢ iprop(∃ d', owns (c : Thread nD τ) (ms2 t) fullShare ((cfg0.win 2).fill (cfg0.grid.coords t) d' ((cfg0.win 2).cut (cfg0.grid.coords t) ((dats m 0 c).after 2 t))))
  rw [after2]; unfold ibk; rw [Window.cut_fill]
  iintro H; iexists d; iexact H
/-- Window 3's buffer as found agrees with its block on the part inside the array, which is all the loop asks. -/
theorem leaves_in3 (c : Dev nD) (t : Fin cfg0.N) (d) :
    owns (c : Thread nD τ) (ms3 t) fullShare ((cfg0.win 3).fill (cfg0.grid.coords t) d (blkOf m c 3 t)) ⊢ (dats m 0 c).leaves 3 t := by
  unfold Dat.leaves; rw [live_in 3 (by decide) t]
  show _ ⊢ iprop(∃ d', owns (c : Thread nD τ) (ms3 t) fullShare ((cfg0.win 3).fill (cfg0.grid.coords t) d' ((cfg0.win 3).cut (cfg0.grid.coords t) ((dats m 0 c).after 3 t))))
  rw [after3]; unfold ibk; rw [Window.cut_fill]
  iintro H; iexists d; iexact H
/-- Window 4's buffer as found agrees with its block on the part inside the array, which is all the loop asks. -/
theorem leaves_in4 (c : Dev nD) (t : Fin cfg0.N) (d) :
    owns (c : Thread nD τ) (ms4 t) fullShare ((cfg0.win 4).fill (cfg0.grid.coords t) d (blkOf m c 4 t)) ⊢ (dats m 0 c).leaves 4 t := by
  unfold Dat.leaves; rw [live_in 4 (by decide) t]
  show _ ⊢ iprop(∃ d', owns (c : Thread nD τ) (ms4 t) fullShare ((cfg0.win 4).fill (cfg0.grid.coords t) d' ((cfg0.win 4).cut (cfg0.grid.coords t) ((dats m 0 c).after 4 t))))
  rw [after4]; unfold ibk; rw [Window.cut_fill]
  iintro H; iexists d; iexact H
/-- Window 5's buffer as found agrees with its block on the part inside the array, which is all the loop asks. -/
theorem leaves_in5 (c : Dev nD) (t : Fin cfg0.N) (d) :
    owns (c : Thread nD τ) (ms5 t) fullShare ((cfg0.win 5).fill (cfg0.grid.coords t) d (blkOf m c 5 t)) ⊢ (dats m 0 c).leaves 5 t := by
  unfold Dat.leaves; rw [live_in 5 (by decide) t]
  show _ ⊢ iprop(∃ d', owns (c : Thread nD τ) (ms5 t) fullShare ((cfg0.win 5).fill (cfg0.grid.coords t) d' ((cfg0.win 5).cut (cfg0.grid.coords t) ((dats m 0 c).after 5 t))))
  rw [after5]; unfold ibk; rw [Window.cut_fill]
  iintro H; iexists d; iexact H
/-- Window 6's buffer as found agrees with its block on the part inside the array, which is all the loop asks. -/
theorem leaves_in6 (c : Dev nD) (t : Fin cfg0.N) (d) :
    owns (c : Thread nD τ) (ms6 t) fullShare ((cfg0.win 6).fill (cfg0.grid.coords t) d (blkOf m c 6 t)) ⊢ (dats m 0 c).leaves 6 t := by
  unfold Dat.leaves; rw [live_in 6 (by decide) t]
  show _ ⊢ iprop(∃ d', owns (c : Thread nD τ) (ms6 t) fullShare ((cfg0.win 6).fill (cfg0.grid.coords t) d' ((cfg0.win 6).cut (cfg0.grid.coords t) ((dats m 0 c).after 6 t))))
  rw [after6]; unfold ibk; rw [Window.cut_fill]
  iintro H; iexists d; iexact H
/-- Window 7's buffer as found agrees with its block on the part inside the array, which is all the loop asks. -/
theorem leaves_in7 (c : Dev nD) (t : Fin cfg0.N) (d) :
    owns (c : Thread nD τ) (ms7 t) fullShare ((cfg0.win 7).fill (cfg0.grid.coords t) d (blkOf m c 7 t)) ⊢ (dats m 0 c).leaves 7 t := by
  unfold Dat.leaves; rw [live_in 7 (by decide) t]
  show _ ⊢ iprop(∃ d', owns (c : Thread nD τ) (ms7 t) fullShare ((cfg0.win 7).fill (cfg0.grid.coords t) d' ((cfg0.win 7).cut (cfg0.grid.coords t) ((dats m 0 c).after 7 t))))
  rw [after7]; unfold ibk; rw [Window.cut_fill]
  iintro H; iexists d; iexact H
/-- Window 8's buffer as found agrees with its block on the part inside the array, which is all the loop asks. -/
theorem leaves_in8 (c : Dev nD) (t : Fin cfg0.N) (d) :
    owns (c : Thread nD τ) (ms8 t) fullShare ((cfg0.win 8).fill (cfg0.grid.coords t) d (blkOf m c 8 t)) ⊢ (dats m 0 c).leaves 8 t := by
  unfold Dat.leaves; rw [live_in 8 (by decide) t]
  show _ ⊢ iprop(∃ d', owns (c : Thread nD τ) (ms8 t) fullShare ((cfg0.win 8).fill (cfg0.grid.coords t) d' ((cfg0.win 8).cut (cfg0.grid.coords t) ((dats m 0 c).after 8 t))))
  rw [after8]; unfold ibk; rw [Window.cut_fill]
  iintro H; iexists d; iexact H

/-! ## The last point reads only the leading 672 classes of the second stream's blocks -/

theorem xsize_2 : ∀ t : Fin cfg0.N, (cfg0.win 2).xsize (cfg0.grid.coords t) 0 = 1024 ∧ 672 ≤ (cfg0.win 2).xsize (cfg0.grid.coords t) 1 := by decide +kernel
theorem xsize_6 : ∀ t : Fin cfg0.N, 672 ≤ (cfg0.win 6).xsize (cfg0.grid.coords t) 0 ∧ (cfg0.win 6).xsize (cfg0.grid.coords t) 1 = 64 := by decide +kernel

theorem ld_fill2 (c : Dev nD) (t : Fin cfg0.N) (d) :
    View.ld (S := S1024x1024) (e' := .f32) ((cfg0.win 2).fill (cfg0.grid.coords t) d (blkOf m c 2 t)) (Rect.unit (s := S1024x1024) ![0, 0] S1024x672.size inb_S1024x1024_S1024x672_0_0) = View.ld (S := S1024x1024) (e' := .f32) (ibk m c 2 t) (Rect.unit (s := S1024x1024) ![0, 0] S1024x672.size inb_S1024x1024_S1024x672_0_0) := by
  funext x
  have hm : (cfg0.win 2).moved (cfg0.grid.coords t) ((Rect.unit (s := S1024x1024) ![0, 0] S1024x672.size inb_S1024x1024_S1024x672_0_0).emb x) = true :=
    ((cfg0.win 2).moved_iff _ _).mpr fun a => by
      have h0 : (x 0).val < 1024 := (x 0).isLt
      have h1 : (x 1).val < 672 := (x 1).isLt
      have hx := xsize_2 t
      match a with
      | ⟨0, _⟩ => rw [Rect.emb_apply]; show 0 + 1 * (x 0).val < (cfg0.win 2).xsize (cfg0.grid.coords t) 0; omega
      | ⟨1, _⟩ => rw [Rect.emb_apply]; show 0 + 1 * (x 1).val < (cfg0.win 2).xsize (cfg0.grid.coords t) 1; omega
  show (cfg0.win 2).fill _ d _ ((Rect.unit (s := S1024x1024) ![0, 0] S1024x672.size inb_S1024x1024_S1024x672_0_0).emb x) = ibk m c 2 t ((Rect.unit (s := S1024x1024) ![0, 0] S1024x672.size inb_S1024x1024_S1024x672_0_0).emb x)
  unfold ibk Window.fill; rw [dif_pos hm, dif_pos hm]

theorem ld_fill6 (c : Dev nD) (t : Fin cfg0.N) (d) :
    View.ld (S := S1024x64) (e' := .f32) ((cfg0.win 6).fill (cfg0.grid.coords t) d (blkOf m c 6 t)) (Rect.unit (s := S1024x64) ![0, 0] S672x64.size inb_S1024x64_S672x64_0_0) = View.ld (S := S1024x64) (e' := .f32) (ibk m c 6 t) (Rect.unit (s := S1024x64) ![0, 0] S672x64.size inb_S1024x64_S672x64_0_0) := by
  funext x
  have hm : (cfg0.win 6).moved (cfg0.grid.coords t) ((Rect.unit (s := S1024x64) ![0, 0] S672x64.size inb_S1024x64_S672x64_0_0).emb x) = true :=
    ((cfg0.win 6).moved_iff _ _).mpr fun a => by
      have h0 : (x 0).val < 672 := (x 0).isLt
      have h1 : (x 1).val < 64 := (x 1).isLt
      have hx := xsize_6 t
      match a with
      | ⟨0, _⟩ => rw [Rect.emb_apply]; show 0 + 1 * (x 0).val < (cfg0.win 6).xsize (cfg0.grid.coords t) 0; omega
      | ⟨1, _⟩ => rw [Rect.emb_apply]; show 0 + 1 * (x 1).val < (cfg0.win 6).xsize (cfg0.grid.coords t) 1; omega
  show (cfg0.win 6).fill _ d _ ((Rect.unit (s := S1024x64) ![0, 0] S672x64.size inb_S1024x64_S672x64_0_0).emb x) = ibk m c 6 t ((Rect.unit (s := S1024x64) ![0, 0] S672x64.size inb_S1024x64_S672x64_0_0).emb x)
  unfold ibk Window.fill; rw [dif_pos hm, dif_pos hm]

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0 m c t, before1 m c t, before2 m c t, before3 m c t, before4 m c t, before5 m c t, before6 m c t, before7 m c t, before8 m c t]
  rw [show (dats m 0 c).owesAt () t.succ = (dats m 0 c).owesAt () t.castSucc from rfl]
  rw [show (dats m 0 c).Φ t.succ = PhiS m c (t.val + 1) t.isLt from rfl, PhiS_succ]
  have hN : t.val < 25 := lt_of_lt_of_eq t.isLt (show cfg0.N = 25 from N_0)
  by_cases h0 : t.val = 0
  · -- the first point
    have h1 : t.val < 24 := by omega
    have h2 : t.val ≠ 24 := by omega
    rw [Dat.leaves_idle (dats m 0 c) 9 t (idle_out t h2) (noFlush_out t h2)]
    rw [accAt_first m c t h0]
    rw [PhiS_castSucc m c t, PhiS_zero m c _ _ h0, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) _ _ _ _ _ _ _ _ _ _ _ _ _ _ _ _ _ _ _ _ _ _ ((hcond0 t).mpr h0) ((hcond1 t).mpr h1) (fun h => h2 ((hcond2 t).mp h)) ((cfg0.win 1).fill (cfg0.grid.coords t) d1 (blkOf m c 1 t)) ((cfg0.win 2).fill (cfg0.grid.coords t) d2 (blkOf m c 2 t)) ((cfg0.win 3).fill (cfg0.grid.coords t) d3 (blkOf m c 3 t)) ((cfg0.win 4).fill (cfg0.grid.coords t) d4 (blkOf m c 4 t)) ((cfg0.win 5).fill (cfg0.grid.coords t) d5 (blkOf m c 5 t)) ((cfg0.win 6).fill (cfg0.grid.coords t) d6 (blkOf m c 6 t)) ((cfg0.win 7).fill (cfg0.grid.coords t) d7 (blkOf m c 7 t)) ((cfg0.win 8).fill (cfg0.grid.coords t) d8 (blkOf m c 8 t))).2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, ⟨%es, HS⟩⟩
    isplitl [HS Hg]
    · isplitl [HS]
      · unfold owns; iexists _; isplitr
        swap; · iexact HS
        ipureintro
        refine (View.read_writes_of_cover _ _ _ _ _ (scoverA c _ _ _ _ _ _ _ _ _ _ _ _ _ _ _ _ _ _ _ _ _ _ _ _ _ _ _ _ _ _ _ _ _ _)).trans ((soutA_eq c _ _ _ _ _ _ _ _ _ _ _ _ _ _ _ _ _ _ _ _ _ _ _ _ _ _ _ _ _ _ _ _ _ _).trans ?_)
        rw [fill_eq_ibk m c 1 t (unclipped_before_last 1 (by decide) t h1) d1, fill_eq_ibk m c 5 t (unclipped_before_last 5 (by decide) t h1) d5, fill_eq_ibk m c 2 t (unclipped_before_last 2 (by decide) t h1) d2, fill_eq_ibk m c 6 t (unclipped_before_last 6 (by decide) t h1) d6, fill_eq_ibk m c 3 t (unclipped_before_last 3 (by decide) t h1) d3, fill_eq_ibk m c 7 t (unclipped_before_last 7 (by decide) t h1) d7, fill_eq_ibk m c 4 t (unclipped_before_last 4 (by decide) t h1) d4, fill_eq_ibk m c 8 t (unclipped_before_last 8 (by decide) t h1) d8]
      iexact Hg
    isplitl [Ho]; · iexact Ho
    isplitl [H0]; · iapply (leaves_in0 m c t d0); iexact H0
    isplitl [H1]; · iapply (leaves_in1 m c t d1); iexact H1
    isplitl [H2]; · iapply (leaves_in2 m c t d2); iexact H2
    isplitl [H3]; · iapply (leaves_in3 m c t d3); iexact H3
    isplitl [H4]; · iapply (leaves_in4 m c t d4); iexact H4
    isplitl [H5]; · iapply (leaves_in5 m c t d5); iexact H5
    isplitl [H6]; · iapply (leaves_in6 m c t d6); iexact H6
    isplitl [H7]; · iapply (leaves_in7 m c t d7); iexact H7
    isplitl [H8]; · iapply (leaves_in8 m c t d8); iexact H8
    iexists _; iexact H9
  · by_cases h1 : t.val < 24
    · -- a point that is neither the first nor the last
      have h2 : t.val ≠ 24 := by omega
      rw [Dat.leaves_idle (dats m 0 c) 9 t (idle_out t h2) (noFlush_out t h2)]
      rw [accAt_step m c t h0 h1]
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB c (grid0.coords t) _ _ _ _ _ _ _ _ _ _ _ _ _ _ _ _ _ _ _ _ _ _ (fun h => h0 ((hcond0 t).mp h)) ((hcond1 t).mpr h1) (fun h => h2 ((hcond2 t).mp h)) ((cfg0.win 1).fill (cfg0.grid.coords t) d1 (blkOf m c 1 t)) ((cfg0.win 2).fill (cfg0.grid.coords t) d2 (blkOf m c 2 t)) ((cfg0.win 3).fill (cfg0.grid.coords t) d3 (blkOf m c 3 t)) ((cfg0.win 4).fill (cfg0.grid.coords t) d4 (blkOf m c 4 t)) ((cfg0.win 5).fill (cfg0.grid.coords t) d5 (blkOf m c 5 t)) ((cfg0.win 6).fill (cfg0.grid.coords t) d6 (blkOf m c 6 t)) ((cfg0.win 7).fill (cfg0.grid.coords t) d7 (blkOf m c 7 t)) ((cfg0.win 8).fill (cfg0.grid.coords t) d8 (blkOf m c 8 t)) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, ⟨%es, HS⟩⟩
      isplitl [HS Hg]
      · isplitl [HS]
        · unfold owns; iexists _; isplitr
          swap; · iexact HS
          ipureintro
          refine (View.read_writes_of_cover _ _ _ _ _ (scoverB c _ _ _ _ _ _ _ _ _ _ _ _ _ _ _ _ _ _ _ _ _ _ _ _ _ _ _ _ _ _ _ _ _ _ _)).trans ((soutB_eq c _ _ _ _ _ _ _ _ _ _ _ _ _ _ _ _ _ _ _ _ _ _ _ _ _ _ _ _ _ _ _ _ _ _ _).trans ?_)
          rw [fill_eq_ibk m c 1 t (unclipped_before_last 1 (by decide) t h1) d1, fill_eq_ibk m c 5 t (unclipped_before_last 5 (by decide) t h1) d5, fill_eq_ibk m c 2 t (unclipped_before_last 2 (by decide) t h1) d2, fill_eq_ibk m c 6 t (unclipped_before_last 6 (by decide) t h1) d6, fill_eq_ibk m c 3 t (unclipped_before_last 3 (by decide) t h1) d3, fill_eq_ibk m c 7 t (unclipped_before_last 7 (by decide) t h1) d7, fill_eq_ibk m c 4 t (unclipped_before_last 4 (by decide) t h1) d4, fill_eq_ibk m c 8 t (unclipped_before_last 8 (by decide) t h1) d8]
        iexact Hg
      isplitl [Ho]; · iexact Ho
      isplitl [H0]; · iapply (leaves_in0 m c t d0); iexact H0
      isplitl [H1]; · iapply (leaves_in1 m c t d1); iexact H1
      isplitl [H2]; · iapply (leaves_in2 m c t d2); iexact H2
      isplitl [H3]; · iapply (leaves_in3 m c t d3); iexact H3
      isplitl [H4]; · iapply (leaves_in4 m c t d4); iexact H4
      isplitl [H5]; · iapply (leaves_in5 m c t d5); iexact H5
      isplitl [H6]; · iapply (leaves_in6 m c t d6); iexact H6
      isplitl [H7]; · iapply (leaves_in7 m c t d7); iexact H7
      isplitl [H8]; · iapply (leaves_in8 m c t d8); iexact H8
      iexists _; iexact H9
    · -- the last point
      have h2 : t.val = 24 := by omega
      rw [accAt_last m c t h1 h0]
      rw [PhiS_castSucc m c t, PhiS_pos m c _ _ h0]
      rw [show (dats m 0 c).leaves 9 t = owns (c : Thread nD τ) (ms9 t) fullShare ((dats m 0 c).after 9 t) from by
        unfold Dat.leaves; rw [live_out t h2], after9]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runC c (grid0.coords t) _ _ _ _ _ _ _ _ _ _ _ _ _ _ _ _ _ _ _ _ _ _ (fun h => h0 ((hcond0 t).mp h)) (fun h => h1 ((hcond1 t).mp h)) ((hcond2 t).mpr h2) ((cfg0.win 0).fill (cfg0.grid.coords t) d0 (blkOf m c 0 t)) ((cfg0.win 1).fill (cfg0.grid.coords t) d1 (blkOf m c 1 t)) ((cfg0.win 2).fill (cfg0.grid.coords t) d2 (blkOf m c 2 t)) ((cfg0.win 5).fill (cfg0.grid.coords t) d5 (blkOf m c 5 t)) ((cfg0.win 6).fill (cfg0.grid.coords t) d6 (blkOf m c 6 t)) _).2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS]; · iexact HS
      iintro ⟨H0, H1, H2, H3, H4, H5, H6, H7, H8, ⟨%e9, H9⟩, HS⟩
      isplitl [HS Hg]
      · isplitl [HS]; · iexact HS
        iexact Hg
      isplitl [Ho]; · iexact Ho
      isplitl [H0]; · iapply (leaves_in0 m c t d0); iexact H0
      isplitl [H1]; · iapply (leaves_in1 m c t d1); iexact H1
      isplitl [H2]; · iapply (leaves_in2 m c t d2); iexact H2
      isplitl [H3]; · iapply (leaves_in3 m c t d3); iexact H3
      isplitl [H4]; · iapply (leaves_in4 m c t d4); iexact H4
      isplitl [H5]; · iapply (leaves_in5 m c t d5); iexact H5
      isplitl [H6]; · iapply (leaves_in6 m c t d6); iexact H6
      isplitl [H7]; · iapply (leaves_in7 m c t d7); iexact H7
      isplitl [H8]; · iapply (leaves_in8 m c t d8); iexact H8
      unfold owns; iexists _; isplitr
      swap; · iexact H9
      ipureintro
      refine (View.read_writes_of_cover _ _ _ _ _ (coverC c _ _ _ _ _ _ _ _ _ _ _ _ _ _ _ _ _ _ _ _ _ _ _ _ _ _ _ _ _ _ _ _)).trans ((outC_eq c _ _ _ _ _ _ _ _ _ _ _ _ _ _ _ _ _ _ _ _ _ _ _ _ _ _ _ _ _ _ _ _).trans ?_)
      unfold outAt
      rw [fill_eq_ibk m c 1 t (unclipped_always 1 (by decide) t) d1, fill_eq_ibk m c 5 t (unclipped_always 5 (by decide) t) d5,
        fill_eq_ibk m c 0 t (unclipped_always 0 (by decide) t) d0, ld_fill2 m c t d2, ld_fill6 m c t d6]
      rfl

/-- The library's body obligation, at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the running total's value is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), PhiA_eq]
  iintro ⟨HS, Hg⟩
  isplitl [HS]
  · iexists _; iexact HS
  iexact Hg

end Cert.Kernel.Hand

end
-- ==== Proof.LibSharedFrame.lean ====
/-
  A frame run for a pipeline several of whose INPUT windows read one array.

  The pipeline library's frame run (a region on a static grid, a body that may carry something of its own in a
  scratch buffer from point to point) is stated for windows on pairwise distinct arrays: each array's buffer, held
  whole at the full share when the region is entered, becomes that window's points-to.  When one array is handed to
  the kernel through several input windows its buffer has to be split among them, each window holding a share of it
  (reading needs no more).  This file states the same run with that split as a hypothesis: how the distinct buffers
  behind the arrays, each whole at the full share at the region's entry contents, yield the proof data's points-tos
  of the windows' arrays at the shares the data name.  Everything else is as in the library: the generator register
  and the scoped rest go into the class invariant at entry and come out of it at exit, the buffers that are no
  window's array bypass the region and are read back unchanged, and every array ends at what the library computes
  from the proof data.

  Also here: a full share of a buffer splits into four positive shares, which is what four windows on one array need.
-/
import Idealize.ShloMosaic.Lib.Pipeline.Frame

noncomputable section

namespace Cert.LibSharedFrame

open Idealize.ShloMosaic Idealize.ShloMosaic.TcCoe Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.Rounds

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- THE FRAME RUN with a tracking invariant for a pipeline that prefetches nothing and whose windows may share
    arrays: as the library's tracking frame run, the layout given by its fields and the arrays' split at the region's
    entry (`hsplit`) supplied by the certificate. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, ΦA (cfgs p).spec c ⊢ (dats p c).Φ 0) (hout : ∀ c, (dats p c).Φ (Fin.last (cfgs p).N) ⊢ ΦA (cfgs p).spec c) :
    θ_run (Pipeline.defs (fun q => Cfg.toPCfg (Val := Val) (cfgs q)) defs₀) (onTc main) (s₀ m g) (FramePost cfgs dats p V) := by
  classical
  have hinj' : Function.Injective (cellOf (nD := nD) (τ := τ) (pin (fun q => (cfgs q).toPCfg (Val := Val)) (fun q => (cfgs q).toPCfg_adm))) := hinj
  exact Pipeline.θ_run_region_pf (fun q => (cfgs q).toPCfg (Val := Val)) (fun q => (cfgs q).toPCfg_adm) dats () hinj' p hw
    (OwnSemFacts.none (cfgs p).spec) (PreFacts.none _) emb₁ defs₀ 𝒱₀ m g main
    hbody hne harr hstage howed
    (G := fun _ => iprop(emp))
    (u₀ := initOf (cells (pin (fun q => (cfgs q).toPCfg (Val := Val)) (fun q => (cfgs q).toPCfg_adm)) hinj') (launchToks (pin (fun q => (cfgs q).toPCfg (Val := Val)) (fun q => (cfgs q).toPCfg_adm)) hinj'))
    (hu₀ := by
      iintro Hu; imodintro
      isplitl [Hu]; · iapply (show (ownU _ : sProp 𝕄) ⊢ BI.own (emb₁ (initOf (cells (pin (fun q => (cfgs q).toPCfg (Val := Val)) (fun q => (cfgs q).toPCfg_adm)) hinj') (launchToks (pin (fun q => (cfgs q).toPCfg (Val := Val)) (fun q => (cfgs q).toPCfg_adm)) hinj'))) from .rfl); iexact Hu
      iapply (show (BI.emp : sProp 𝕄) ⊢ bigSep Finset.univ (fun _ : Dev nD => (BI.emp : sProp 𝕄)) from by rw [BI.bigSep_emp_const])
      iempintro)
    (V := V) (hmain := hmain)
    (hsplit := hsplit)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (V c))
    (hX := fun c => by
      iintro ⟨HU, -, -, -, Hp, -⟩; imodintro
      isplitl [Hp]; · iexists _; iexact Hp
      iexact HU)
    (hin := fun c => by
      exact (show _ ⊢ ΦA (cfgs p).spec c by
        unfold ΦA; iintro ⟨Hp, -, Hr⟩
        isplitl [Hr] <;> iassumption).trans (hin c))
    (hout := fun c => by
      exact (hout c).trans (by
        rw [ownSems0_none]; unfold ΦA
        iintro ⟨Hr, Hp⟩
        isplitl [Hp]; · iexact Hp
        isplitr; · iempintro
        iexact Hr))
    (QY := fun c s => ∀ b ∈ restRefsP sig Prefetch.none (cfgs p).spec, s.mem ((c.tc : Thread nD τ).loc b) = V c b)
    (hY := fun c s' => by
      iintro ⟨-, HU, HSI⟩
      unfold unscopedRestP
      imodintro
      iapply (pointsTo_read_all (restRefsP sig Prefetch.none (cfgs p).spec) (fun b => (c.tc : Thread nD τ).loc b) (V c) s')
      isplitl [HU] <;> iassumption)
    (hQ := fun s h c => ⟨fun w => (h c).1 w,
      rest_of_restP Prefetch.none (cfgs p).spec (fun k => k.elim0) c (V c) s (fun k => k.elim0) (h c).2.1 (h c).2.2⟩)

section Shares

variable {nD : Nat} {τ : Topo} {sig : RefSig} {Val : EltTy → Type}
variable {Ix : Type} [DecidableEq Ix] {Name : Type} [DecidableEq Name] {U : Type} [URA U] {Lvl : Type}

/-- A points-to at a share splits into four at the share's quarters: what four windows reading one array hold. -/
theorem pointsTo_quarters {ℓ : Loc nD τ sig} (I : Finset (Idx ℓ)) (q : PosShare TreeShare) (f : Buf Val ℓ) :
    (ℓ ↦[I]{q} f : sProp (MT nD τ sig Ix Val Name U Lvl))
      ⊢ iprop((ℓ ↦[I]{q.left.left} f) ∗ (ℓ ↦[I]{q.left.right} f) ∗ (ℓ ↦[I]{q.right.left} f) ∗ ℓ ↦[I]{q.right.right} f) := by
  refine (pointsTo_share (PosShare.mem_left_op_right q)).1.trans ?_
  refine (sep_mono (pointsTo_share (PosShare.mem_left_op_right q.left)).1 (pointsTo_share (PosShare.mem_left_op_right q.right)).1).trans ?_
  iintro ⟨⟨H1, H2⟩, H3, H4⟩
  isplitl [H1]; · iexact H1
  isplitl [H2]; · iexact H2
  isplitl [H3]; · iexact H3
  iexact H4

end Shares

end Cert.LibSharedFrame

end
-- ==== Proof.KBLaunch.lean ====
/-
  The launch: the region run from any memory, and the frame.

  Three of the program's four arrays reach the kernel through several windows: x through one, targets through four,
  centers through four; the loss through one, written.  At the region's entry each array's buffer is held whole; the
  targets' and the centers' buffers are split into quarter shares, one per window.  The run then ends with every
  array at what the pipeline library computes from the proof data: the three arguments unchanged, the loss array
  overwritten once, by the last point's write-back.
-/
import proofs.«138405_g52578989637756_cont_9to1c4b_755_4_alg».proof.Proof.KBBody
import proofs.«138405_g52578989637756_cont_9to1c4b_755_4_alg».proof.Proof.LibSharedFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's points-tos of the windows' arrays, each a whole buffer, at the windows' shares. -/
theorem arrays_eq (c : Dev nD) (G : (w : Fin cfg0.W) → Buf (Elt F) ((cfg0.win w).arr.view.loc (c : Thread nD τ))) :
    (dats m 0 c).arrays G
      = bigSep Finset.univ fun w : Fin cfg0.W => (((c : Thread nD τ).loc (Pipeline.arrRef spec0 w)) ↦{(dats m 0 c).share w} G w : sProp 𝕄) := by
  unfold Dat.arrays
  exact bigSep_congr fun w _ => by rw [(arr_whole0 w).set_eq_univ]

/-- The four buffers behind the ten windows' arrays, whole at the region's entry, yield the windows' points-tos:
    x's and the loss's whole, the targets' and the centers' in quarters. -/
theorem hsplit (c : Dev nD) : (Pipeline.arrBufs spec0 c (V m c) : sProp 𝕄) ⊢ (dats m 0 c).arrays ((dats m 0 c).arrAt · 0) := by
  rw [arrays_eq, bigSep_W0]
  unfold Pipeline.arrBufs
  rw [bigSep_eq_bigSepL_of_eq [main_arg0, main_arg1, main_arg2, main_v0] (by decide) (by decide)]
  show iprop((((c : Thread nD τ).loc main_arg0) ↦{fullShare} V m c main_arg0) ∗ (((c : Thread nD τ).loc main_arg1) ↦{fullShare} V m c main_arg1)
      ∗ (((c : Thread nD τ).loc main_arg2) ↦{fullShare} V m c main_arg2) ∗ (((c : Thread nD τ).loc main_v0) ↦{fullShare} V m c main_v0))
    ⊢ iprop((((c : Thread nD τ).loc main_arg0) ↦{fullShare} V m c main_arg0)
      ∗ (((c : Thread nD τ).loc main_arg1) ↦{fullShare.left.left} V m c main_arg1) ∗ (((c : Thread nD τ).loc main_arg1) ↦{fullShare.left.right} V m c main_arg1)
      ∗ (((c : Thread nD τ).loc main_arg1) ↦{fullShare.right.left} V m c main_arg1) ∗ (((c : Thread nD τ).loc main_arg1) ↦{fullShare.right.right} V m c main_arg1)
      ∗ (((c : Thread nD τ).loc main_arg2) ↦{fullShare.left.left} V m c main_arg2) ∗ (((c : Thread nD τ).loc main_arg2) ↦{fullShare.left.right} V m c main_arg2)
      ∗ (((c : Thread nD τ).loc main_arg2) ↦{fullShare.right.left} V m c main_arg2) ∗ (((c : Thread nD τ).loc main_arg2) ↦{fullShare.right.right} V m c main_arg2)
      ∗ (((c : Thread nD τ).loc main_v0) ↦{fullShare} V m c main_v0))
  refine (sep_mono .rfl (sep_mono (Cert.LibSharedFrame.pointsTo_quarters _ _ _) (sep_mono (Cert.LibSharedFrame.pointsTo_quarters _ _ _) .rfl))).trans ?_
  iintro ⟨H0, ⟨H1, H2, H3, H4⟩, ⟨H5, H6, H7, H8⟩, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option backward.isDefEq.respectTransparency.types false in
/-- At the compiled mesh, for any values, from any memory with zero counters: every weakly fair execution of the
    program terminates, and every final state has every array of the pipeline at what the library computes from the
    proof data. -/
theorem run_main : θ_run defs (onTc (τ := τ) (main (F := F))) (s₀ m ρ) (Pipeline.FramePost cfgs (dats m) 0 (V m)) :=
  Cert.LibSharedFrame.θ_run_frame_track_shared cfgs (dats m) (0 : Fin 1) cellOf_inj winFacts₀0 block_pos0 arr_whole0 stage_whole0
    defs₀ Variants.none m ρ main
    (hbody := fun c => body_obligation m c) (howed := fun _ _ => rfl) (V := V m) (hmain := hmain m Variants.none)
    (hsplit := hsplit m) (hin := hin m) (hout := hout m)

/-- The three argument arrays end as they began. -/
theorem kept (c : Dev nD) :
    (dats m 0 c).arrAt 0 cfg0.N = m ((c : Thread nD τ).loc main_arg0)
    ∧ (dats m 0 c).arrAt 1 cfg0.N = m ((c : Thread nD τ).loc main_arg1)
    ∧ (dats m 0 c).arrAt 5 cfg0.N = m ((c : Thread nD τ).loc main_arg2) :=
  ⟨((dats m 0 c).arrAt_in 0 rfl _).trans (A_eq m c 0), ((dats m 0 c).arrAt_in 1 rfl _).trans (A_eq m c 1),
    ((dats m 0 c).arrAt_in 5 rfl _).trans (A_eq m c 5)⟩

/-- The run with the loss array named and the arguments unchanged. -/
theorem run_named : θ_run defs (onTc (τ := τ) (main (F := F))) ⟨m, fun _ => 0, ρ⟩ (fun r => ∀ c : Dev nD,
      r.2.mem ((c.tc : Thread nD τ).loc main_v0) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 9, ((h c).1 0).trans (kept m c).1, ((h c).1 1).trans (kept m c).2.1,
    ((h c).1 5).trans (kept m c).2.2⟩) (run_main m ρ)

/-- THE FRAME: the program runs to the end, faults nowhere, and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.Kernel.Hand

end
-- ==== Proof.KIBase.lean ====
/-
  What the three runs of the kernel body and the frame share: the arrays as the region finds them, the branch
  conditions of the body decided over the 25 grid points (the first point zeroes the running total, the points
  before the last add four class blocks to it, the last adds the tail and writes the loss), where the loss
  window is idle, and the region invariant with the running total's buffer held as a memref.
-/
import proofs.«138405_g52578989637756_cont_9to1c4b_755_4_alg».proof.Proof.Gen.KernelIdeal.Launch
import proofs.«138405_g52578989637756_cont_9to1c4b_755_4_alg».proof.Proof.Gen.KernelIdeal.Skeleton
import proofs.«138405_g52578989637756_cont_9to1c4b_755_4_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- The region is all of the program: its arrays hold the launch contents when it is entered. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The body's three branch conditions -/

/-- "this is the first grid point". -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-- "this is not the last grid point". -/
abbrev cond1 (i : grid0.Coords) : Prop := (Scalar.cmpi .ne (Scalar.extui (Scalar.cmpi .slt (BitVec.ofNat 32 (i 0).val) 24#32)) 0#32) = 1#1
theorem hcond1 : ∀ t : Fin cfg0.N, cond1 (grid0.coords t) ↔ t.val < 24 :=
  (by decide +kernel : ∀ t : Fin grid0.N, cond1 (grid0.coords t) ↔ t.val < 24)

/-- "this is the last grid point". -/
abbrev cond2 (i : grid0.Coords) : Prop := k0_cond3 i = 1#1
theorem hcond2 : ∀ t : Fin cfg0.N, cond2 (grid0.coords t) ↔ t.val = 24 :=
  (by decide +kernel : ∀ t : Fin grid0.N, cond2 (grid0.coords t) ↔ t.val = 24)

/-! ## Where the windows are idle -/

theorem live_in : ∀ (w : Fin 10), w.val < 9 → ∀ t : Fin cfg0.N, cfg0.idle w (grid0.coords t) = false := by decide +kernel
/-- Before the last point the body stores nothing into the loss window, and its block is not written back. -/
theorem idle_out : ∀ t : Fin cfg0.N, t.val ≠ 24 → cfg0.idle 9 (grid0.coords t) = true := by decide +kernel
theorem noFlush_out : ∀ t : Fin cfg0.N, t.val ≠ 24 → (cfg0.win 9).flush t = false := by decide +kernel
/-- At the last point it stores the loss there. -/
theorem live_out : ∀ t : Fin cfg0.N, t.val = 24 → cfg0.idle 9 (grid0.coords t) = false := by decide +kernel

/-! ## The staging memrefs at a point -/

abbrev ms0 (t : Fin cfg0.N) : Memref sig .tc .vmem S1024x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x1 .f32 := win0_9.stage (cfg0.slots t 9)
abbrev hs9 (t : Fin cfg0.N) : (ms9 t).IsWhole := hstage0_9 ((cfg0.slots t 9).cast nbuf0_9)
/-- The running total's buffer, a whole scoped buffer of the kernel's own. -/
abbrev scM : Memref sig .tc .vmem S1024x64 .f32 := Memref.whole cc0_scratch0
abbrev VS : View sig .tc .vmem S1024x64 .f32 := scM.view
/-- One staging buffer of the loss window, through which its contents are stated. -/
abbrev VO : View sig .tc .vmem S1024x1 .f32 := (Memref.whole cc0_stg9_0 : Memref sig .tc .vmem S1024x1 .f32).view

/-- The region's invariant as the launch hands it over: the running total's buffer at some contents, the
    generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KIRunB.lean ====
/-
  The kernel body at a grid point that is neither the first nor the last: it loads the four target blocks and the
  four center blocks, multiplies them pairwise, sums the four products from the left, adds the running total and
  stores the new total over the old one.  Nothing else is written.
-/
import proofs.«138405_g52578989637756_cont_9to1c4b_755_4_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's one store leaves in the running total's buffer at such a point, with the proof that the
    body runs from the windows' buffers at any contents and the running total at `xs` to those buffers unchanged
    and the total's buffer with the pieces written. -/
noncomputable def runB (c : Dev nD) (i : grid0.Coords) (arg1 : Memref sig .tc .vmem S1024x64 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x64 .f32) (harg11 : arg11.IsWhole) (hc0 : ¬cond0 i) (hc1 : cond1 i) (hc2 : ¬cond2 i)
    (x1 x2 x3 x4 : Vec F S1024x1024 .f32) (x5 x6 x7 x8 : Vec F S1024x64 .f32) (xs : Vec F S1024x64 .f32) :
    { LS : List (View.Piece (Elt F) S1024x64 .f32) //
      ∀ (x0 : Vec F S1024x64 .f32) (x9 : Vec F S1024x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f LS)) -∗ K ⟨⟩))
          ⊢ wp frame (wpE (defs₀ (F := F)) Variants.none c none) E (cc0__center_loss_body i arg1 harg1 arg2 harg2 arg3 harg3 arg4 harg4 arg5 harg5 arg6 harg6 arg7 harg7 arg8 harg8 arg9 harg9 arg10 harg10 arg11 harg11) K } := by
  refine ⟨?_, fun x0 x9 E K => ?run⟩
  case run =>
    simp only [cc0__center_loss_body_eq_skeleton]; unfold cc0__center_loss_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4
    obtain rfl := harg6.eq_unread hf5; obtain rfl := harg7.eq_unread hf6; obtain rfl := harg8.eq_unread hf7; obtain rfl := harg9.eq_unread hf8; obtain rfl := harg10.eq_unread hf9
    obtain rfl := harg11.eq_unread hfs
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HS

end Cert.KernelIdeal.Hand

end
-- ==== Proof.KIRunA.lean ====
/-
  The kernel body at the first grid point: it overwrites the running total with zeros, then does what every point
  before the last does — loads the four target blocks and the four center blocks, sums the four products from the
  left, adds the (now zero) running total and stores the result as the new total.
-/
import proofs.«138405_g52578989637756_cont_9to1c4b_755_4_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's two stores leave in the running total's buffer at the first point (last first), with the
    proof that the body runs from the windows' buffers at any contents and the running total at anything to those
    buffers unchanged and the total's buffer with the pieces written. -/
noncomputable def runA (c : Dev nD) (i : grid0.Coords) (arg1 : Memref sig .tc .vmem S1024x64 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x64 .f32) (harg11 : arg11.IsWhole) (hc0 : cond0 i) (hc1 : cond1 i) (hc2 : ¬cond2 i)
    (x1 x2 x3 x4 : Vec F S1024x1024 .f32) (x5 x6 x7 x8 : Vec F S1024x64 .f32) :
    { LS : List (View.Piece (Elt F) S1024x64 .f32) //
      ∀ (x0 : Vec F S1024x64 .f32) (x9 : Vec F S1024x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f LS)) -∗ K ⟨⟩))
          ⊢ wp frame (wpE (defs₀ (F := F)) Variants.none c none) E (cc0__center_loss_body i arg1 harg1 arg2 harg2 arg3 harg3 arg4 harg4 arg5 harg5 arg6 harg6 arg7 harg7 arg8 harg8 arg9 harg9 arg10 harg10 arg11 harg11) K } := by
  refine ⟨?_, fun x0 x9 E K => ?run⟩
  case run =>
    simp only [cc0__center_loss_body_eq_skeleton]; unfold cc0__center_loss_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4
    obtain rfl := harg6.eq_unread hf5; obtain rfl := harg7.eq_unread hf6; obtain rfl := harg8.eq_unread hf7; obtain rfl := harg9.eq_unread hf8; obtain rfl := harg10.eq_unread hf9
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HS

end Cert.KernelIdeal.Hand

end
-- ==== Proof.KIRunC.lean ====
/-
  The kernel body at the last grid point: it multiplies target block 96 by center block 96 whole, the 672 columns
  of target block 97 that lie inside the array by the 672 rows of center block 97 that do, adds the two products to
  a fresh zero and then to the running total, subtracts the sum from x, squares, sums each row's 64 squares and
  stores the column of sums in the loss window.  The running total's buffer is read, not written.
-/
import proofs.«138405_g52578989637756_cont_9to1c4b_755_4_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's one store leaves in the loss window's buffer at the last point, with the proof that the
    body runs from the windows' buffers at any contents, the loss window's at anything and the running total at
    `xs` to those buffers unchanged and the loss window's buffer with the pieces written. -/
noncomputable def runC (c : Dev nD) (i : grid0.Coords) (arg1 : Memref sig .tc .vmem S1024x64 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x64 .f32) (harg11 : arg11.IsWhole) (hc0 : ¬cond0 i) (hc1 : ¬cond1 i) (hc2 : cond2 i)
    (x0 : Vec F S1024x64 .f32) (x1 x2 : Vec F S1024x1024 .f32) (x5 x6 : Vec F S1024x64 .f32) (xs : Vec F S1024x64 .f32) :
    { L9 : List (View.Piece (Elt F) S1024x1 .f32) //
      ∀ (x3 x4 : Vec F S1024x1024 .f32) (x7 x8 : Vec F S1024x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xs) -∗ K ⟨⟩))
          ⊢ wp frame (wpE (defs₀ (F := F)) Variants.none c none) E (cc0__center_loss_body i arg1 harg1 arg2 harg2 arg3 harg3 arg4 harg4 arg5 harg5 arg6 harg6 arg7 harg7 arg8 harg8 arg9 harg9 arg10 harg10 arg11 harg11) K } := by
  refine ⟨?_, fun x3 x4 x7 x8 E K => ?run⟩
  case run =>
    simp only [cc0__center_loss_body_eq_skeleton]; unfold cc0__center_loss_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4
    obtain rfl := harg6.eq_unread hf5; obtain rfl := harg7.eq_unread hf6; obtain rfl := harg8.eq_unread hf7; obtain rfl := harg9.eq_unread hf8
    obtain rfl := harg11.eq_unread hfs
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    iexists _; isplitr; · ipureintro; exact harg11.read_unread _
    iexact HS

end Cert.KernelIdeal.Hand

end
-- ==== Proof.KIPieces.lean ====
/-
  What the body's stores leave, read back, is the skeleton's payload of what the body loaded.

  Every store of the kernel body overwrites a whole buffer, so the buffer afterwards holds exactly the stored value:
  at a point before the last the new running total (the sum of the four block products added to the old total; at
  the first point the old total is the zero fill the body has just stored), at the last point the column of row
  sums of squared differences.  The last point loads only the 672 leading columns of the second target block and
  the 672 leading rows of the second center block; the value it stores depends on those alone.
-/
import proofs.«138405_g52578989637756_cont_9to1c4b_755_4_alg».proof.Proof.KIRunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-! ## A point that is neither the first nor the last -/

theorem scoverB (c : Dev nD) (i : grid0.Coords) (arg1 : Memref sig .tc .vmem S1024x64 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x64 .f32) (harg11 : arg11.IsWhole) (hc0 : ¬cond0 i) (hc1 : cond1 i) (hc2 : ¬cond2 i)
    (x1 x2 x3 x4 : Vec F S1024x1024 .f32) (x5 x6 x7 x8 : Vec F S1024x64 .f32) (xs : Vec F S1024x64 .f32) (y : S1024x64.Idx) :
    ∃ pc ∈ (runB c i arg1 harg1 arg2 harg2 arg3 harg3 arg4 harg4 arg5 harg5 arg6 harg6 arg7 harg7 arg8 harg8 arg9 harg9 arg10 harg10 arg11 harg11 hc0 hc1 hc2 x1 x2 x3 x4 x5 x6 x7 x8 xs).1, y ∈ pc.1.set :=
  View.cover_of_tiledL (runB c i arg1 harg1 arg2 harg2 arg3 harg3 arg4 harg4 arg5 harg5 arg6 harg6 arg7 harg7 arg8 harg8 arg9 harg9 arg10 harg10 arg11 harg11 hc0 hc1 hc2 x1 x2 x3 x4 x5 x6 x7 x8 xs).1 S1024x64.size (by sl_kernel_rfl) y

/-- The running total after such a point: the four block products summed from the left, added to the total before. -/
theorem soutB_eq (c : Dev nD) (i : grid0.Coords) (arg1 : Memref sig .tc .vmem S1024x64 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x64 .f32) (harg11 : arg11.IsWhole) (hc0 : ¬cond0 i) (hc1 : cond1 i) (hc2 : ¬cond2 i)
    (x1 x2 x3 x4 : Vec F S1024x1024 .f32) (x5 x6 x7 x8 : Vec F S1024x64 .f32) (xs : Vec F S1024x64 .f32) :
    VS.read (Elt F) (VS.writes (Elt F) VS.junk (runB c i arg1 harg1 arg2 harg2 arg3 harg3 arg4 harg4 arg5 harg5 arg6 harg6 arg7 harg7 arg8 harg8 arg9 harg9 arg10 harg10 arg11 harg11 hc0 hc1 hc2 x1 x2 x3 x4 x5 x6 x7 x8 xs).1)
      = k0_pay2 x1 x5 x2 x6 x3 x7 x4 x8 xs := by
  rw [View.read_writes_eq_canon _ _ _ (scoverB c i arg1 harg1 arg2 harg2 arg3 harg3 arg4 harg4 arg5 harg5 arg6 harg6 arg7 harg7 arg8 harg8 arg9 harg9 arg10 harg10 arg11 harg11 hc0 hc1 hc2 x1 x2 x3 x4 x5 x6 x7 x8 xs)]
  unfold runB; dsimp only
  rw [View.canon_unit_zero hz2]
  simp only [View.readAt_eq_ld, harg2.read_unread, harg3.read_unread, harg4.read_unread, harg5.read_unread, harg6.read_unread,
    harg7.read_unread, harg8.read_unread, harg9.read_unread, harg11.read_unread,
    View.ld_unit_zero (S := S1024x1024) hz2, View.ld_unit_zero (S := S1024x64) hz2]

/-! ## The first point -/

theorem scoverA (c : Dev nD) (i : grid0.Coords) (arg1 : Memref sig .tc .vmem S1024x64 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x64 .f32) (harg11 : arg11.IsWhole) (hc0 : cond0 i) (hc1 : cond1 i) (hc2 : ¬cond2 i)
    (x1 x2 x3 x4 : Vec F S1024x1024 .f32) (x5 x6 x7 x8 : Vec F S1024x64 .f32) (y : S1024x64.Idx) :
    ∃ pc ∈ (runA c i arg1 harg1 arg2 harg2 arg3 harg3 arg4 harg4 arg5 harg5 arg6 harg6 arg7 harg7 arg8 harg8 arg9 harg9 arg10 harg10 arg11 harg11 hc0 hc1 hc2 x1 x2 x3 x4 x5 x6 x7 x8).1, y ∈ pc.1.set :=
  View.cover_of_tiledL (runA c i arg1 harg1 arg2 harg2 arg3 harg3 arg4 harg4 arg5 harg5 arg6 harg6 arg7 harg7 arg8 harg8 arg9 harg9 arg10 harg10 arg11 harg11 hc0 hc1 hc2 x1 x2 x3 x4 x5 x6 x7 x8).1 S1024x64.size (by sl_kernel_rfl) y

/-- The running total after the first point: the four block products summed from the left, added to the zero fill. -/
theorem soutA_eq (c : Dev nD) (i : grid0.Coords) (arg1 : Memref sig .tc .vmem S1024x64 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x64 .f32) (harg11 : arg11.IsWhole) (hc0 : cond0 i) (hc1 : cond1 i) (hc2 : ¬cond2 i)
    (x1 x2 x3 x4 : Vec F S1024x1024 .f32) (x5 x6 x7 x8 : Vec F S1024x64 .f32) :
    VS.read (Elt F) (VS.writes (Elt F) VS.junk (runA c i arg1 harg1 arg2 harg2 arg3 harg3 arg4 harg4 arg5 harg5 arg6 harg6 arg7 harg7 arg8 harg8 arg9 harg9 arg10 harg10 arg11 harg11 hc0 hc1 hc2 x1 x2 x3 x4 x5 x6 x7 x8).1)
      = k0_pay2 x1 x5 x2 x6 x3 x7 x4 x8 (k0_pay1 (F := F)) := by
  rw [View.read_writes_eq_canon _ _ _ (scoverA c i arg1 harg1 arg2 harg2 arg3 harg3 arg4 harg4 arg5 harg5 arg6 harg6 arg7 harg7 arg8 harg8 arg9 harg9 arg10 harg10 arg11 harg11 hc0 hc1 hc2 x1 x2 x3 x4 x5 x6 x7 x8)]
  unfold runA; dsimp only
  sl_unfold_words
  rw [View.canon_cons_unit_zero hz2]
  simp only [View.readAt_eq_ld, harg2.read_unread, harg3.read_unread, harg4.read_unread, harg5.read_unread, harg6.read_unread,
    harg7.read_unread, harg8.read_unread, harg9.read_unread,
    View.ld_unit_zero (S := S1024x1024) hz2, View.ld_unit_zero (S := S1024x64) hz2]
  rw [View.readCov_cons_toLoadRect]

/-! ## The last point -/

/-- The loss window's buffer is covered by the one store of the last point. -/
theorem coverC (c : Dev nD) (i : grid0.Coords) (arg1 : Memref sig .tc .vmem S1024x64 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x64 .f32) (harg11 : arg11.IsWhole) (hc0 : ¬cond0 i) (hc1 : ¬cond1 i) (hc2 : cond2 i)
    (x0 : Vec F S1024x64 .f32) (x1 x2 : Vec F S1024x1024 .f32) (x5 x6 : Vec F S1024x64 .f32) (xs : Vec F S1024x64 .f32) (y : S1024x1.Idx) :
    ∃ pc ∈ (runC c i arg1 harg1 arg2 harg2 arg3 harg3 arg4 harg4 arg5 harg5 arg6 harg6 arg7 harg7 arg8 harg8 arg9 harg9 arg10 harg10 arg11 harg11 hc0 hc1 hc2 x0 x1 x2 x5 x6 xs).1, y ∈ pc.1.set :=
  View.cover_of_tiledL (runC c i arg1 harg1 arg2 harg2 arg3 harg3 arg4 harg4 arg5 harg5 arg6 harg6 arg7 harg7 arg8 harg8 arg9 harg9 arg10 harg10 arg11 harg11 hc0 hc1 hc2 x0 x1 x2 x5 x6 xs).1 S1024x1.size (by sl_kernel_rfl) y

/-- The loss the last point stores: the epilogue's payload of the two whole blocks, the 672 columns and rows of the
    clipped blocks, x and the running total. -/
theorem outC_eq (c : Dev nD) (i : grid0.Coords) (arg1 : Memref sig .tc .vmem S1024x64 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x64 .f32) (harg11 : arg11.IsWhole) (hc0 : ¬cond0 i) (hc1 : ¬cond1 i) (hc2 : cond2 i)
    (x0 : Vec F S1024x64 .f32) (x1 x2 : Vec F S1024x1024 .f32) (x5 x6 : Vec F S1024x64 .f32) (xs : Vec F S1024x64 .f32) :
    VO.read (Elt F) (VO.writes (Elt F) VO.junk (runC c i arg1 harg1 arg2 harg2 arg3 harg3 arg4 harg4 arg5 harg5 arg6 harg6 arg7 harg7 arg8 harg8 arg9 harg9 arg10 harg10 arg11 harg11 hc0 hc1 hc2 x0 x1 x2 x5 x6 xs).1)
      = k0_pay3 x1 x5 (View.ld x2 (Rect.unit (s := S1024x1024) ![0, 0] S1024x672.size inb_S1024x1024_S1024x672_0_0)) (View.ld x6 (Rect.unit (s := S1024x64) ![0, 0] S672x64.size inb_S1024x64_S672x64_0_0)) x0 xs := by
  rw [View.read_writes_eq_canon _ _ _ (coverC c i arg1 harg1 arg2 harg2 arg3 harg3 arg4 harg4 arg5 harg5 arg6 harg6 arg7 harg7 arg8 harg8 arg9 harg9 arg10 harg10 arg11 harg11 hc0 hc1 hc2 x0 x1 x2 x5 x6 xs)]
  unfold runC; dsimp only
  rw [View.canon_unit_zero hz2]
  simp only [View.readAt_eq_ld, harg1.read_unread, harg2.read_unread, harg3.read_unread, harg6.read_unread, harg7.read_unread, harg11.read_unread,
    View.ld_unit_zero (S := S1024x1024) hz2, View.ld_unit_zero (S := S1024x64) hz2]

end Cert.KernelIdeal.Hand

end
-- ==== Proof.KIData.lean ====
/-
  The proof data of the kernel's one pipeline.

  At every grid point the pipeline hands the body its ten windows' staging buffers.  The nine input windows hold
  their blocks of the three argument arrays as the point's fetch (or, for x, the first point's) left them: block 0
  of x; blocks 4k, 4k+1, 4k+2, 4k+3 (capped at 97) of targets along the class axis and of centers along the same
  axis.  Block 97 overhangs the arrays by 352 classes; a buffer holding it is determined only on its leading 672
  columns (rows), which is all the body ever reads of it.  The body keeps its running total in a buffer of its own:
  zero, then one grid step's four block products added at each of the first 24 points, untouched at the last.  The
  loss window is idle before the last point, where the body stores the loss and the pipeline writes it back.
-/
import proofs.«138405_g52578989637756_cont_9to1c4b_755_4_alg».proof.Proof.KIPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t` read off its array as the region finds it: the part inside the array. -/
def blkOf (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The same filled out to the staging buffer's extent, past the array's end with a value nothing reads. -/
def ibk (c : Dev nD) (w : Fin cfg0.W) (t : Fin cfg0.N) : (cfg0.win w).block.Idx → Elt F (cfg0.win w).elt :=
  (cfg0.win w).fill (cfg0.grid.coords t) (fun _ => Classical.arbitrary _) (blkOf m c w t)

/-! ## The running total and the loss -/

/-- The running total after the body at position `n`: at the first point the step's four block products added to
    the zero fill, at a later point before the last added to the total before, at the last point unchanged. -/
def accAt (c : Dev nD) : (n : ℕ) → n < cfg0.N → Vec F S1024x64 .f32
  | 0, hn => k0_pay2 (ibk m c 1 ⟨0, hn⟩) (ibk m c 5 ⟨0, hn⟩) (ibk m c 2 ⟨0, hn⟩) (ibk m c 6 ⟨0, hn⟩) (ibk m c 3 ⟨0, hn⟩) (ibk m c 7 ⟨0, hn⟩) (ibk m c 4 ⟨0, hn⟩) (ibk m c 8 ⟨0, hn⟩) (k0_pay1 (F := F))
  | n + 1, hn =>
    if n + 1 < 24 then k0_pay2 (ibk m c 1 ⟨n + 1, hn⟩) (ibk m c 5 ⟨n + 1, hn⟩) (ibk m c 2 ⟨n + 1, hn⟩) (ibk m c 6 ⟨n + 1, hn⟩) (ibk m c 3 ⟨n + 1, hn⟩) (ibk m c 7 ⟨n + 1, hn⟩) (ibk m c 4 ⟨n + 1, hn⟩) (ibk m c 8 ⟨n + 1, hn⟩) (accAt c n (Nat.lt_of_succ_lt hn))
    else accAt c n (Nat.lt_of_succ_lt hn)

theorem accAt_first (c : Dev nD) (t : Fin cfg0.N) (h0 : t.val = 0) :
    accAt m c t.val t.isLt = k0_pay2 (ibk m c 1 t) (ibk m c 5 t) (ibk m c 2 t) (ibk m c 6 t) (ibk m c 3 t) (ibk m c 7 t) (ibk m c 4 t) (ibk m c 8 t) (k0_pay1 (F := F)) := by
  obtain ⟨n, hn⟩ := t
  cases n with
  | zero => rfl
  | succ n => exact absurd h0 (Nat.succ_ne_zero n)

theorem accAt_step (c : Dev nD) (t : Fin cfg0.N) (h0 : t.val ≠ 0) (h1 : t.val < 24) :
    accAt m c t.val t.isLt = k0_pay2 (ibk m c 1 t) (ibk m c 5 t) (ibk m c 2 t) (ibk m c 6 t) (ibk m c 3 t) (ibk m c 7 t) (ibk m c 4 t) (ibk m c 8 t) (accAt m c (t.val - 1) (Nat.lt_of_le_of_lt (Nat.sub_le _ _) t.isLt)) := by
  obtain ⟨n, hn⟩ := t
  cases n with
  | zero => exact absurd rfl h0
  | succ n => exact (if_pos h1).trans rfl

theorem accAt_last (c : Dev nD) (t : Fin cfg0.N) (h1 : ¬ t.val < 24) (h0 : t.val ≠ 0) :
    accAt m c t.val t.isLt = accAt m c (t.val - 1) (Nat.lt_of_le_of_lt (Nat.sub_le _ _) t.isLt) := by
  obtain ⟨n, hn⟩ := t
  cases n with
  | zero => exact absurd rfl h0
  | succ n => exact (if_neg h1).trans rfl

/-- What the body stores in the loss window at point `t` (it does so at the last point only): the epilogue of x's
    block, the first stream's two blocks whole, the second stream's two blocks on their leading 672 classes, and
    the running total the point before left. -/
def outAt (c : Dev nD) (t : Fin cfg0.N) : Vec F S1024x1 .f32 :=
  k0_pay3 (ibk m c 1 t) (ibk m c 5 t) (View.ld (ibk m c 2 t) (Rect.unit (s := S1024x1024) ![0, 0] S1024x672.size inb_S1024x1024_S1024x672_0_0)) (View.ld (ibk m c 6 t) (Rect.unit (s := S1024x64) ![0, 0] S672x64.size inb_S1024x64_S672x64_0_0)) (ibk m c 0 t)
    (accAt m c (t.val - 1) (Nat.lt_of_le_of_lt (Nat.sub_le _ _) t.isLt))

/-! ## The region invariant -/

/-- Before the first point the launch's invariant (the running total's buffer at anything); before a later point
    that buffer at the running total the point before left, and the generator register at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The arrays as the region finds them; after the body each input window's buffer at its block, the loss window's
    at the loss; the invariant above; nothing owed.  The four windows on targets hold a quarter of its buffer's
    share each, and so the four on centers. -/
def dats (_ : Fin 1) (c : Dev nD) : Dat τ (Elt F) Unit ℕ (UR sig nD τ) ℕ cfg0 c where
  A w := V m c (Pipeline.arrRef spec0 w)
  after w t := match w with
    | ⟨0, _⟩ => ibk m c 0 t
    | ⟨1, _⟩ => ibk m c 1 t
    | ⟨2, _⟩ => ibk m c 2 t
    | ⟨3, _⟩ => ibk m c 3 t
    | ⟨4, _⟩ => ibk m c 4 t
    | ⟨5, _⟩ => ibk m c 5 t
    | ⟨6, _⟩ => ibk m c 6 t
    | ⟨7, _⟩ => ibk m c 7 t
    | ⟨8, _⟩ => ibk m c 8 t
    | ⟨9, _⟩ => outAt m c t
  Φ t := PhiS m c t.val (Nat.le_of_lt_succ t.isLt)
  q w := match w with
    | ⟨0, _⟩ => fullShare
    | ⟨1, _⟩ => fullShare.left.left
    | ⟨2, _⟩ => fullShare.left.right
    | ⟨3, _⟩ => fullShare.right.left
    | ⟨4, _⟩ => fullShare.right.right
    | ⟨5, _⟩ => fullShare.left.left
    | ⟨6, _⟩ => fullShare.left.right
    | ⟨7, _⟩ => fullShare.right.left
    | ⟨8, _⟩ => fullShare.right.right
    | ⟨9, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = ibk m c 0 t := by dsimp only [dats]
theorem after1 (c : Dev nD) (t : Fin cfg0.N) : (dats m 0 c).after 1 t = ibk m c 1 t := by dsimp only [dats]
theorem after2 (c : Dev nD) (t : Fin cfg0.N) : (dats m 0 c).after 2 t = ibk m c 2 t := by dsimp only [dats]
theorem after3 (c : Dev nD) (t : Fin cfg0.N) : (dats m 0 c).after 3 t = ibk m c 3 t := by dsimp only [dats]
theorem after4 (c : Dev nD) (t : Fin cfg0.N) : (dats m 0 c).after 4 t = ibk m c 4 t := by dsimp only [dats]
theorem after5 (c : Dev nD) (t : Fin cfg0.N) : (dats m 0 c).after 5 t = ibk m c 5 t := by dsimp only [dats]
theorem after6 (c : Dev nD) (t : Fin cfg0.N) : (dats m 0 c).after 6 t = ibk m c 6 t := by dsimp only [dats]
theorem after7 (c : Dev nD) (t : Fin cfg0.N) : (dats m 0 c).after 7 t = ibk m c 7 t := by dsimp only [dats]
theorem after8 (c : Dev nD) (t : Fin cfg0.N) : (dats m 0 c).after 8 t = ibk m c 8 t := by dsimp only [dats]
theorem after9 (c : Dev nD) (t : Fin cfg0.N) : (dats m 0 c).after 9 t = outAt m c t := by dsimp only [dats]

/-! ## What the body finds in the input windows -/

/-- The block an input window's fetch reads is the block read off the region-entry array. -/
theorem blockOf_eq (c : Dev nD) (w : Fin cfg0.W) (t : Fin cfg0.N) : (dats m 0 c).blockOf w t = blkOf m c w t := by
  unfold Dat.blockOf blkOf; rw [A_eq]

/-- x's window is fetched at the first point only, and the body leaves its block in place: at every point its
    buffer holds the block. -/
theorem before0 (c : Dev nD) (t : Fin cfg0.N) (d) : (dats m 0 c).before 0 t d = (cfg0.win 0).fill (cfg0.grid.coords t) d (blkOf m c 0 t) := by
  rw [(dats m 0 c).before_in_eq_fetched 0 rfl (fun _ => rfl) (fun _ _ _ => rfl)
    (fun t => by rw [after0, blockOf_eq]; unfold ibk; exact (cfg0.win 0).cut_fill _ _ _) t d]
  unfold Dat.fetched; rw [blockOf_eq]

/-- Window 1 is fetched at every point: its buffer holds the block on the part inside the array. -/
theorem before1 (c : Dev nD) (t : Fin cfg0.N) (d) : (dats m 0 c).before 1 t d = (cfg0.win 1).fill (cfg0.grid.coords t) d (blkOf m c 1 t) := by
  rw [(dats m 0 c).before_fetched 1 t (fetch0_1 t) d]
  unfold Dat.fetched; rw [blockOf_eq]
/-- Window 2 is fetched at every point: its buffer holds the block on the part inside the array. -/
theorem before2 (c : Dev nD) (t : Fin cfg0.N) (d) : (dats m 0 c).before 2 t d = (cfg0.win 2).fill (cfg0.grid.coords t) d (blkOf m c 2 t) := by
  rw [(dats m 0 c).before_fetched 2 t (fetch0_2 t) d]
  unfold Dat.fetched; rw [blockOf_eq]
/-- Window 3 is fetched at every point: its buffer holds the block on the part inside the array. -/
theorem before3 (c : Dev nD) (t : Fin cfg0.N) (d) : (dats m 0 c).before 3 t d = (cfg0.win 3).fill (cfg0.grid.coords t) d (blkOf m c 3 t) := by
  rw [(dats m 0 c).before_fetched 3 t (fetch0_3 t) d]
  unfold Dat.fetched; rw [blockOf_eq]
/-- Window 4 is fetched at every point: its buffer holds the block on the part inside the array. -/
theorem before4 (c : Dev nD) (t : Fin cfg0.N) (d) : (dats m 0 c).before 4 t d = (cfg0.win 4).fill (cfg0.grid.coords t) d (blkOf m c 4 t) := by
  rw [(dats m 0 c).before_fetched 4 t (fetch0_4 t) d]
  unfold Dat.fetched; rw [blockOf_eq]
/-- Window 5 is fetched at every point: its buffer holds the block on the part inside the array. -/
theorem before5 (c : Dev nD) (t : Fin cfg0.N) (d) : (dats m 0 c).before 5 t d = (cfg0.win 5).fill (cfg0.grid.coords t) d (blkOf m c 5 t) := by
  rw [(dats m 0 c).before_fetched 5 t (fetch0_5 t) d]
  unfold Dat.fetched; rw [blockOf_eq]
/-- Window 6 is fetched at every point: its buffer holds the block on the part inside the array. -/
theorem before6 (c : Dev nD) (t : Fin cfg0.N) (d) : (dats m 0 c).before 6 t d = (cfg0.win 6).fill (cfg0.grid.coords t) d (blkOf m c 6 t) := by
  rw [(dats m 0 c).before_fetched 6 t (fetch0_6 t) d]
  unfold Dat.fetched; rw [blockOf_eq]
/-- Window 7 is fetched at every point: its buffer holds the block on the part inside the array. -/
theorem before7 (c : Dev nD) (t : Fin cfg0.N) (d) : (dats m 0 c).before 7 t d = (cfg0.win 7).fill (cfg0.grid.coords t) d (blkOf m c 7 t) := by
  rw [(dats m 0 c).before_fetched 7 t (fetch0_7 t) d]
  unfold Dat.fetched; rw [blockOf_eq]
/-- Window 8 is fetched at every point: its buffer holds the block on the part inside the array. -/
theorem before8 (c : Dev nD) (t : Fin cfg0.N) (d) : (dats m 0 c).before 8 t d = (cfg0.win 8).fill (cfg0.grid.coords t) d (blkOf m c 8 t) := by
  rw [(dats m 0 c).before_fetched 8 t (fetch0_8 t) d]
  unfold Dat.fetched; rw [blockOf_eq]

/-! ## Where a block lies inside its array the filler does not matter -/

theorem fill_of_unclipped (w : Fin cfg0.W) (t : Fin cfg0.N) (h : (cfg0.win w).clipped (cfg0.grid.coords t) = false)
    {α : Type} (d d' : (cfg0.win w).block.Idx → α) (g : ((cfg0.win w).xblock (cfg0.grid.coords t)).Idx → α) :
    (cfg0.win w).fill (cfg0.grid.coords t) d g = (cfg0.win w).fill (cfg0.grid.coords t) d' g := by
  funext j
  have hm : (cfg0.win w).moved (cfg0.grid.coords t) j = true :=
    ((cfg0.win w).moved_iff _ j).mpr fun a => by
      have := (j a).isLt; unfold Window.xsize; rw [((cfg0.win w).clipped_eq_false_iff _).mp h a]; exact this
  unfold Window.fill; rw [dif_pos hm, dif_pos hm]

/-- x's one block and every block of the first stream (indices up to 96) lie inside their arrays at every point; -/
theorem unclipped_always : ∀ (w : Fin 10), (w.val = 0 ∨ w.val = 1 ∨ w.val = 5) → ∀ t : Fin cfg0.N, (cfg0.win w).clipped (cfg0.grid.coords t) = false := by
  decide +kernel
/-- the other streams' blocks (indices up to 95) before the last point. -/
theorem unclipped_before_last : ∀ (w : Fin 10), w.val < 9 → ∀ t : Fin cfg0.N, t.val < 24 → (cfg0.win w).clipped (cfg0.grid.coords t) = false := by
  decide +kernel

theorem fill_eq_ibk (c : Dev nD) (w : Fin cfg0.W) (t : Fin cfg0.N) (h : (cfg0.win w).clipped (cfg0.grid.coords t) = false) (d) :
    (cfg0.win w).fill (cfg0.grid.coords t) d (blkOf m c w t) = ibk m c w t :=
  fill_of_unclipped w t h _ _ _

end Cert.KernelIdeal.Hand

end
-- ==== Proof.KIBody.lean ====
/-
  The body obligation: at every grid point the kernel body, run on the windows' buffers as the pipeline hands them
  over and on the running total's buffer as the point before left it, hands the input windows back as it found them,
  leaves the running total at the next value (at the last point: the loss window at the loss), and owes nothing.
-/
import proofs.«138405_g52578989637756_cont_9to1c4b_755_4_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An input window handed back as found is what the loop expects -/

/-- x's block lies inside its array, so its buffer as found is the block. -/
theorem leaves_in0 (c : Dev nD) (t : Fin cfg0.N) (d) :
    owns (c : Thread nD τ) (ms0 t) fullShare ((cfg0.win 0).fill (cfg0.grid.coords t) d (blkOf m c 0 t)) ⊢ (dats m 0 c).leaves 0 t := by
  refine (Entails.of_eq ?_).trans ((dats m 0 c).leaves_intro 0 t)
  rw [show (dats m 0 c).leavesExact 0 t = owns (c : Thread nD τ) (ms0 t) fullShare ((dats m 0 c).after 0 t) from by
    unfold Dat.leavesExact; rw [live_in 0 (by decide) t], after0, fill_eq_ibk m c 0 t (unclipped_always 0 (by decide) t) d]

/-- Window 1's buffer as found agrees with its block on the part inside the array, which is all the loop asks. -/
theorem leaves_in1 (c : Dev nD) (t : Fin cfg0.N) (d) :
    owns (c : Thread nD τ) (ms1 t) fullShare ((cfg0.win 1).fill (cfg0.grid.coords t) d (blkOf m c 1 t)) ⊢ (dats m 0 c).leaves 1 t := by
  unfold Dat.leaves; rw [live_in 1 (by decide) t]
  show _ ⊢ iprop(∃ d', owns (c : Thread nD τ) (ms1 t) fullShare ((cfg0.win 1).fill (cfg0.grid.coords t) d' ((cfg0.win 1).cut (cfg0.grid.coords t) ((dats m 0 c).after 1 t))))
  rw [after1]; unfold ibk; rw [Window.cut_fill]
  iintro H; iexists d; iexact H
/-- Window 2's buffer as found agrees with its block on the part inside the array, which is all the loop asks. -/
theorem leaves_in2 (c : Dev nD) (t : Fin cfg0.N) (d) :
    owns (c : Thread nD τ) (ms2 t) fullShare ((cfg0.win 2).fill (cfg0.grid.coords t) d (blkOf m c 2 t)) ⊢ (dats m 0 c).leaves 2 t := by
  unfold Dat.leaves; rw [live_in 2 (by decide) t]
  show _ ⊢ iprop(∃ d', owns (c : Thread nD τ) (ms2 t) fullShare ((cfg0.win 2).fill (cfg0.grid.coords t) d' ((cfg0.win 2).cut (cfg0.grid.coords t) ((dats m 0 c).after 2 t))))
  rw [after2]; unfold ibk; rw [Window.cut_fill]
  iintro H; iexists d; iexact H
/-- Window 3's buffer as found agrees with its block on the part inside the array, which is all the loop asks. -/
theorem leaves_in3 (c : Dev nD) (t : Fin cfg0.N) (d) :
    owns (c : Thread nD τ) (ms3 t) fullShare ((cfg0.win 3).fill (cfg0.grid.coords t) d (blkOf m c 3 t)) ⊢ (dats m 0 c).leaves 3 t := by
  unfold Dat.leaves; rw [live_in 3 (by decide) t]
  show _ ⊢ iprop(∃ d', owns (c : Thread nD τ) (ms3 t) fullShare ((cfg0.win 3).fill (cfg0.grid.coords t) d' ((cfg0.win 3).cut (cfg0.grid.coords t) ((dats m 0 c).after 3 t))))
  rw [after3]; unfold ibk; rw [Window.cut_fill]
  iintro H; iexists d; iexact H
/-- Window 4's buffer as found agrees with its block on the part inside the array, which is all the loop asks. -/
theorem leaves_in4 (c : Dev nD) (t : Fin cfg0.N) (d) :
    owns (c : Thread nD τ) (ms4 t) fullShare ((cfg0.win 4).fill (cfg0.grid.coords t) d (blkOf m c 4 t)) ⊢ (dats m 0 c).leaves 4 t := by
  unfold Dat.leaves; rw [live_in 4 (by decide) t]
  show _ ⊢ iprop(∃ d', owns (c : Thread nD τ) (ms4 t) fullShare ((cfg0.win 4).fill (cfg0.grid.coords t) d' ((cfg0.win 4).cut (cfg0.grid.coords t) ((dats m 0 c).after 4 t))))
  rw [after4]; unfold ibk; rw [Window.cut_fill]
  iintro H; iexists d; iexact H
/-- Window 5's buffer as found agrees with its block on the part inside the array, which is all the loop asks. -/
theorem leaves_in5 (c : Dev nD) (t : Fin cfg0.N) (d) :
    owns (c : Thread nD τ) (ms5 t) fullShare ((cfg0.win 5).fill (cfg0.grid.coords t) d (blkOf m c 5 t)) ⊢ (dats m 0 c).leaves 5 t := by
  unfold Dat.leaves; rw [live_in 5 (by decide) t]
  show _ ⊢ iprop(∃ d', owns (c : Thread nD τ) (ms5 t) fullShare ((cfg0.win 5).fill (cfg0.grid.coords t) d' ((cfg0.win 5).cut (cfg0.grid.coords t) ((dats m 0 c).after 5 t))))
  rw [after5]; unfold ibk; rw [Window.cut_fill]
  iintro H; iexists d; iexact H
/-- Window 6's buffer as found agrees with its block on the part inside the array, which is all the loop asks. -/
theorem leaves_in6 (c : Dev nD) (t : Fin cfg0.N) (d) :
    owns (c : Thread nD τ) (ms6 t) fullShare ((cfg0.win 6).fill (cfg0.grid.coords t) d (blkOf m c 6 t)) ⊢ (dats m 0 c).leaves 6 t := by
  unfold Dat.leaves; rw [live_in 6 (by decide) t]
  show _ ⊢ iprop(∃ d', owns (c : Thread nD τ) (ms6 t) fullShare ((cfg0.win 6).fill (cfg0.grid.coords t) d' ((cfg0.win 6).cut (cfg0.grid.coords t) ((dats m 0 c).after 6 t))))
  rw [after6]; unfold ibk; rw [Window.cut_fill]
  iintro H; iexists d; iexact H
/-- Window 7's buffer as found agrees with its block on the part inside the array, which is all the loop asks. -/
theorem leaves_in7 (c : Dev nD) (t : Fin cfg0.N) (d) :
    owns (c : Thread nD τ) (ms7 t) fullShare ((cfg0.win 7).fill (cfg0.grid.coords t) d (blkOf m c 7 t)) ⊢ (dats m 0 c).leaves 7 t := by
  unfold Dat.leaves; rw [live_in 7 (by decide) t]
  show _ ⊢ iprop(∃ d', owns (c : Thread nD τ) (ms7 t) fullShare ((cfg0.win 7).fill (cfg0.grid.coords t) d' ((cfg0.win 7).cut (cfg0.grid.coords t) ((dats m 0 c).after 7 t))))
  rw [after7]; unfold ibk; rw [Window.cut_fill]
  iintro H; iexists d; iexact H
/-- Window 8's buffer as found agrees with its block on the part inside the array, which is all the loop asks. -/
theorem leaves_in8 (c : Dev nD) (t : Fin cfg0.N) (d) :
    owns (c : Thread nD τ) (ms8 t) fullShare ((cfg0.win 8).fill (cfg0.grid.coords t) d (blkOf m c 8 t)) ⊢ (dats m 0 c).leaves 8 t := by
  unfold Dat.leaves; rw [live_in 8 (by decide) t]
  show _ ⊢ iprop(∃ d', owns (c : Thread nD τ) (ms8 t) fullShare ((cfg0.win 8).fill (cfg0.grid.coords t) d' ((cfg0.win 8).cut (cfg0.grid.coords t) ((dats m 0 c).after 8 t))))
  rw [after8]; unfold ibk; rw [Window.cut_fill]
  iintro H; iexists d; iexact H

/-! ## The last point reads only the leading 672 classes of the second stream's blocks -/

theorem xsize_2 : ∀ t : Fin cfg0.N, (cfg0.win 2).xsize (cfg0.grid.coords t) 0 = 1024 ∧ 672 ≤ (cfg0.win 2).xsize (cfg0.grid.coords t) 1 := by decide +kernel
theorem xsize_6 : ∀ t : Fin cfg0.N, 672 ≤ (cfg0.win 6).xsize (cfg0.grid.coords t) 0 ∧ (cfg0.win 6).xsize (cfg0.grid.coords t) 1 = 64 := by decide +kernel

theorem ld_fill2 (c : Dev nD) (t : Fin cfg0.N) (d) :
    View.ld (S := S1024x1024) (e' := .f32) ((cfg0.win 2).fill (cfg0.grid.coords t) d (blkOf m c 2 t)) (Rect.unit (s := S1024x1024) ![0, 0] S1024x672.size inb_S1024x1024_S1024x672_0_0) = View.ld (S := S1024x1024) (e' := .f32) (ibk m c 2 t) (Rect.unit (s := S1024x1024) ![0, 0] S1024x672.size inb_S1024x1024_S1024x672_0_0) := by
  funext x
  have hm : (cfg0.win 2).moved (cfg0.grid.coords t) ((Rect.unit (s := S1024x1024) ![0, 0] S1024x672.size inb_S1024x1024_S1024x672_0_0).emb x) = true :=
    ((cfg0.win 2).moved_iff _ _).mpr fun a => by
      have h0 : (x 0).val < 1024 := (x 0).isLt
      have h1 : (x 1).val < 672 := (x 1).isLt
      have hx := xsize_2 t
      match a with
      | ⟨0, _⟩ => rw [Rect.emb_apply]; show 0 + 1 * (x 0).val < (cfg0.win 2).xsize (cfg0.grid.coords t) 0; omega
      | ⟨1, _⟩ => rw [Rect.emb_apply]; show 0 + 1 * (x 1).val < (cfg0.win 2).xsize (cfg0.grid.coords t) 1; omega
  show (cfg0.win 2).fill _ d _ ((Rect.unit (s := S1024x1024) ![0, 0] S1024x672.size inb_S1024x1024_S1024x672_0_0).emb x) = ibk m c 2 t ((Rect.unit (s := S1024x1024) ![0, 0] S1024x672.size inb_S1024x1024_S1024x672_0_0).emb x)
  unfold ibk Window.fill; rw [dif_pos hm, dif_pos hm]

theorem ld_fill6 (c : Dev nD) (t : Fin cfg0.N) (d) :
    View.ld (S := S1024x64) (e' := .f32) ((cfg0.win 6).fill (cfg0.grid.coords t) d (blkOf m c 6 t)) (Rect.unit (s := S1024x64) ![0, 0] S672x64.size inb_S1024x64_S672x64_0_0) = View.ld (S := S1024x64) (e' := .f32) (ibk m c 6 t) (Rect.unit (s := S1024x64) ![0, 0] S672x64.size inb_S1024x64_S672x64_0_0) := by
  funext x
  have hm : (cfg0.win 6).moved (cfg0.grid.coords t) ((Rect.unit (s := S1024x64) ![0, 0] S672x64.size inb_S1024x64_S672x64_0_0).emb x) = true :=
    ((cfg0.win 6).moved_iff _ _).mpr fun a => by
      have h0 : (x 0).val < 672 := (x 0).isLt
      have h1 : (x 1).val < 64 := (x 1).isLt
      have hx := xsize_6 t
      match a with
      | ⟨0, _⟩ => rw [Rect.emb_apply]; show 0 + 1 * (x 0).val < (cfg0.win 6).xsize (cfg0.grid.coords t) 0; omega
      | ⟨1, _⟩ => rw [Rect.emb_apply]; show 0 + 1 * (x 1).val < (cfg0.win 6).xsize (cfg0.grid.coords t) 1; omega
  show (cfg0.win 6).fill _ d _ ((Rect.unit (s := S1024x64) ![0, 0] S672x64.size inb_S1024x64_S672x64_0_0).emb x) = ibk m c 6 t ((Rect.unit (s := S1024x64) ![0, 0] S672x64.size inb_S1024x64_S672x64_0_0).emb x)
  unfold ibk Window.fill; rw [dif_pos hm, dif_pos hm]

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0 m c t, before1 m c t, before2 m c t, before3 m c t, before4 m c t, before5 m c t, before6 m c t, before7 m c t, before8 m c t]
  rw [show (dats m 0 c).owesAt () t.succ = (dats m 0 c).owesAt () t.castSucc from rfl]
  rw [show (dats m 0 c).Φ t.succ = PhiS m c (t.val + 1) t.isLt from rfl, PhiS_succ]
  have hN : t.val < 25 := lt_of_lt_of_eq t.isLt (show cfg0.N = 25 from N_0)
  by_cases h0 : t.val = 0
  · -- the first point
    have h1 : t.val < 24 := by omega
    have h2 : t.val ≠ 24 := by omega
    rw [Dat.leaves_idle (dats m 0 c) 9 t (idle_out t h2) (noFlush_out t h2)]
    rw [accAt_first m c t h0]
    rw [PhiS_castSucc m c t, PhiS_zero m c _ _ h0, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) _ _ _ _ _ _ _ _ _ _ _ _ _ _ _ _ _ _ _ _ _ _ ((hcond0 t).mpr h0) ((hcond1 t).mpr h1) (fun h => h2 ((hcond2 t).mp h)) ((cfg0.win 1).fill (cfg0.grid.coords t) d1 (blkOf m c 1 t)) ((cfg0.win 2).fill (cfg0.grid.coords t) d2 (blkOf m c 2 t)) ((cfg0.win 3).fill (cfg0.grid.coords t) d3 (blkOf m c 3 t)) ((cfg0.win 4).fill (cfg0.grid.coords t) d4 (blkOf m c 4 t)) ((cfg0.win 5).fill (cfg0.grid.coords t) d5 (blkOf m c 5 t)) ((cfg0.win 6).fill (cfg0.grid.coords t) d6 (blkOf m c 6 t)) ((cfg0.win 7).fill (cfg0.grid.coords t) d7 (blkOf m c 7 t)) ((cfg0.win 8).fill (cfg0.grid.coords t) d8 (blkOf m c 8 t))).2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, ⟨%es, HS⟩⟩
    isplitl [HS Hg]
    · isplitl [HS]
      · unfold owns; iexists _; isplitr
        swap; · iexact HS
        ipureintro
        refine (View.read_writes_of_cover _ _ _ _ _ (scoverA c _ _ _ _ _ _ _ _ _ _ _ _ _ _ _ _ _ _ _ _ _ _ _ _ _ _ _ _ _ _ _ _ _ _)).trans ((soutA_eq c _ _ _ _ _ _ _ _ _ _ _ _ _ _ _ _ _ _ _ _ _ _ _ _ _ _ _ _ _ _ _ _ _ _).trans ?_)
        rw [fill_eq_ibk m c 1 t (unclipped_before_last 1 (by decide) t h1) d1, fill_eq_ibk m c 5 t (unclipped_before_last 5 (by decide) t h1) d5, fill_eq_ibk m c 2 t (unclipped_before_last 2 (by decide) t h1) d2, fill_eq_ibk m c 6 t (unclipped_before_last 6 (by decide) t h1) d6, fill_eq_ibk m c 3 t (unclipped_before_last 3 (by decide) t h1) d3, fill_eq_ibk m c 7 t (unclipped_before_last 7 (by decide) t h1) d7, fill_eq_ibk m c 4 t (unclipped_before_last 4 (by decide) t h1) d4, fill_eq_ibk m c 8 t (unclipped_before_last 8 (by decide) t h1) d8]
      iexact Hg
    isplitl [Ho]; · iexact Ho
    isplitl [H0]; · iapply (leaves_in0 m c t d0); iexact H0
    isplitl [H1]; · iapply (leaves_in1 m c t d1); iexact H1
    isplitl [H2]; · iapply (leaves_in2 m c t d2); iexact H2
    isplitl [H3]; · iapply (leaves_in3 m c t d3); iexact H3
    isplitl [H4]; · iapply (leaves_in4 m c t d4); iexact H4
    isplitl [H5]; · iapply (leaves_in5 m c t d5); iexact H5
    isplitl [H6]; · iapply (leaves_in6 m c t d6); iexact H6
    isplitl [H7]; · iapply (leaves_in7 m c t d7); iexact H7
    isplitl [H8]; · iapply (leaves_in8 m c t d8); iexact H8
    iexists _; iexact H9
  · by_cases h1 : t.val < 24
    · -- a point that is neither the first nor the last
      have h2 : t.val ≠ 24 := by omega
      rw [Dat.leaves_idle (dats m 0 c) 9 t (idle_out t h2) (noFlush_out t h2)]
      rw [accAt_step m c t h0 h1]
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB c (grid0.coords t) _ _ _ _ _ _ _ _ _ _ _ _ _ _ _ _ _ _ _ _ _ _ (fun h => h0 ((hcond0 t).mp h)) ((hcond1 t).mpr h1) (fun h => h2 ((hcond2 t).mp h)) ((cfg0.win 1).fill (cfg0.grid.coords t) d1 (blkOf m c 1 t)) ((cfg0.win 2).fill (cfg0.grid.coords t) d2 (blkOf m c 2 t)) ((cfg0.win 3).fill (cfg0.grid.coords t) d3 (blkOf m c 3 t)) ((cfg0.win 4).fill (cfg0.grid.coords t) d4 (blkOf m c 4 t)) ((cfg0.win 5).fill (cfg0.grid.coords t) d5 (blkOf m c 5 t)) ((cfg0.win 6).fill (cfg0.grid.coords t) d6 (blkOf m c 6 t)) ((cfg0.win 7).fill (cfg0.grid.coords t) d7 (blkOf m c 7 t)) ((cfg0.win 8).fill (cfg0.grid.coords t) d8 (blkOf m c 8 t)) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, ⟨%es, HS⟩⟩
      isplitl [HS Hg]
      · isplitl [HS]
        · unfold owns; iexists _; isplitr
          swap; · iexact HS
          ipureintro
          refine (View.read_writes_of_cover _ _ _ _ _ (scoverB c _ _ _ _ _ _ _ _ _ _ _ _ _ _ _ _ _ _ _ _ _ _ _ _ _ _ _ _ _ _ _ _ _ _ _)).trans ((soutB_eq c _ _ _ _ _ _ _ _ _ _ _ _ _ _ _ _ _ _ _ _ _ _ _ _ _ _ _ _ _ _ _ _ _ _ _).trans ?_)
          rw [fill_eq_ibk m c 1 t (unclipped_before_last 1 (by decide) t h1) d1, fill_eq_ibk m c 5 t (unclipped_before_last 5 (by decide) t h1) d5, fill_eq_ibk m c 2 t (unclipped_before_last 2 (by decide) t h1) d2, fill_eq_ibk m c 6 t (unclipped_before_last 6 (by decide) t h1) d6, fill_eq_ibk m c 3 t (unclipped_before_last 3 (by decide) t h1) d3, fill_eq_ibk m c 7 t (unclipped_before_last 7 (by decide) t h1) d7, fill_eq_ibk m c 4 t (unclipped_before_last 4 (by decide) t h1) d4, fill_eq_ibk m c 8 t (unclipped_before_last 8 (by decide) t h1) d8]
        iexact Hg
      isplitl [Ho]; · iexact Ho
      isplitl [H0]; · iapply (leaves_in0 m c t d0); iexact H0
      isplitl [H1]; · iapply (leaves_in1 m c t d1); iexact H1
      isplitl [H2]; · iapply (leaves_in2 m c t d2); iexact H2
      isplitl [H3]; · iapply (leaves_in3 m c t d3); iexact H3
      isplitl [H4]; · iapply (leaves_in4 m c t d4); iexact H4
      isplitl [H5]; · iapply (leaves_in5 m c t d5); iexact H5
      isplitl [H6]; · iapply (leaves_in6 m c t d6); iexact H6
      isplitl [H7]; · iapply (leaves_in7 m c t d7); iexact H7
      isplitl [H8]; · iapply (leaves_in8 m c t d8); iexact H8
      iexists _; iexact H9
    · -- the last point
      have h2 : t.val = 24 := by omega
      rw [accAt_last m c t h1 h0]
      rw [PhiS_castSucc m c t, PhiS_pos m c _ _ h0]
      rw [show (dats m 0 c).leaves 9 t = owns (c : Thread nD τ) (ms9 t) fullShare ((dats m 0 c).after 9 t) from by
        unfold Dat.leaves; rw [live_out t h2], after9]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runC c (grid0.coords t) _ _ _ _ _ _ _ _ _ _ _ _ _ _ _ _ _ _ _ _ _ _ (fun h => h0 ((hcond0 t).mp h)) (fun h => h1 ((hcond1 t).mp h)) ((hcond2 t).mpr h2) ((cfg0.win 0).fill (cfg0.grid.coords t) d0 (blkOf m c 0 t)) ((cfg0.win 1).fill (cfg0.grid.coords t) d1 (blkOf m c 1 t)) ((cfg0.win 2).fill (cfg0.grid.coords t) d2 (blkOf m c 2 t)) ((cfg0.win 5).fill (cfg0.grid.coords t) d5 (blkOf m c 5 t)) ((cfg0.win 6).fill (cfg0.grid.coords t) d6 (blkOf m c 6 t)) _).2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS]; · iexact HS
      iintro ⟨H0, H1, H2, H3, H4, H5, H6, H7, H8, ⟨%e9, H9⟩, HS⟩
      isplitl [HS Hg]
      · isplitl [HS]; · iexact HS
        iexact Hg
      isplitl [Ho]; · iexact Ho
      isplitl [H0]; · iapply (leaves_in0 m c t d0); iexact H0
      isplitl [H1]; · iapply (leaves_in1 m c t d1); iexact H1
      isplitl [H2]; · iapply (leaves_in2 m c t d2); iexact H2
      isplitl [H3]; · iapply (leaves_in3 m c t d3); iexact H3
      isplitl [H4]; · iapply (leaves_in4 m c t d4); iexact H4
      isplitl [H5]; · iapply (leaves_in5 m c t d5); iexact H5
      isplitl [H6]; · iapply (leaves_in6 m c t d6); iexact H6
      isplitl [H7]; · iapply (leaves_in7 m c t d7); iexact H7
      isplitl [H8]; · iapply (leaves_in8 m c t d8); iexact H8
      unfold owns; iexists _; isplitr
      swap; · iexact H9
      ipureintro
      refine (View.read_writes_of_cover _ _ _ _ _ (coverC c _ _ _ _ _ _ _ _ _ _ _ _ _ _ _ _ _ _ _ _ _ _ _ _ _ _ _ _ _ _ _ _)).trans ((outC_eq c _ _ _ _ _ _ _ _ _ _ _ _ _ _ _ _ _ _ _ _ _ _ _ _ _ _ _ _ _ _ _ _).trans ?_)
      unfold outAt
      rw [fill_eq_ibk m c 1 t (unclipped_always 1 (by decide) t) d1, fill_eq_ibk m c 5 t (unclipped_always 5 (by decide) t) d5,
        fill_eq_ibk m c 0 t (unclipped_always 0 (by decide) t) d0, ld_fill2 m c t d2, ld_fill6 m c t d6]
      rfl

/-- The library's body obligation, at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the running total's value is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), PhiA_eq]
  iintro ⟨HS, Hg⟩
  isplitl [HS]
  · iexists _; iexact HS
  iexact Hg

end Cert.KernelIdeal.Hand

end
-- ==== Proof.KILaunch.lean ====
/-
  The launch: the region run from any memory, and the frame.

  Three of the program's four arrays reach the kernel through several windows: x through one, targets through four,
  centers through four; the loss through one, written.  At the region's entry each array's buffer is held whole; the
  targets' and the centers' buffers are split into quarter shares, one per window.  The run then ends with every
  array at what the pipeline library computes from the proof data: the three arguments unchanged, the loss array
  overwritten once, by the last point's write-back.
-/
import proofs.«138405_g52578989637756_cont_9to1c4b_755_4_alg».proof.Proof.KIBody
import proofs.«138405_g52578989637756_cont_9to1c4b_755_4_alg».proof.Proof.LibSharedFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's points-tos of the windows' arrays, each a whole buffer, at the windows' shares. -/
theorem arrays_eq (c : Dev nD) (G : (w : Fin cfg0.W) → Buf (Elt F) ((cfg0.win w).arr.view.loc (c : Thread nD τ))) :
    (dats m 0 c).arrays G
      = bigSep Finset.univ fun w : Fin cfg0.W => (((c : Thread nD τ).loc (Pipeline.arrRef spec0 w)) ↦{(dats m 0 c).share w} G w : sProp 𝕄) := by
  unfold Dat.arrays
  exact bigSep_congr fun w _ => by rw [(arr_whole0 w).set_eq_univ]

/-- The four buffers behind the ten windows' arrays, whole at the region's entry, yield the windows' points-tos:
    x's and the loss's whole, the targets' and the centers' in quarters. -/
theorem hsplit (c : Dev nD) : (Pipeline.arrBufs spec0 c (V m c) : sProp 𝕄) ⊢ (dats m 0 c).arrays ((dats m 0 c).arrAt · 0) := by
  rw [arrays_eq, bigSep_W0]
  unfold Pipeline.arrBufs
  rw [bigSep_eq_bigSepL_of_eq [main_arg0, main_arg1, main_arg2, main_v0] (by decide) (by decide)]
  show iprop((((c : Thread nD τ).loc main_arg0) ↦{fullShare} V m c main_arg0) ∗ (((c : Thread nD τ).loc main_arg1) ↦{fullShare} V m c main_arg1)
      ∗ (((c : Thread nD τ).loc main_arg2) ↦{fullShare} V m c main_arg2) ∗ (((c : Thread nD τ).loc main_v0) ↦{fullShare} V m c main_v0))
    ⊢ iprop((((c : Thread nD τ).loc main_arg0) ↦{fullShare} V m c main_arg0)
      ∗ (((c : Thread nD τ).loc main_arg1) ↦{fullShare.left.left} V m c main_arg1) ∗ (((c : Thread nD τ).loc main_arg1) ↦{fullShare.left.right} V m c main_arg1)
      ∗ (((c : Thread nD τ).loc main_arg1) ↦{fullShare.right.left} V m c main_arg1) ∗ (((c : Thread nD τ).loc main_arg1) ↦{fullShare.right.right} V m c main_arg1)
      ∗ (((c : Thread nD τ).loc main_arg2) ↦{fullShare.left.left} V m c main_arg2) ∗ (((c : Thread nD τ).loc main_arg2) ↦{fullShare.left.right} V m c main_arg2)
      ∗ (((c : Thread nD τ).loc main_arg2) ↦{fullShare.right.left} V m c main_arg2) ∗ (((c : Thread nD τ).loc main_arg2) ↦{fullShare.right.right} V m c main_arg2)
      ∗ (((c : Thread nD τ).loc main_v0) ↦{fullShare} V m c main_v0))
  refine (sep_mono .rfl (sep_mono (Cert.LibSharedFrame.pointsTo_quarters _ _ _) (sep_mono (Cert.LibSharedFrame.pointsTo_quarters _ _ _) .rfl))).trans ?_
  iintro ⟨H0, ⟨H1, H2, H3, H4⟩, ⟨H5, H6, H7, H8⟩, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option backward.isDefEq.respectTransparency.types false in
/-- At the compiled mesh, for any values, from any memory with zero counters: every weakly fair execution of the
    program terminates, and every final state has every array of the pipeline at what the library computes from the
    proof data. -/
theorem run_main : θ_run defs (onTc (τ := τ) (main (F := F))) (s₀ m ρ) (Pipeline.FramePost cfgs (dats m) 0 (V m)) :=
  Cert.LibSharedFrame.θ_run_frame_track_shared cfgs (dats m) (0 : Fin 1) cellOf_inj winFacts₀0 block_pos0 arr_whole0 stage_whole0
    defs₀ Variants.none m ρ main
    (hbody := fun c => body_obligation m c) (howed := fun _ _ => rfl) (V := V m) (hmain := hmain m Variants.none)
    (hsplit := hsplit m) (hin := hin m) (hout := hout m)

/-- The three argument arrays end as they began. -/
theorem kept (c : Dev nD) :
    (dats m 0 c).arrAt 0 cfg0.N = m ((c : Thread nD τ).loc main_arg0)
    ∧ (dats m 0 c).arrAt 1 cfg0.N = m ((c : Thread nD τ).loc main_arg1)
    ∧ (dats m 0 c).arrAt 5 cfg0.N = m ((c : Thread nD τ).loc main_arg2) :=
  ⟨((dats m 0 c).arrAt_in 0 rfl _).trans (A_eq m c 0), ((dats m 0 c).arrAt_in 1 rfl _).trans (A_eq m c 1),
    ((dats m 0 c).arrAt_in 5 rfl _).trans (A_eq m c 5)⟩

/-- The run with the loss array named and the arguments unchanged. -/
theorem run_named : θ_run defs (onTc (τ := τ) (main (F := F))) ⟨m, fun _ => 0, ρ⟩ (fun r => ∀ c : Dev nD,
      r.2.mem ((c.tc : Thread nD τ).loc main_v0) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 9, ((h c).1 0).trans (kept m c).1, ((h c).1 1).trans (kept m c).2.1,
    ((h c).1 5).trans (kept m c).2.2⟩) (run_main m ρ)

/-- THE FRAME: the program runs to the end, faults nowhere, and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.KernelIdeal.Hand

end
-- ==== Proof.Payloads.lean ====
/-
  The three values the center-loss kernel's body stores, each read at one index.

  The body stores: a block of zeros (the running total's start); the running total plus the products of four class
  blocks, (((A₀·B₀ + A₁·B₁) + A₂·B₂) + A₃·B₃), each product a [1024,1024] by [1024,64] contraction taken into a zero
  accumulator; and, at the last step, the row sums of the squared difference between the batch and the completed product,
  whose last two contributions are a whole block and a 672-class block added to a fresh zero.  Over the extended reals a
  contraction into zero is the plain sum over the contraction coordinate of the operands' products, and a sum over one
  axis is the sum over that axis's coordinate, so each stored entry is the expression below: no rounding and no order
  of summation is left in it beyond the bracketing of the additions, which is kept exactly as the body writes it.
-/
import proofs.«138405_g52578989637756_cont_9to1c4b_755_4_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx

/-- The left operand's index of a [1024, 1024] by [1024, 64] contraction keeps the result's row … -/
theorem lhs1024_0 (i : S1024x64.Idx) (r : dot_S1024x1024_S1024x64_S1024x64_1_0_0_1_n_n.contr.Idx) :
    (dot_S1024x1024_S1024x64_S1024x64_1_0_0_1_n_n.lhsIdx i r 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
/-- … and takes the contraction coordinate as its column; -/
theorem lhs1024_1 (i : S1024x64.Idx) (r : dot_S1024x1024_S1024x64_S1024x64_1_0_0_1_n_n.contr.Idx) :
    (dot_S1024x1024_S1024x64_S1024x64_1_0_0_1_n_n.lhsIdx i r 1).val = (r ⟨0, by decide⟩).val :=
  dot_S1024x1024_S1024x64_S1024x64_1_0_0_1_n_n.lhsIdx_val_of_single rfl i r
/-- the right operand's index takes the contraction coordinate as its row … -/
theorem rhs1024_0 (i : S1024x64.Idx) (r : dot_S1024x1024_S1024x64_S1024x64_1_0_0_1_n_n.contr.Idx) :
    (dot_S1024x1024_S1024x64_S1024x64_1_0_0_1_n_n.rhsIdx i r 0).val = (r ⟨0, by decide⟩).val :=
  dot_S1024x1024_S1024x64_S1024x64_1_0_0_1_n_n.rhsIdx_val_of_single rfl i r
/-- … and keeps the result's column. -/
theorem rhs1024_1 (i : S1024x64.Idx) (r : dot_S1024x1024_S1024x64_S1024x64_1_0_0_1_n_n.contr.Idx) :
    (dot_S1024x1024_S1024x64_S1024x64_1_0_0_1_n_n.rhsIdx i r 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- Entry (p, q) of a [1024, 1024] by [1024, 64] contraction taken into zero: the sum over the 1024 contraction
    coordinates k of left (p, k) times right (k, q). -/
theorem matmul1024_apply (a : FVec Ideal S1024x1024 .f32) (b : FVec Ideal S1024x64 .f32) (p : Fin 1024) (q : Fin 64) :
    matmul (F := Ideal) dot_S1024x1024_S1024x64_S1024x64_1_0_0_1_n_n none a b (constant (F := Ideal) S1024x64 .f32 0x00000000#32) (ix2 p q)
      = ∑ k : Fin 1024, a (ix2 p k) * b (ix2 k q) := by
  refine (Ideal.matmul_constant_zero_apply dot_S1024x1024_S1024x64_S1024x64_1_0_0_1_n_n none a b (ix2 p q)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 p q) ((contrEquiv1 dot_S1024x1024_S1024x64_S1024x64_1_0_0_1_n_n 1024 rfl rfl).symm k) = ix2 p k :=
    funext fun c => Fin.ext (by
      match c with
      | ⟨0, _⟩ => exact lhs1024_0 _ _
      | ⟨1, _⟩ => exact (lhs1024_1 _ _).trans hk)
  have er : dot_S1024x1024_S1024x64_S1024x64_1_0_0_1_n_n.rhsIdx (ix2 p q) ((contrEquiv1 dot_S1024x1024_S1024x64_S1024x64_1_0_0_1_n_n 1024 rfl rfl).symm k) = ix2 k q :=
    funext fun c => Fin.ext (by
      match c with
      | ⟨0, _⟩ => exact (rhs1024_0 _ _).trans hk
      | ⟨1, _⟩ => exact rhs1024_1 _ _)
  rw [el, er]

/-- The left operand's index of a [1024, 672] by [672, 64] contraction keeps the result's row … -/
theorem lhs672_0 (i : S1024x64.Idx) (r : dot_S1024x672_S672x64_S1024x64_1_0_0_1_n_n.contr.Idx) :
    (dot_S1024x672_S672x64_S1024x64_1_0_0_1_n_n.lhsIdx i r 0).val = (i 0).val := by
  unfold DotDims.lhsIdx
  rw [dif_neg (show ¬(0 : Fin S1024x672.rank) ∈ dot_S1024x672_S672x64_S1024x64_1_0_0_1_n_n.lhsBatch by decide),
    dif_pos (show (0 : Fin S1024x672.rank) ∈ dot_S1024x672_S672x64_S1024x64_1_0_0_1_n_n.lhsNonContracting by decide)]
  rfl
/-- … and takes the contraction coordinate as its column; -/
theorem lhs672_1 (i : S1024x64.Idx) (r : dot_S1024x672_S672x64_S1024x64_1_0_0_1_n_n.contr.Idx) :
    (dot_S1024x672_S672x64_S1024x64_1_0_0_1_n_n.lhsIdx i r 1).val = (r ⟨0, by decide⟩).val :=
  dot_S1024x672_S672x64_S1024x64_1_0_0_1_n_n.lhsIdx_val_of_single rfl i r
/-- the right operand's index takes the contraction coordinate as its row … -/
theorem rhs672_0 (i : S1024x64.Idx) (r : dot_S1024x672_S672x64_S1024x64_1_0_0_1_n_n.contr.Idx) :
    (dot_S1024x672_S672x64_S1024x64_1_0_0_1_n_n.rhsIdx i r 0).val = (r ⟨0, by decide⟩).val :=
  dot_S1024x672_S672x64_S1024x64_1_0_0_1_n_n.rhsIdx_val_of_single rfl i r
/-- … and keeps the result's column. -/
theorem rhs672_1 (i : S1024x64.Idx) (r : dot_S1024x672_S672x64_S1024x64_1_0_0_1_n_n.contr.Idx) :
    (dot_S1024x672_S672x64_S1024x64_1_0_0_1_n_n.rhsIdx i r 1).val = (i 1).val := by
  unfold DotDims.rhsIdx
  rw [dif_neg (show ¬(1 : Fin S672x64.rank) ∈ dot_S1024x672_S672x64_S1024x64_1_0_0_1_n_n.rhsBatch by decide),
    dif_pos (show (1 : Fin S672x64.rank) ∈ dot_S1024x672_S672x64_S1024x64_1_0_0_1_n_n.rhsNonContracting by decide)]
  rfl

/-- Entry (p, q) of a [1024, 672] by [672, 64] contraction taken into zero: the sum over the 672 contraction
    coordinates k of left (p, k) times right (k, q). -/
theorem matmul672_apply (a : FVec Ideal S1024x672 .f32) (b : FVec Ideal S672x64 .f32) (p : Fin 1024) (q : Fin 64) :
    matmul (F := Ideal) dot_S1024x672_S672x64_S1024x64_1_0_0_1_n_n none a b (constant (F := Ideal) S1024x64 .f32 0x00000000#32) (ix2 p q)
      = ∑ k : Fin 672, a (ix2 p k) * b (ix2 k q) := by
  refine (Ideal.matmul_constant_zero_apply dot_S1024x672_S672x64_S1024x64_1_0_0_1_n_n none a b (ix2 p q)).trans ?_
  rw [← Equiv.sum_comp (contrEquiv1 dot_S1024x672_S672x64_S1024x64_1_0_0_1_n_n 672 rfl rfl).symm]
  refine Finset.sum_congr rfl fun k _ => ?_
  have hk := contrEquiv1_symm_val dot_S1024x672_S672x64_S1024x64_1_0_0_1_n_n 672 rfl rfl k
  have el : dot_S1024x672_S672x64_S1024x64_1_0_0_1_n_n.lhsIdx (ix2 p q) ((contrEquiv1 dot_S1024x672_S672x64_S1024x64_1_0_0_1_n_n 672 rfl rfl).symm k) = ix2 p k :=
    funext fun c => Fin.ext (by
      match c with
      | ⟨0, _⟩ => exact lhs672_0 _ _
      | ⟨1, _⟩ => exact (lhs672_1 _ _).trans hk)
  have er : dot_S1024x672_S672x64_S1024x64_1_0_0_1_n_n.rhsIdx (ix2 p q) ((contrEquiv1 dot_S1024x672_S672x64_S1024x64_1_0_0_1_n_n 672 rfl rfl).symm k) = ix2 k q :=
    funext fun c => Fin.ext (by
      match c with
      | ⟨0, _⟩ => exact (rhs672_0 _ _).trans hk
      | ⟨1, _⟩ => exact rhs672_1 _ _)
  rw [el, er]

/-- The sum over the 64 lanes of a [1024, 64] block, at row p: the sum over q of the block at (p, q). -/
theorem rowsum_apply (v : FVec Ideal S1024x64 .f32) (p : Fin 1024) :
    multiReduction (F := Ideal) .add [1] S1024 v 0x00000000#32 reduces_S1024x64_S1024 (.inl rfl) rfl (ix1 p)
      = ∑ q : Fin 64, v (ix2 p q) := by
  refine (Ideal.multiReduction_add_single v 0x00000000#32 reduces_S1024x64_S1024 (.inl rfl) rfl (ix1 p)).trans ?_
  show ∑ q : Fin 64, v (reduces_S1024x64_S1024.lift (ix1 p) q) = ∑ q : Fin 64, v (ix2 p q)
  refine Finset.sum_congr rfl fun q _ => ?_
  exact congrArg v (funext fun c => Fin.ext (by match c with | ⟨0, _⟩ => rfl | ⟨1, _⟩ => rfl))

/-- A vector of `a` entries viewed as a column [a, 1] reads, at (i, u), the vector at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The block of zeros the first step stores. -/
theorem pay1_apply (p : Fin 1024) (q : Fin 64) : k0_pay1 (F := Ideal) (ix2 p q) = 0 := by
  unfold k0_pay1
  refine (congrFun (shapeCast_self _ shapeCasts_S1024x64_S1024x64) (ix2 p q)).trans ?_
  exact Ideal.ofBits_zero_f32

/-- The running total's update at (p, q): the total there plus the four class blocks' products, bracketed from the left. -/
theorem pay2_apply (v9 v12 v16 v20 : Vec Ideal S1024x1024 .f32) (v10 v13 v17 v21 v24 : Vec Ideal S1024x64 .f32)
    (p : Fin 1024) (q : Fin 64) :
    k0_pay2 (F := Ideal) v9 v10 v12 v13 v16 v17 v20 v21 v24 (ix2 p q)
      = v24 (ix2 p q) + ((((∑ k : Fin 1024, v9 (ix2 p k) * v10 (ix2 k q)) + (∑ k : Fin 1024, v12 (ix2 p k) * v13 (ix2 k q)))
          + (∑ k : Fin 1024, v16 (ix2 p k) * v17 (ix2 k q))) + (∑ k : Fin 1024, v20 (ix2 p k) * v21 (ix2 k q))) := by
  unfold k0_pay2
  refine (congrFun (shapeCast_self _ shapeCasts_S1024x64_S1024x64) (ix2 p q)).trans ?_
  show v24 (ix2 p q) + (((matmul (F := Ideal) dot_S1024x1024_S1024x64_S1024x64_1_0_0_1_n_n none v9 v10 (constant (F := Ideal) S1024x64 .f32 0x00000000#32) (ix2 p q)
      + matmul (F := Ideal) dot_S1024x1024_S1024x64_S1024x64_1_0_0_1_n_n none v12 v13 (constant (F := Ideal) S1024x64 .f32 0x00000000#32) (ix2 p q))
      + matmul (F := Ideal) dot_S1024x1024_S1024x64_S1024x64_1_0_0_1_n_n none v16 v17 (constant (F := Ideal) S1024x64 .f32 0x00000000#32) (ix2 p q))
      + matmul (F := Ideal) dot_S1024x1024_S1024x64_S1024x64_1_0_0_1_n_n none v20 v21 (constant (F := Ideal) S1024x64 .f32 0x00000000#32) (ix2 p q)) = _
  rw [matmul1024_apply v9 v10 p q, matmul1024_apply v12 v13 p q, matmul1024_apply v16 v17 p q, matmul1024_apply v20 v21 p q]

/-- The last step's column at row p: the sum over the 64 lanes q of the squared difference between the batch at (p, q) and
    the completed product there — the running total plus a whole block's and a 672-class block's products added to a
    fresh zero. -/
theorem pay3_apply (v10 : Vec Ideal S1024x1024 .f32) (v11 : Vec Ideal S1024x64 .f32) (v14 : Vec Ideal S1024x672 .f32)
    (v15 : Vec Ideal S672x64 .f32) (v18 v19 : Vec Ideal S1024x64 .f32) (p : Fin 1024) (o : Fin 1) :
    k0_pay3 (F := Ideal) v10 v11 v14 v15 v18 v19 (ix2 p o)
      = ∑ q : Fin 64,
          (v18 (ix2 p q) - (v19 (ix2 p q) + ((0 + ∑ k : Fin 1024, v10 (ix2 p k) * v11 (ix2 k q)) + ∑ k : Fin 672, v14 (ix2 p k) * v15 (ix2 k q))))
            * (v18 (ix2 p q) - (v19 (ix2 p q) + ((0 + ∑ k : Fin 1024, v10 (ix2 p k) * v11 (ix2 k q)) + ∑ k : Fin 672, v14 (ix2 p k) * v15 (ix2 k q)))) := by
  unfold k0_pay3
  refine (shapeCast_a_a1_apply _ shapeCasts_S1024_S1024x1 p o).trans ?_
  refine (rowsum_apply _ p).trans ?_
  refine Finset.sum_congr rfl fun q _ => ?_
  show (v18 (ix2 p q) - (v19 (ix2 p q) + ((Ideal.ofBits .f32 0x00000000#32
        + matmul (F := Ideal) dot_S1024x1024_S1024x64_S1024x64_1_0_0_1_n_n none v10 v11 (constant (F := Ideal) S1024x64 .f32 0x00000000#32) (ix2 p q))
        + matmul (F := Ideal) dot_S1024x672_S672x64_S1024x64_1_0_0_1_n_n none v14 v15 (constant (F := Ideal) S1024x64 .f32 0x00000000#32) (ix2 p q))))
      * (v18 (ix2 p q) - (v19 (ix2 p q) + ((Ideal.ofBits .f32 0x00000000#32
        + matmul (F := Ideal) dot_S1024x1024_S1024x64_S1024x64_1_0_0_1_n_n none v10 v11 (constant (F := Ideal) S1024x64 .f32 0x00000000#32) (ix2 p q))
        + matmul (F := Ideal) dot_S1024x672_S672x64_S1024x64_1_0_0_1_n_n none v14 v15 (constant (F := Ideal) S1024x64 .f32 0x00000000#32) (ix2 p q)))) = _
  rw [matmul1024_apply v10 v11 p q, matmul672_apply v14 v15 p q, Ideal.ofBits_zero_f32]

end Cert.KernelIdeal.Pay

end
-- ==== Proof.Spec.lean ====
/-
  The specification of the center-loss layer, over the extended reals, stated once for both programs.

  For a batch x : [1024, 64], one-hot-like weights targets : [1024, 100000] and centers : [100000, 64] the layer returns
  loss[i] = Σ_j (x[i, j] − (targets · centers)[i, j])², a column [1024, 1].  The matrix product's entry (i, j) is a sum of
  100000 terms.  The reference takes that sum in one contraction; the kernel takes it class block by class block:
  98 blocks of 1024 consecutive classes (the last one holding only 672), four blocks to a grid step for the first 24
  steps — summed pairwise from the left and added to a running total that starts at zero — and at the 25th step block 96
  and the 672 classes of block 97, added to a fresh zero and then to the running total.  Addition of extended reals is
  commutative and associative, so the two arrangements are one number whatever the inputs hold: no finiteness is used.
-/
import Idealize.ShloMosaic.PureOps.Ideal
import Idealize.ShloMosaic.Lib.ValueIdx

noncomputable section

open scoped BigOperators
open Idealize.ShloMosaic Idealize.ShloMosaic.ValueIdx

namespace Cert.CenterLoss

abbrev SX : Shape := ⟨2, ![1024, 64]⟩
abbrev ST : Shape := ⟨2, ![1024, 100000]⟩
abbrev SC : Shape := ⟨2, ![100000, 64]⟩
abbrev SO : Shape := ⟨2, ![1024, 1]⟩

variable (t : ST.Idx → EReal) (c : SC.Idx → EReal)

/-- The term of class `k` in entry (i, j) of targets · centers; zero past the last class. -/
def term (i : Fin 1024) (j : Fin 64) (k : ℕ) : EReal :=
  if h : k < 100000 then t (ix2 i ⟨k, h⟩) * c (ix2 ⟨k, h⟩ j) else 0

/-- Entry (i, j) of targets · centers: the sum over all 100000 classes. -/
def prod (i : Fin 1024) (j : Fin 64) : EReal := ∑ k ∈ Finset.range 100000, term t c i j k

/-- The part of entry (i, j) contributed by the `w` consecutive classes starting at class `1024 * b`. -/
def blockSum (b w : ℕ) (i : Fin 1024) (j : Fin 64) : EReal :=
  ∑ kk ∈ Finset.range w, term t c i j (1024 * b + kk)

/-- One full grid step: blocks 4s, 4s+1, 4s+2, 4s+3, summed from the left. -/
def stepSum (s : ℕ) (i : Fin 1024) (j : Fin 64) : EReal :=
  ((blockSum t c (4 * s) 1024 i j + blockSum t c (4 * s + 1) 1024 i j) + blockSum t c (4 * s + 2) 1024 i j)
    + blockSum t c (4 * s + 3) 1024 i j

/-- The running total after `n` full steps. -/
def accSum (n : ℕ) (i : Fin 1024) (j : Fin 64) : EReal := ∑ s ∈ Finset.range n, stepSum t c s i j

/-- The last step's own part: block 96 whole and the 672 classes of block 97, added to a fresh zero. -/
def tailSum (i : Fin 1024) (j : Fin 64) : EReal := (0 + blockSum t c 96 1024 i j) + blockSum t c 97 672 i j

/-- Entry (i, j) of the product as the kernel arranges it. -/
def kprod (i : Fin 1024) (j : Fin 64) : EReal := accSum t c 24 i j + tailSum t c i j

variable (x : SX.Idx → EReal)

/-- The layer's result with the product taken in one sum. -/
def G : SO.Idx → EReal := fun o =>
  ∑ j : Fin 64, (x (ix2 (o 0) j) - prod t c (o 0) j) * (x (ix2 (o 0) j) - prod t c (o 0) j)

/-- The layer's result with the product taken block by block. -/
def K : SO.Idx → EReal := fun o =>
  ∑ j : Fin 64, (x (ix2 (o 0) j) - kprod t c (o 0) j) * (x (ix2 (o 0) j) - kprod t c (o 0) j)

end Cert.CenterLoss

end
-- ==== Proof.SpecLaw.lean ====
/-
  The two arrangements of the matrix product are one number.

  Entry (i, j) of targets · centers is a sum of 100000 terms f 0 + f 1 + … .  Splitting the range of a finite sum at a
  point (Σ over range (m + n) = Σ over range m + Σ over the next n) cuts it into 24 runs of 4096 terms, each of those
  into four runs of 1024, and a remainder of 1024 + 672 terms.  Only associativity of addition and 0 + a = a are used,
  so the identity holds over the extended reals for every input.
-/
import proofs.«138405_g52578989637756_cont_9to1c4b_755_4_alg».proof.Proof.Spec

noncomputable section

open scoped BigOperators
open Idealize.ShloMosaic Idealize.ShloMosaic.ValueIdx

namespace Cert.CenterLoss

/-- 4096 more terms of a sum over an initial segment are four runs of 1024, summed from the left. -/
theorem sum_range_step (f : ℕ → EReal) (n : ℕ) :
    ∑ k ∈ Finset.range (4096 * (n + 1)), f k
      = ∑ k ∈ Finset.range (4096 * n), f k
        + (((∑ kk ∈ Finset.range 1024, f (1024 * (4 * n) + kk)
              + ∑ kk ∈ Finset.range 1024, f (1024 * (4 * n + 1) + kk))
            + ∑ kk ∈ Finset.range 1024, f (1024 * (4 * n + 2) + kk))
          + ∑ kk ∈ Finset.range 1024, f (1024 * (4 * n + 3) + kk)) := by
  have e : 4096 * (n + 1) = 4096 * n + 1024 + 1024 + 1024 + 1024 := by omega
  have e0 : ∑ x ∈ Finset.range 1024, f (4096 * n + x)
      = ∑ kk ∈ Finset.range 1024, f (1024 * (4 * n) + kk) :=
    Finset.sum_congr rfl fun x _ => congrArg f (by omega)
  have e1 : ∑ x ∈ Finset.range 1024, f (4096 * n + 1024 + x)
      = ∑ kk ∈ Finset.range 1024, f (1024 * (4 * n + 1) + kk) :=
    Finset.sum_congr rfl fun x _ => congrArg f (by omega)
  have e2 : ∑ x ∈ Finset.range 1024, f (4096 * n + 1024 + 1024 + x)
      = ∑ kk ∈ Finset.range 1024, f (1024 * (4 * n + 2) + kk) :=
    Finset.sum_congr rfl fun x _ => congrArg f (by omega)
  have e3 : ∑ x ∈ Finset.range 1024, f (4096 * n + 1024 + 1024 + 1024 + x)
      = ∑ kk ∈ Finset.range 1024, f (1024 * (4 * n + 3) + kk) :=
    Finset.sum_congr rfl fun x _ => congrArg f (by omega)
  rw [e, Finset.sum_range_add, Finset.sum_range_add, Finset.sum_range_add, Finset.sum_range_add,
    e0, e1, e2, e3]
  simp only [add_assoc]

variable (t : ST.Idx → EReal) (c : SC.Idx → EReal)

/-- The first 4096 n terms of entry (i, j) are the running total after n full steps. -/
theorem sum_range_steps (n : ℕ) (i : Fin 1024) (j : Fin 64) :
    ∑ k ∈ Finset.range (4096 * n), term t c i j k = accSum t c n i j := by
  induction n with
  | zero => simp [accSum]
  | succ n ih =>
    rw [sum_range_step, ih]
    exact (Finset.sum_range_succ (fun s => stepSum t c s i j) n).symm

/-- The product as the kernel arranges it is the product. -/
theorem kprod_eq_prod (i : Fin 1024) (j : Fin 64) : kprod t c i j = prod t c i j := by
  have e : prod t c i j = ∑ k ∈ Finset.range (4096 * 24 + 1024 + 672), term t c i j k := rfl
  have b96 : ∑ x ∈ Finset.range 1024, term t c i j (4096 * 24 + x) = blockSum t c 96 1024 i j :=
    Finset.sum_congr rfl fun x _ => congrArg (term t c i j) (by omega)
  have b97 : ∑ x ∈ Finset.range 672, term t c i j (4096 * 24 + 1024 + x) = blockSum t c 97 672 i j :=
    Finset.sum_congr rfl fun x _ => congrArg (term t c i j) (by omega)
  rw [e, Finset.sum_range_add, Finset.sum_range_add, sum_range_steps, b96, b97]
  unfold kprod tailSum
  rw [zero_add, add_assoc]

/-- Hence the two statements of the layer's result are one function. -/
theorem kprod_eq : kprod t c = prod t c :=
  funext fun i => funext fun j => kprod_eq_prod t c i j

theorem K_eq_G (x : SX.Idx → EReal) : K t c x = G t c x := by
  unfold K G
  rw [kprod_eq]

end Cert.CenterLoss

end
-- ==== Proof.KIValueA.lean ====
/-
  The kernel's value at the extended reals, first half: what the staged blocks hold, and the running total.

  Window 1+g of the pipeline stages block min(4t+g, 97) of targets along the class axis, window 5+g the same block of
  centers.  So at a point t with 4t+g ≤ 96 the product of the two staged blocks, entry (p, q), is the sum over the
  block's 1024 classes of targets[p, ·]·centers[·, q]: the block sum of the specification.  At the last point the
  second stream's blocks are block 97, of which the body takes the 672 classes inside the arrays.  By induction over
  the points the running total after point n < 24 is the sum of the first n+1 grid steps.
-/
import proofs.«138405_g52578989637756_cont_9to1c4b_755_4_alg».proof.Proof.KILaunch
import proofs.«138405_g52578989637756_cont_9to1c4b_755_4_alg».proof.Proof.Payloads
import proofs.«138405_g52578989637756_cont_9to1c4b_755_4_alg».proof.Proof.SpecLaw

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx Cert.CenterLoss
open scoped BigOperators

variable (m : (ℓ : Loc nD τ sig) → Buf (Elt Ideal) ℓ) (ρ : Dev nD → PrngReg)

/-- The three argument arrays on core `c`. -/
abbrev argX (c : Dev nD) : S1024x64.Idx → EReal := m ((c : Thread nD τ).loc main_arg0)
abbrev argT (c : Dev nD) : S1024x100000.Idx → EReal := m ((c : Thread nD τ).loc main_arg1)
abbrev argC (c : Dev nD) : S100000x64.Idx → EReal := m ((c : Thread nD τ).loc main_arg2)

/-- The staged blocks at point `t` as vectors of extended reals: x's, the four streams' target blocks and center blocks. -/
abbrev xb (c : Dev nD) (t : Fin cfg0.N) : Vec Ideal S1024x64 .f32 := ibk m c 0 t
abbrev tb0 (c : Dev nD) (t : Fin cfg0.N) : Vec Ideal S1024x1024 .f32 := ibk m c 1 t
abbrev cb0 (c : Dev nD) (t : Fin cfg0.N) : Vec Ideal S1024x64 .f32 := ibk m c 5 t
abbrev tb1 (c : Dev nD) (t : Fin cfg0.N) : Vec Ideal S1024x1024 .f32 := ibk m c 2 t
abbrev cb1 (c : Dev nD) (t : Fin cfg0.N) : Vec Ideal S1024x64 .f32 := ibk m c 6 t
abbrev tb2 (c : Dev nD) (t : Fin cfg0.N) : Vec Ideal S1024x1024 .f32 := ibk m c 3 t
abbrev cb2 (c : Dev nD) (t : Fin cfg0.N) : Vec Ideal S1024x64 .f32 := ibk m c 7 t
abbrev tb3 (c : Dev nD) (t : Fin cfg0.N) : Vec Ideal S1024x1024 .f32 := ibk m c 4 t
abbrev cb3 (c : Dev nD) (t : Fin cfg0.N) : Vec Ideal S1024x64 .f32 := ibk m c 8 t
/-- The running total after point `n`, as a vector of extended reals. -/
abbrev acc (c : Dev nD) (n : ℕ) (hn : n < cfg0.N) : Vec Ideal S1024x64 .f32 := accAt m c n hn

/-! ## The windows' block indices, decided over the grid -/

theorem idxX : ∀ t : Fin cfg0.N, win0_0.index t 0 = 0 ∧ win0_0.index t 1 = 0 := by decide +kernel
theorem idxO : ∀ t : Fin cfg0.N, win0_9.index t 0 = 0 ∧ win0_9.index t 1 = 0 := by decide +kernel
theorem idxT0 : ∀ t : Fin cfg0.N, win0_1.index t 0 = 0 ∧ win0_1.index t 1 = min (4 * t.val + 0) 97 := by decide +kernel
theorem idxC0 : ∀ t : Fin cfg0.N, win0_5.index t 0 = min (4 * t.val + 0) 97 ∧ win0_5.index t 1 = 0 := by decide +kernel
theorem idxT1 : ∀ t : Fin cfg0.N, win0_2.index t 0 = 0 ∧ win0_2.index t 1 = min (4 * t.val + 1) 97 := by decide +kernel
theorem idxC1 : ∀ t : Fin cfg0.N, win0_6.index t 0 = min (4 * t.val + 1) 97 ∧ win0_6.index t 1 = 0 := by decide +kernel
theorem idxT2 : ∀ t : Fin cfg0.N, win0_3.index t 0 = 0 ∧ win0_3.index t 1 = min (4 * t.val + 2) 97 := by decide +kernel
theorem idxC2 : ∀ t : Fin cfg0.N, win0_7.index t 0 = min (4 * t.val + 2) 97 ∧ win0_7.index t 1 = 0 := by decide +kernel
theorem idxT3 : ∀ t : Fin cfg0.N, win0_4.index t 0 = 0 ∧ win0_4.index t 1 = min (4 * t.val + 3) 97 := by decide +kernel
theorem idxC3 : ∀ t : Fin cfg0.N, win0_8.index t 0 = min (4 * t.val + 3) 97 ∧ win0_8.index t 1 = 0 := by decide +kernel

/-! ## An element of a block is an element of the array -/

theorem blkX_apply (c : Dev nD) (t : Fin cfg0.N) (y : ((cfg0.win 0).xblock (cfg0.grid.coords t)).Idx) (i : S1024x64.Idx)
    (h0 : (i 0).val = (y 0).val) (h1 : (i 1).val = (y 1).val) :
    blkOf m c 0 t y = argX m c i := by
  show V m c main_arg0 (((cfg0.win 0).blk t).view.emb y) = V m c main_arg0 i
  congr 1; funext a; apply Fin.ext
  match a with
  | ⟨0, _⟩ =>
    show win0_0.index t 0 * 1024 + 1 * (y 0).val = (i 0).val
    rw [(idxX t).1]; omega
  | ⟨1, _⟩ =>
    show win0_0.index t 1 * 64 + 1 * (y 1).val = (i 1).val
    rw [(idxX t).2]; omega

theorem blkT0_apply (c : Dev nD) (t : Fin cfg0.N) (y : ((cfg0.win 1).xblock (cfg0.grid.coords t)).Idx) (i : S1024x100000.Idx)
    (h0 : (i 0).val = (y 0).val) (h1 : (i 1).val = 1024 * min (4 * t.val + 0) 97 + (y 1).val) :
    blkOf m c 1 t y = argT m c i := by
  show V m c main_arg1 (((cfg0.win 1).blk t).view.emb y) = V m c main_arg1 i
  congr 1; funext a; apply Fin.ext
  match a with
  | ⟨0, _⟩ =>
    show win0_1.index t 0 * 1024 + 1 * (y 0).val = (i 0).val
    rw [(idxT0 t).1]; omega
  | ⟨1, _⟩ =>
    show win0_1.index t 1 * 1024 + 1 * (y 1).val = (i 1).val
    rw [(idxT0 t).2]; omega

theorem blkC0_apply (c : Dev nD) (t : Fin cfg0.N) (y : ((cfg0.win 5).xblock (cfg0.grid.coords t)).Idx) (i : S100000x64.Idx)
    (h0 : (i 0).val = 1024 * min (4 * t.val + 0) 97 + (y 0).val) (h1 : (i 1).val = (y 1).val) :
    blkOf m c 5 t y = argC m c i := by
  show V m c main_arg2 (((cfg0.win 5).blk t).view.emb y) = V m c main_arg2 i
  congr 1; funext a; apply Fin.ext
  match a with
  | ⟨0, _⟩ =>
    show win0_5.index t 0 * 1024 + 1 * (y 0).val = (i 0).val
    rw [(idxC0 t).1]; omega
  | ⟨1, _⟩ =>
    show win0_5.index t 1 * 64 + 1 * (y 1).val = (i 1).val
    rw [(idxC0 t).2]; omega

theorem blkT1_apply (c : Dev nD) (t : Fin cfg0.N) (y : ((cfg0.win 2).xblock (cfg0.grid.coords t)).Idx) (i : S1024x100000.Idx)
    (h0 : (i 0).val = (y 0).val) (h1 : (i 1).val = 1024 * min (4 * t.val + 1) 97 + (y 1).val) :
    blkOf m c 2 t y = argT m c i := by
  show V m c main_arg1 (((cfg0.win 2).blk t).view.emb y) = V m c main_arg1 i
  congr 1; funext a; apply Fin.ext
  match a with
  | ⟨0, _⟩ =>
    show win0_2.index t 0 * 1024 + 1 * (y 0).val = (i 0).val
    rw [(idxT1 t).1]; omega
  | ⟨1, _⟩ =>
    show win0_2.index t 1 * 1024 + 1 * (y 1).val = (i 1).val
    rw [(idxT1 t).2]; omega

theorem blkC1_apply (c : Dev nD) (t : Fin cfg0.N) (y : ((cfg0.win 6).xblock (cfg0.grid.coords t)).Idx) (i : S100000x64.Idx)
    (h0 : (i 0).val = 1024 * min (4 * t.val + 1) 97 + (y 0).val) (h1 : (i 1).val = (y 1).val) :
    blkOf m c 6 t y = argC m c i := by
  show V m c main_arg2 (((cfg0.win 6).blk t).view.emb y) = V m c main_arg2 i
  congr 1; funext a; apply Fin.ext
  match a with
  | ⟨0, _⟩ =>
    show win0_6.index t 0 * 1024 + 1 * (y 0).val = (i 0).val
    rw [(idxC1 t).1]; omega
  | ⟨1, _⟩ =>
    show win0_6.index t 1 * 64 + 1 * (y 1).val = (i 1).val
    rw [(idxC1 t).2]; omega

theorem blkT2_apply (c : Dev nD) (t : Fin cfg0.N) (y : ((cfg0.win 3).xblock (cfg0.grid.coords t)).Idx) (i : S1024x100000.Idx)
    (h0 : (i 0).val = (y 0).val) (h1 : (i 1).val = 1024 * min (4 * t.val + 2) 97 + (y 1).val) :
    blkOf m c 3 t y = argT m c i := by
  show V m c main_arg1 (((cfg0.win 3).blk t).view.emb y) = V m c main_arg1 i
  congr 1; funext a; apply Fin.ext
  match a with
  | ⟨0, _⟩ =>
    show win0_3.index t 0 * 1024 + 1 * (y 0).val = (i 0).val
    rw [(idxT2 t).1]; omega
  | ⟨1, _⟩ =>
    show win0_3.index t 1 * 1024 + 1 * (y 1).val = (i 1).val
    rw [(idxT2 t).2]; omega

theorem blkC2_apply (c : Dev nD) (t : Fin cfg0.N) (y : ((cfg0.win 7).xblock (cfg0.grid.coords t)).Idx) (i : S100000x64.Idx)
    (h0 : (i 0).val = 1024 * min (4 * t.val + 2) 97 + (y 0).val) (h1 : (i 1).val = (y 1).val) :
    blkOf m c 7 t y = argC m c i := by
  show V m c main_arg2 (((cfg0.win 7).blk t).view.emb y) = V m c main_arg2 i
  congr 1; funext a; apply Fin.ext
  match a with
  | ⟨0, _⟩ =>
    show win0_7.index t 0 * 1024 + 1 * (y 0).val = (i 0).val
    rw [(idxC2 t).1]; omega
  | ⟨1, _⟩ =>
    show win0_7.index t 1 * 64 + 1 * (y 1).val = (i 1).val
    rw [(idxC2 t).2]; omega

theorem blkT3_apply (c : Dev nD) (t : Fin cfg0.N) (y : ((cfg0.win 4).xblock (cfg0.grid.coords t)).Idx) (i : S1024x100000.Idx)
    (h0 : (i 0).val = (y 0).val) (h1 : (i 1).val = 1024 * min (4 * t.val + 3) 97 + (y 1).val) :
    blkOf m c 4 t y = argT m c i := by
  show V m c main_arg1 (((cfg0.win 4).blk t).view.emb y) = V m c main_arg1 i
  congr 1; funext a; apply Fin.ext
  match a with
  | ⟨0, _⟩ =>
    show win0_4.index t 0 * 1024 + 1 * (y 0).val = (i 0).val
    rw [(idxT3 t).1]; omega
  | ⟨1, _⟩ =>
    show win0_4.index t 1 * 1024 + 1 * (y 1).val = (i 1).val
    rw [(idxT3 t).2]; omega

theorem blkC3_apply (c : Dev nD) (t : Fin cfg0.N) (y : ((cfg0.win 8).xblock (cfg0.grid.coords t)).Idx) (i : S100000x64.Idx)
    (h0 : (i 0).val = 1024 * min (4 * t.val + 3) 97 + (y 0).val) (h1 : (i 1).val = (y 1).val) :
    blkOf m c 8 t y = argC m c i := by
  show V m c main_arg2 (((cfg0.win 8).blk t).view.emb y) = V m c main_arg2 i
  congr 1; funext a; apply Fin.ext
  match a with
  | ⟨0, _⟩ =>
    show win0_8.index t 0 * 1024 + 1 * (y 0).val = (i 0).val
    rw [(idxC3 t).1]; omega
  | ⟨1, _⟩ =>
    show win0_8.index t 1 * 64 + 1 * (y 1).val = (i 1).val
    rw [(idxC3 t).2]; omega

/-! ## A staged block on the part its fetch moved -/

theorem ibk_of_moved (c : Dev nD) (w : Fin cfg0.W) (t : Fin cfg0.N) (j : (cfg0.win w).block.Idx)
    (hm : (cfg0.win w).moved (cfg0.grid.coords t) j = true) :
    ibk m c w t j = blkOf m c w t (fun a => ⟨(j a).val, ((cfg0.win w).moved_iff _ j).mp hm a⟩) := by
  unfold ibk Window.fill; rw [dif_pos hm]

theorem moved_of_unclipped (w : Fin cfg0.W) (t : Fin cfg0.N) (h : (cfg0.win w).clipped (cfg0.grid.coords t) = false)
    (j : (cfg0.win w).block.Idx) : (cfg0.win w).moved (cfg0.grid.coords t) j = true :=
  ((cfg0.win w).moved_iff _ j).mpr fun a => by
    have := (j a).isLt; unfold Window.xsize; rw [((cfg0.win w).clipped_eq_false_iff _).mp h a]; exact this

/-- x's staged block is x. -/
theorem ibkX_apply (c : Dev nD) (t : Fin cfg0.N) (p : Fin 1024) (q : Fin 64) :
    xb m c t (ix2 p q) = argX m c (ix2 p q) := by
  exact (ibk_of_moved m c 0 t _ (moved_of_unclipped 0 t (unclipped_always 0 (by decide) t) _)).trans (blkX_apply m c t _ _ rfl rfl)

/-! ## The product of a stream's two staged blocks is a block sum -/

theorem stream0 (c : Dev nD) (t : Fin cfg0.N) (b : ℕ) (hb : 4 * t.val + 0 = b) (hle : b ≤ 96) (p : Fin 1024) (q : Fin 64) :
    (∑ k : Fin 1024, tb0 m c t (ix2 p k) * cb0 m c t (ix2 k q))
      = blockSum (argT m c) (argC m c) b 1024 p q := by
  subst hb
  unfold blockSum
  rw [Finset.sum_range]
  refine Finset.sum_congr rfl fun k _ => ?_
  have hk : 1024 * (4 * t.val + 0) + k.val < 100000 := by have := k.isLt; omega
  unfold term; rw [dif_pos hk]
  congr 1
  · exact (ibk_of_moved m c 1 t _ (moved_of_unclipped 1 t (unclipped_always 1 (by decide) t) _)).trans
      (blkT0_apply m c t _ _ rfl (by show 1024 * (4 * t.val + 0) + k.val = 1024 * min (4 * t.val + 0) 97 + k.val; rw [Nat.min_eq_left (by omega)]))
  · exact (ibk_of_moved m c 5 t _ (moved_of_unclipped 5 t (unclipped_always 5 (by decide) t) _)).trans
      (blkC0_apply m c t _ _ (by show 1024 * (4 * t.val + 0) + k.val = 1024 * min (4 * t.val + 0) 97 + k.val; rw [Nat.min_eq_left (by omega)]) rfl)

theorem stream1 (c : Dev nD) (t : Fin cfg0.N) (b : ℕ) (hb : 4 * t.val + 1 = b) (hle : b ≤ 96) (p : Fin 1024) (q : Fin 64) :
    (∑ k : Fin 1024, tb1 m c t (ix2 p k) * cb1 m c t (ix2 k q))
      = blockSum (argT m c) (argC m c) b 1024 p q := by
  subst hb
  unfold blockSum
  rw [Finset.sum_range]
  refine Finset.sum_congr rfl fun k _ => ?_
  have hk : 1024 * (4 * t.val + 1) + k.val < 100000 := by have := k.isLt; omega
  unfold term; rw [dif_pos hk]
  congr 1
  · exact (ibk_of_moved m c 2 t _ (moved_of_unclipped 2 t (unclipped_before_last 2 (by decide) t (by omega)) _)).trans
      (blkT1_apply m c t _ _ rfl (by show 1024 * (4 * t.val + 1) + k.val = 1024 * min (4 * t.val + 1) 97 + k.val; rw [Nat.min_eq_left (by omega)]))
  · exact (ibk_of_moved m c 6 t _ (moved_of_unclipped 6 t (unclipped_before_last 6 (by decide) t (by omega)) _)).trans
      (blkC1_apply m c t _ _ (by show 1024 * (4 * t.val + 1) + k.val = 1024 * min (4 * t.val + 1) 97 + k.val; rw [Nat.min_eq_left (by omega)]) rfl)

theorem stream2 (c : Dev nD) (t : Fin cfg0.N) (b : ℕ) (hb : 4 * t.val + 2 = b) (hle : b ≤ 96) (p : Fin 1024) (q : Fin 64) :
    (∑ k : Fin 1024, tb2 m c t (ix2 p k) * cb2 m c t (ix2 k q))
      = blockSum (argT m c) (argC m c) b 1024 p q := by
  subst hb
  unfold blockSum
  rw [Finset.sum_range]
  refine Finset.sum_congr rfl fun k _ => ?_
  have hk : 1024 * (4 * t.val + 2) + k.val < 100000 := by have := k.isLt; omega
  unfold term; rw [dif_pos hk]
  congr 1
  · exact (ibk_of_moved m c 3 t _ (moved_of_unclipped 3 t (unclipped_before_last 3 (by decide) t (by omega)) _)).trans
      (blkT2_apply m c t _ _ rfl (by show 1024 * (4 * t.val + 2) + k.val = 1024 * min (4 * t.val + 2) 97 + k.val; rw [Nat.min_eq_left (by omega)]))
  · exact (ibk_of_moved m c 7 t _ (moved_of_unclipped 7 t (unclipped_before_last 7 (by decide) t (by omega)) _)).trans
      (blkC2_apply m c t _ _ (by show 1024 * (4 * t.val + 2) + k.val = 1024 * min (4 * t.val + 2) 97 + k.val; rw [Nat.min_eq_left (by omega)]) rfl)

theorem stream3 (c : Dev nD) (t : Fin cfg0.N) (b : ℕ) (hb : 4 * t.val + 3 = b) (hle : b ≤ 96) (p : Fin 1024) (q : Fin 64) :
    (∑ k : Fin 1024, tb3 m c t (ix2 p k) * cb3 m c t (ix2 k q))
      = blockSum (argT m c) (argC m c) b 1024 p q := by
  subst hb
  unfold blockSum
  rw [Finset.sum_range]
  refine Finset.sum_congr rfl fun k _ => ?_
  have hk : 1024 * (4 * t.val + 3) + k.val < 100000 := by have := k.isLt; omega
  unfold term; rw [dif_pos hk]
  congr 1
  · exact (ibk_of_moved m c 4 t _ (moved_of_unclipped 4 t (unclipped_before_last 4 (by decide) t (by omega)) _)).trans
      (blkT3_apply m c t _ _ rfl (by show 1024 * (4 * t.val + 3) + k.val = 1024 * min (4 * t.val + 3) 97 + k.val; rw [Nat.min_eq_left (by omega)]))
  · exact (ibk_of_moved m c 8 t _ (moved_of_unclipped 8 t (unclipped_before_last 8 (by decide) t (by omega)) _)).trans
      (blkC3_apply m c t _ _ (by show 1024 * (4 * t.val + 3) + k.val = 1024 * min (4 * t.val + 3) 97 + k.val; rw [Nat.min_eq_left (by omega)]) rfl)

/-! ## The running total -/

set_option maxHeartbeats 1000000 in
/-- After point `n < 24` the running total is the sum of the first `n + 1` grid steps. -/
theorem accAt_apply (c : Dev nD) : ∀ (n : ℕ) (hn : n < cfg0.N), n < 24 → ∀ (p : Fin 1024) (q : Fin 64),
    acc m c n hn (ix2 p q) = accSum (argT m c) (argC m c) (n + 1) p q := by
  intro n
  induction n with
  | zero =>
    intro hn _ p q
    calc acc m c 0 hn (ix2 p q)
        = (k0_pay2 (F := Ideal) (tb0 m c ⟨0, hn⟩) (cb0 m c ⟨0, hn⟩) (tb1 m c ⟨0, hn⟩) (cb1 m c ⟨0, hn⟩) (tb2 m c ⟨0, hn⟩) (cb2 m c ⟨0, hn⟩) (tb3 m c ⟨0, hn⟩) (cb3 m c ⟨0, hn⟩) (k0_pay1 (F := Ideal))) (ix2 p q) :=
          congrFun (accAt_first m c ⟨0, hn⟩ rfl) _
      _ = (k0_pay1 (F := Ideal)) (ix2 p q) + ((((∑ k : Fin 1024, tb0 m c ⟨0, hn⟩ (ix2 p k) * cb0 m c ⟨0, hn⟩ (ix2 k q))
            + (∑ k : Fin 1024, tb1 m c ⟨0, hn⟩ (ix2 p k) * cb1 m c ⟨0, hn⟩ (ix2 k q)))
            + (∑ k : Fin 1024, tb2 m c ⟨0, hn⟩ (ix2 p k) * cb2 m c ⟨0, hn⟩ (ix2 k q)))
            + (∑ k : Fin 1024, tb3 m c ⟨0, hn⟩ (ix2 p k) * cb3 m c ⟨0, hn⟩ (ix2 k q))) :=
          Pay.pay2_apply _ _ _ _ _ _ _ _ _ p q
      _ = 0 + stepSum (argT m c) (argC m c) 0 p q := by
          rw [Pay.pay1_apply, stream0 m c ⟨0, hn⟩ (4 * 0) rfl (by omega) p q, stream1 m c ⟨0, hn⟩ (4 * 0 + 1) rfl (by omega) p q,
            stream2 m c ⟨0, hn⟩ (4 * 0 + 2) rfl (by omega) p q, stream3 m c ⟨0, hn⟩ (4 * 0 + 3) rfl (by omega) p q]
          rfl
      _ = accSum (argT m c) (argC m c) (0 + 1) p q := by
          unfold accSum; rw [Finset.sum_range_succ, Finset.sum_range_zero]
  | succ n ih =>
    intro hn h24 p q
    have hn' : n < cfg0.N := Nat.lt_of_succ_lt hn
    calc acc m c (n + 1) hn (ix2 p q)
        = (k0_pay2 (F := Ideal) (tb0 m c ⟨n + 1, hn⟩) (cb0 m c ⟨n + 1, hn⟩) (tb1 m c ⟨n + 1, hn⟩) (cb1 m c ⟨n + 1, hn⟩) (tb2 m c ⟨n + 1, hn⟩) (cb2 m c ⟨n + 1, hn⟩) (tb3 m c ⟨n + 1, hn⟩) (cb3 m c ⟨n + 1, hn⟩) (acc m c n hn')) (ix2 p q) :=
          congrFun (accAt_step m c ⟨n + 1, hn⟩ (Nat.succ_ne_zero n) h24) _
      _ = acc m c n hn' (ix2 p q) + ((((∑ k : Fin 1024, tb0 m c ⟨n + 1, hn⟩ (ix2 p k) * cb0 m c ⟨n + 1, hn⟩ (ix2 k q))
            + (∑ k : Fin 1024, tb1 m c ⟨n + 1, hn⟩ (ix2 p k) * cb1 m c ⟨n + 1, hn⟩ (ix2 k q)))
            + (∑ k : Fin 1024, tb2 m c ⟨n + 1, hn⟩ (ix2 p k) * cb2 m c ⟨n + 1, hn⟩ (ix2 k q)))
            + (∑ k : Fin 1024, tb3 m c ⟨n + 1, hn⟩ (ix2 p k) * cb3 m c ⟨n + 1, hn⟩ (ix2 k q))) :=
          Pay.pay2_apply _ _ _ _ _ _ _ _ _ p q
      _ = accSum (argT m c) (argC m c) (n + 1) p q + stepSum (argT m c) (argC m c) (n + 1) p q := by
          rw [ih hn' (by omega) p q, stream0 m c ⟨n + 1, hn⟩ (4 * (n + 1)) rfl (by omega) p q, stream1 m c ⟨n + 1, hn⟩ (4 * (n + 1) + 1) rfl (by omega) p q,
            stream2 m c ⟨n + 1, hn⟩ (4 * (n + 1) + 2) rfl (by omega) p q, stream3 m c ⟨n + 1, hn⟩ (4 * (n + 1) + 3) rfl (by omega) p q]
          rfl
      _ = accSum (argT m c) (argC m c) (n + 1 + 1) p q := by
          unfold accSum; rw [Finset.sum_range_succ (fun s => stepSum (argT m c) (argC m c) s p q) (n + 1)]

end Cert.KernelIdeal.Hand

end
-- ==== Proof.KIValueB.lean ====
/-
  The kernel's value at the extended reals, second half: the loss, and the loss array after the run.

  At the last point the first stream holds block 96 whole; of the second stream's block 97 the body takes the 672
  classes inside the arrays.  The epilogue subtracts the running total plus those two block sums from x, squares and
  sums each row: the specification's loss with the product arranged block by block.  The loss window's one block is
  the whole loss array, written back at the last point only: the array ends holding that loss.
-/
import proofs.«138405_g52578989637756_cont_9to1c4b_755_4_alg».proof.Proof.KIValueA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx Cert.CenterLoss
open scoped BigOperators

variable (m : (ℓ : Loc nD τ sig) → Buf (Elt Ideal) ℓ) (ρ : Dev nD → PrngReg)

/-! ## The leading 672 classes of the second stream's blocks at the last point -/

/-- What the last point loads of the second stream: the leading 672 columns of its target block, the leading 672
    rows of its center block. -/
abbrev tl (c : Dev nD) (t : Fin cfg0.N) : Vec Ideal S1024x672 .f32 := View.ld (tb1 m c t) (Rect.unit (s := S1024x1024) ![0, 0] S1024x672.size inb_S1024x1024_S1024x672_0_0)
abbrev cl (c : Dev nD) (t : Fin cfg0.N) : Vec Ideal S672x64 .f32 := View.ld (cb1 m c t) (Rect.unit (s := S1024x64) ![0, 0] S672x64.size inb_S1024x64_S672x64_0_0)

theorem ldT_apply (c : Dev nD) (t : Fin cfg0.N) (p : Fin 1024) (k : Fin 672) :
    tl m c t (ix2 p k) = tb1 m c t (ix2 p ⟨k.val, by have := k.isLt; omega⟩) := by
  show tb1 m c t ((Rect.unit (s := S1024x1024) ![0, 0] S1024x672.size inb_S1024x1024_S1024x672_0_0).emb (ix2 p k)) = _
  congr 1; funext a; apply Fin.ext
  match a with
  | ⟨0, _⟩ => rw [Rect.emb_apply]; show 0 + 1 * p.val = p.val; omega
  | ⟨1, _⟩ => rw [Rect.emb_apply]; show 0 + 1 * k.val = k.val; omega

theorem ldC_apply (c : Dev nD) (t : Fin cfg0.N) (k : Fin 672) (q : Fin 64) :
    cl m c t (ix2 k q) = cb1 m c t (ix2 ⟨k.val, by have := k.isLt; omega⟩ q) := by
  show cb1 m c t ((Rect.unit (s := S1024x64) ![0, 0] S672x64.size inb_S1024x64_S672x64_0_0).emb (ix2 k q)) = _
  congr 1; funext a; apply Fin.ext
  match a with
  | ⟨0, _⟩ => rw [Rect.emb_apply]; show 0 + 1 * k.val = k.val; omega
  | ⟨1, _⟩ => rw [Rect.emb_apply]; show 0 + 1 * q.val = q.val; omega

theorem movedT_tail (t : Fin cfg0.N) (p : Fin 1024) (k : Fin 1024) (hk : k.val < 672) :
    (cfg0.win 2).moved (cfg0.grid.coords t) (ix2 p k) = true :=
  ((cfg0.win 2).moved_iff _ _).mpr fun a => by
    have hx := xsize_2 t
    have hp := p.isLt
    match a with
    | ⟨0, _⟩ => show p.val < (cfg0.win 2).xsize (cfg0.grid.coords t) 0; omega
    | ⟨1, _⟩ => show k.val < (cfg0.win 2).xsize (cfg0.grid.coords t) 1; omega

theorem movedC_tail (t : Fin cfg0.N) (k : Fin 1024) (q : Fin 64) (hk : k.val < 672) :
    (cfg0.win 6).moved (cfg0.grid.coords t) (ix2 k q) = true :=
  ((cfg0.win 6).moved_iff _ _).mpr fun a => by
    have hx := xsize_6 t
    have hq := q.isLt
    match a with
    | ⟨0, _⟩ => show k.val < (cfg0.win 6).xsize (cfg0.grid.coords t) 0; omega
    | ⟨1, _⟩ => show q.val < (cfg0.win 6).xsize (cfg0.grid.coords t) 1; omega

/-- The 672 classes of block 97 the last point multiplies: the specification's last, short block sum. -/
theorem tail97 (c : Dev nD) (t : Fin cfg0.N) (h24 : t.val = 24) (p : Fin 1024) (q : Fin 64) :
    (∑ k : Fin 672, tl m c t (ix2 p k) * cl m c t (ix2 k q))
      = blockSum (argT m c) (argC m c) 97 672 p q := by
  unfold blockSum
  rw [Finset.sum_range]
  refine Finset.sum_congr rfl fun k _ => ?_
  have hk : 1024 * 97 + k.val < 100000 := by have := k.isLt; omega
  unfold term; rw [dif_pos hk, ldT_apply, ldC_apply]
  congr 1
  · exact (ibk_of_moved m c 2 t _ (movedT_tail t p ⟨k.val, by have := k.isLt; omega⟩ k.isLt)).trans
      (blkT1_apply m c t _ _ rfl (by show 1024 * 97 + k.val = 1024 * min (4 * t.val + 1) 97 + k.val; omega))
  · exact (ibk_of_moved m c 6 t _ (movedC_tail t ⟨k.val, by have := k.isLt; omega⟩ q k.isLt)).trans
      (blkC1_apply m c t _ _ (by show 1024 * 97 + k.val = 1024 * min (4 * t.val + 1) 97 + k.val; omega) rfl)

/-! ## The loss -/

/-- What the last point stores is the specification's loss with the product taken block by block. -/
theorem outAt_apply (c : Dev nD) (t : Fin cfg0.N) (h24 : t.val = 24) (p : Fin 1024) (o : Fin 1) :
    (outAt m c t : Vec Ideal S1024x1 .f32) (ix2 p o) = K (argT m c) (argC m c) (argX m c) (ix2 p o) := by
  have hacc : ∀ q : Fin 64, acc m c (t.val - 1) (Nat.lt_of_le_of_lt (Nat.sub_le _ _) t.isLt) (ix2 p q)
      = accSum (argT m c) (argC m c) 24 p q := fun q => by
    have e := accAt_apply m c (t.val - 1) (Nat.lt_of_le_of_lt (Nat.sub_le _ _) t.isLt) (by omega) p q
    rw [show t.val - 1 + 1 = 24 from by omega] at e
    exact e
  calc (outAt m c t : Vec Ideal S1024x1 .f32) (ix2 p o)
      = (k0_pay3 (F := Ideal) (tb0 m c t) (cb0 m c t) (tl m c t) (cl m c t) (xb m c t) (acc m c (t.val - 1) (Nat.lt_of_le_of_lt (Nat.sub_le _ _) t.isLt))) (ix2 p o) := rfl
    _ = ∑ q : Fin 64, (xb m c t (ix2 p q) - (acc m c (t.val - 1) (Nat.lt_of_le_of_lt (Nat.sub_le _ _) t.isLt) (ix2 p q)
            + ((0 + ∑ k : Fin 1024, tb0 m c t (ix2 p k) * cb0 m c t (ix2 k q)) + ∑ k : Fin 672, tl m c t (ix2 p k) * cl m c t (ix2 k q))))
          * (xb m c t (ix2 p q) - (acc m c (t.val - 1) (Nat.lt_of_le_of_lt (Nat.sub_le _ _) t.isLt) (ix2 p q)
            + ((0 + ∑ k : Fin 1024, tb0 m c t (ix2 p k) * cb0 m c t (ix2 k q)) + ∑ k : Fin 672, tl m c t (ix2 p k) * cl m c t (ix2 k q)))) :=
        Pay.pay3_apply _ _ _ _ _ _ p o
    _ = ∑ q : Fin 64, (argX m c (ix2 p q) - kprod (argT m c) (argC m c) p q) * (argX m c (ix2 p q) - kprod (argT m c) (argC m c) p q) := by
        refine Finset.sum_congr rfl fun q _ => ?_
        rw [ibkX_apply, hacc q, stream0 m c t 96 (by omega) (by omega) p q, tail97 m c t h24 p q]
        rfl
    _ = K (argT m c) (argC m c) (argX m c) (ix2 p o) := rfl

/-! ## The loss array after the run -/

/-- The last grid point. -/
def t24 : Fin cfg0.N := ⟨24, by show 24 < grid0.N; rw [N_0]; omega⟩

/-- The loss window's block is the whole loss array, at every point. -/
theorem mem_blk9 (t : Fin cfg0.N) (i : S1024x1.Idx) : i ∈ (win0_9.blk t).view.set := by
  show i ∈ ((View.whole main_v0).slice (win0_9.rect t)).set
  rw [View.set_slice_whole, Rect.mem_set_unit]
  intro a
  match a with
  | ⟨0, _⟩ =>
    show win0_9.index t 0 * 1024 ≤ (i 0).val ∧ (i 0).val < win0_9.index t 0 * 1024 + 1024
    rw [(idxO t).1]; have : (i 0).val < 1024 := (i 0).isLt; omega
  | ⟨1, _⟩ =>
    show win0_9.index t 1 * 1 ≤ (i 1).val ∧ (i 1).val < win0_9.index t 1 * 1 + 1
    rw [(idxO t).2]; have : (i 1).val < 1 := (i 1).isLt; omega

/-- The loss array ends holding the loss: its one block is the whole array, written back at the last point. -/
theorem final9 (c : Dev nD) :
    (dats m 0 c).arrAt 9 cfg0.N = (K (argT m c) (argC m c) (argX m c) : S1024x1.Idx → EReal) := by
  refine (dats m 0 c).arrAt_eq_of_cover 9 _ (fun t hf => ?_) (fun i => ?_)
  · have h24 : t.val = 24 := by
      have h := (flush0_9 t).mp hf
      have hN : t.val < 25 := lt_of_lt_of_eq t.isLt (show cfg0.N = 25 from N_0)
      omega
    show (dats m 0 c).after 9 t = _
    rw [after9]
    funext y
    obtain ⟨p, o, rfl⟩ : ∃ (p : Fin 1024) (o : Fin 1), y = ix2 p o := ⟨y 0, y 1, eq_ix2 y⟩
    rw [outAt_apply m c t h24 p o]
    show K (argT m c) (argC m c) (argX m c) (ix2 p o) = K (argT m c) (argC m c) (argX m c) (((cfg0.win 9).blk t).view.emb (ix2 p o))
    congr 1; funext a; apply Fin.ext
    match a with
    | ⟨0, _⟩ =>
      show p.val = win0_9.index t 0 * 1024 + 1 * p.val
      rw [(idxO t).1]; omega
    | ⟨1, _⟩ =>
      show o.val = win0_9.index t 1 * 1 + 1 * o.val
      rw [(idxO t).2]; omega
  · exact ⟨t24, (flush0_9 _).mpr rfl, mem_blk9 t24 i⟩

end Cert.KernelIdeal.Hand

end
-- ==== Proof.RefValue.lean ====
/-
  The reference computes the specification's function.

  Of the reference's operations only one chain reaches its result: the product targets · centers taken in ONE
  contraction over the 100000 classes, its difference from the batch, the square of that difference, the sum of the
  squares along the 64 features starting from the zero word, and a reshape of the 1024 sums into a column.  Read at a
  row o of the column this is  0 + Σ_j (x[o, j] − Σ_k targets[o, k] · centers[k, j])²,  and the inner sum over the finite
  type of classes is the sum over the first 100000 naturals of the specification's terms (each class index is below
  100000, so none of them is the zero of the term's other branch).  Nothing about the values is used.
-/
import proofs.«138405_g52578989637756_cont_9to1c4b_755_4_alg».proof.Proof.Gen.ReferenceIdeal.Read
import proofs.«138405_g52578989637756_cont_9to1c4b_755_4_alg».proof.Proof.Spec

noncomputable section

open scoped BigOperators
open Idealize.ShloMosaic Idealize.ShloMosaic.TcCoe Idealize.ShloMosaic.ValueIdx

namespace Cert.ReferenceIdeal.RefValue

open Cert.ReferenceIdeal Cert.ReferenceIdeal.Gen Cert.CenterLoss

/-! ## The indices the operations read at, by coordinates -/

/-- Row o of the column, feature j: the reshape and the sum along the features read the squares at (o, j). -/
theorem idx_row (o : S1024x1.Idx) (j : Fin 64) :
    Read.idx_main_v17 (Read.idx_main_v18 o) j = (ix2 (o 0) j : S1024x64.Idx) :=
  funext fun a => Fin.ext (by match a with | ⟨0, _⟩ => rfl | ⟨1, _⟩ => rfl)

/-- Entry (i, j) of the product reads the targets at (i, k) … -/
theorem lidx_eq (i : Fin 1024) (j : Fin 64) (k : Fin 100000) :
    Read.lidx_main_v14 (ix2 i j : S1024x64.Idx) k = (ix2 i k : S1024x100000.Idx) :=
  funext fun a => Fin.ext (by match a with | ⟨0, _⟩ => rfl | ⟨1, _⟩ => rfl)

/-- … and the centers at (k, j). -/
theorem ridx_eq (i : Fin 1024) (j : Fin 64) (k : Fin 100000) :
    Read.ridx_main_v14 (ix2 i j : S1024x64.Idx) k = (ix2 k j : S100000x64.Idx) :=
  funext fun a => Fin.ext (by match a with | ⟨0, _⟩ => rfl | ⟨1, _⟩ => rfl)

/-! ## The contraction is the specification's product -/

/-- The specification's term at a class index below 100000 is the product of the two entries. -/
theorem term_fin (t : FVec Ideal S1024x100000 .f32) (c : FVec Ideal S100000x64 .f32) (i : Fin 1024) (j : Fin 64)
    (k : Fin 100000) : term t c i j k.val = t (ix2 i k) * c (ix2 k j) := by
  unfold term
  rw [dif_pos k.isLt]

/-- The sum over the finite type of classes is the sum over the first 100000 naturals. -/
theorem dot_eq_prod (t : FVec Ideal S1024x100000 .f32) (c : FVec Ideal S100000x64 .f32) (i : Fin 1024) (j : Fin 64) :
    ∑ k : Fin 100000, t (Read.lidx_main_v14 (ix2 i j : S1024x64.Idx) k) * c (Read.ridx_main_v14 (ix2 i j : S1024x64.Idx) k)
      = prod t c i j := by
  unfold prod
  rw [Finset.sum_range]
  refine Finset.sum_congr rfl fun k _ => ?_
  rw [lidx_eq, ridx_eq, term_fin]

/-! ## The result -/

/-- The reference's result, as the generated reading names it, is the specification's function of the three arrays. -/
theorem ref_eq_G (x : FVec Ideal S1024x64 .f32) (t : FVec Ideal S1024x100000 .f32) (c : FVec Ideal S100000x64 .f32) :
    Read.val_main_v18 (F := Ideal) x t c = G t c x := by
  funext o
  rw [Read.val_main_v18_apply, Read.val_main_v17_apply, Read.val_main_cst_2_apply]
  simp only [Read.val_main_v16_apply, Read.val_main_v15_apply, Read.val_main_v14_apply, idx_row,
    Ideal.ofBits_def, Ideal.ofBits_zero_f32, Ideal.mulf_def, Ideal.subf_def, zero_add]
  unfold G
  refine Finset.sum_congr rfl fun j _ => ?_
  rw [dot_eq_prod t c (o 0) j]

/-- The same, stated at the term the reference's run ends at. -/
theorem ref_run_eq_G (x : FVec Ideal S1024x64 .f32) (t : FVec Ideal S1024x100000 .f32) (c : FVec Ideal S100000x64 .f32) :
    broadcastInDim S1024x1 ![0] bcast_S1024_S1024x1_0 (Host.reduceAdd (F := Ideal) (mulf (subf x (Host.dotGeneral (F := Ideal) dot_S1024x100000_S100000x64_S1024x64_1_0_0_1_n_n none t c)) (subf x (Host.dotGeneral (F := Ideal) dot_S1024x100000_S100000x64_S1024x64_1_0_0_1_n_n none t c))) (constant (F := Ideal) S_ .f32 0x00000000#32) reducesTo_S1024x64_S1024_d1 h_S_)
      = G t c x :=
  (Read.val_main_v18_eq (F := Ideal) x t c).trans (ref_eq_G x t c)

end Cert.ReferenceIdeal.RefValue

end
-- ==== Proof.lean ====
/-
  The certificate of the center-loss kernel against its reference, over the extended reals.

  The layer returns loss[i] = Σ_j (x[i, j] − (targets · centers)[i, j])².  The reference takes the product's entries
  as one sum over the 100000 classes; the kernel streams the class axis in 98 blocks of 1024 (the last holding 672),
  four blocks to a grid step, into a running total it keeps across the 25 steps, and finishes at the last step.
  Sums of extended reals may be regrouped freely, so the two programs compute one function of their arguments; the
  inputs' finiteness is not used.

  The pieces: the frames of the kernel at both instances (the run of its pipeline from any memory, four windows
  sharing the targets' buffer and four the centers'), the reference's run, the kernel's loss array in closed form,
  the regrouping law, and the reference's result as the same closed form.
-/
import proofs.«138405_g52578989637756_cont_9to1c4b_755_4_alg».proof.Defs
import proofs.«138405_g52578989637756_cont_9to1c4b_755_4_alg».proof.Proof.Gen.Kernel
import proofs.«138405_g52578989637756_cont_9to1c4b_755_4_alg».proof.Proof.Gen.KernelIdeal
import proofs.«138405_g52578989637756_cont_9to1c4b_755_4_alg».proof.Proof.Gen.ReferenceIdeal
import proofs.«138405_g52578989637756_cont_9to1c4b_755_4_alg».proof.Proof.Gen.Pre_finite_inputs
import proofs.«138405_g52578989637756_cont_9to1c4b_755_4_alg».proof.Proof.Gen.ReferenceIdeal.Run
import proofs.«138405_g52578989637756_cont_9to1c4b_755_4_alg».proof.Proof.Gen.ReferenceIdeal.Read
import proofs.«138405_g52578989637756_cont_9to1c4b_755_4_alg».proof.Proof.KBLaunch
import proofs.«138405_g52578989637756_cont_9to1c4b_755_4_alg».proof.Proof.KIValueB
import proofs.«138405_g52578989637756_cont_9to1c4b_755_4_alg».proof.Proof.RefValue
import proofs.«138405_g52578989637756_cont_9to1c4b_755_4_alg».proof.Proof.SpecLaw
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_k : Cert.frame_Kernel := fun m ρ _ => Cert.Kernel.Hand.frame m ρ

/-- So does the kernel read at the extended reals. -/
theorem frame_ki : Cert.frame_KernelIdeal := fun m ρ _ => Cert.KernelIdeal.Hand.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the loss array at the specification's loss of the (agreeing) arguments: the kernel's array
    holds it with the product arranged block by block, which is the same number; the reference's holds it outright. -/
theorem algebraic : Cert.algebraic_KernelIdeal_ReferenceIdeal := by
  intro m ρ m' ρ' _ hagree
  refine ⟨fun c => (Cert.CenterLoss.G (Cert.KernelIdeal.Hand.argT m c) (Cert.KernelIdeal.Hand.argC m c) (Cert.KernelIdeal.Hand.argX m c)), ?_, ?_⟩
  · exact (θ_run Cert.KernelIdeal.defs _ _).mono
      (fun _ h c => ⟨(h c).1.trans ((Cert.KernelIdeal.Hand.final9 m c).trans (Cert.CenterLoss.K_eq_G _ _ _)), (h c).2⟩)
      (Cert.KernelIdeal.Hand.run_named (F := Ideal) m ρ)
  · refine (θ_run Cert.ReferenceIdeal.defs _ _).mono (fun _ h c => ⟨?_, (h c).2⟩)
      (Cert.ReferenceIdeal.Value.run (F := Ideal) m' ρ')
    refine ((h c).1.trans (Cert.ReferenceIdeal.RefValue.ref_run_eq_G _ _ _)).trans ?_
    rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
